-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S16x1x128 : Shape := ⟨3, ![16, 1, 128]⟩
abbrev S512x512 : Shape := ⟨2, ![512, 512]⟩
abbrev S512x1 : Shape := ⟨2, ![512, 1]⟩
abbrev S1x1x128 : Shape := ⟨3, ![1, 1, 128]⟩
abbrev S1x1 : Shape := ⟨2, ![1, 1]⟩
abbrev S1x512 : Shape := ⟨2, ![1, 512]⟩
abbrev S512 : Shape := ⟨1, ![512]⟩
abbrev S1 : Shape := ⟨1, ![1]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 39
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S1x8192, .f32⟩
  | .hbm, ⟨12, _⟩ => ⟨S8192x512, .bf16⟩
  | .hbm, ⟨13, _⟩ => ⟨S8192x512, .bf16⟩
  | .hbm, ⟨14, _⟩ => ⟨S16x1x128, .f32⟩
  | .hbm, ⟨15, _⟩ => ⟨S16x1x1, .f32⟩
  | .hbm, ⟨16, _⟩ => ⟨S16, .f32⟩
  | .hbm, ⟨17, _⟩ => ⟨S_, .f32⟩
  | .hbm, ⟨18, _⟩ => ⟨S_, .f32⟩
  | .hbm, ⟨19, _⟩ => ⟨S16x1x128, .f32⟩
  | .hbm, ⟨20, _⟩ => ⟨S16x1x1, .f32⟩
  | .hbm, ⟨21, _⟩ => ⟨S16, .f32⟩
  | .hbm, ⟨22, _⟩ => ⟨S_, .f32⟩
  | .hbm, ⟨23, _⟩ => ⟨S_, .f32⟩
  | .hbm, ⟨24, _⟩ => ⟨S16x1x128, .f32⟩
  | .hbm, ⟨25, _⟩ => ⟨S16x1x1, .f32⟩
  | .hbm, ⟨26, _⟩ => ⟨S16, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S512x1, .f32⟩
  | .local _ .vmem, ⟨4, _⟩ => ⟨S512x1, .f32⟩
  | .local _ .vmem, ⟨5, _⟩ => ⟨S1x8192, .f32⟩
  | .local _ .vmem, ⟨6, _⟩ => ⟨S1x1x128, .f32⟩
  | .local _ .vmem, ⟨7, _⟩ => ⟨S1x1x128, .f32⟩
  | .local _ .vmem, ⟨8, _⟩ => ⟨S512x512, .bf16⟩
  | .local _ .vmem, ⟨9, _⟩ => ⟨S512x512, .bf16⟩
  | .local _ .vmem, ⟨10, _⟩ => ⟨S8192x512, .bf16⟩
  | .local _ .vmem, ⟨11, _⟩ => ⟨S512x1, .f32⟩
  | .local _ .vmem, ⟨12, _⟩ => ⟨S512x1, .f32⟩
  | .local _ .vmem, ⟨13, _⟩ => ⟨S1x8192, .f32⟩
  | .local _ .vmem, ⟨14, _⟩ => ⟨S1x1x128, .f32⟩
  | .local _ .vmem, ⟨15, _⟩ => ⟨S1x1x128, .f32⟩
  | .local _ .vmem, ⟨16, _⟩ => ⟨S512x512, .bf16⟩
  | .local _ .vmem, ⟨17, _⟩ => ⟨S512x512, .bf16⟩
  | .local _ .vmem, ⟨18, _⟩ => ⟨S8192x512, .bf16⟩
  | .local _ .vmem, ⟨19, _⟩ => ⟨S512x1, .f32⟩
  | .local _ .vmem, ⟨20, _⟩ => ⟨S512x1, .f32⟩
  | .local _ .vmem, ⟨21, _⟩ => ⟨S1x8192, .f32⟩
  | .local _ .vmem, ⟨22, _⟩ => ⟨S1x1x128, .f32⟩
  | .local _ .vmem, ⟨23, _⟩ => ⟨S1x1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v12 : BitVec 32 := Scalar.muli arg6 c512_i32
  v12
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v12 : BitVec 32 := Scalar.muli arg6 c512_i32
  let v13 : BitVec 32 := v12
  let v14 : Index := Scalar.indexCast v13
  let c0_7 : Index := 0#32
  ![v14.toNat, 0]
def k0_off2 (k0_t1 : Fin k0_t1_loop.trips) : Fin 2 → Nat :=
  let c0_8 : Index := 0#32
  let c0_i32 : BitVec 32 := 0#32
  let c1_i32 : BitVec 32 := 1#32
  let arg6 : BitVec 32 := Scf.iv c0_i32 c1_i32 k0_t1
  let c512_i32 : BitVec 32 := 512#32
  let v12 : BitVec 32 := Scalar.muli arg6 c512_i32
  let v13 : BitVec 32 := v12
  let v17 : Index := Scalar.indexCast v13
  ![0, v17.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

@[reducible] def k1_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c512_i32 : BitVec 32 := 512#32
  let v12 : BitVec 32 := Scalar.muli arg6 c512_i32
  v12
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let c512_i32 : BitVec 32 := 512#32
  let v12 : BitVec 32 := Scalar.muli arg6 c512_i32
  let v13 : BitVec 32 := v12
  let v14 : Index := Scalar.indexCast v13
  let c0_7 : Index := 0#32
  ![v14.toNat, 0]
def k1_off2 (k1_t1 : Fin k1_t1_loop.trips) : Fin 2 → Nat :=
  let c0_8 : Index := 0#32
  let c0_i32 : BitVec 32 := 0#32
  let c1_i32 : BitVec 32 := 1#32
  let arg6 : BitVec 32 := Scf.iv c0_i32 c1_i32 k1_t1
  let c512_i32 : BitVec 32 := 512#32
  let v12 : BitVec 32 := Scalar.muli arg6 c512_i32
  let v13 : BitVec 32 := v12
  let v17 : Index := Scalar.indexCast v13
  ![0, v17.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

@[reducible] def k2_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k2_mult1 (k2_t1 : Fin k2_t1_loop.trips) : BitVec 32 :=
  let c0_i32 : BitVec 32 := 0#32
  let c1_i32 : BitVec 32 := 1#32
  let arg6 : BitVec 32 := Scf.iv c0_i32 c1_i32 k2_t1
  let c512_i32 : BitVec 32 := 512#32
  let v12 : BitVec 32 := Scalar.muli arg6 c512_i32
  v12
def k2_off1 (k2_t1 : Fin k2_t1_loop.trips) : Fin 2 → Nat :=
  let c0_i32 : BitVec 32 := 0#32
  let c1_i32 : BitVec 32 := 1#32
  let arg6 : BitVec 32 := Scf.iv c0_i32 c1_i32 k2_t1
  let c512_i32 : BitVec 32 := 512#32
  let v12 : BitVec 32 := Scalar.muli arg6 c512_i32
  let v13 : BitVec 32 := v12
  let v14 : Index := Scalar.indexCast v13
  let c0_7 : Index := 0#32
  ![v14.toNat, 0]
def k2_off2 (k2_t1 : Fin k2_t1_loop.trips) : Fin 2 → Nat :=
  let c0_8 : Index := 0#32
  let c0_i32 : BitVec 32 := 0#32
  let c1_i32 : BitVec 32 := 1#32
  let arg6 : BitVec 32 := Scf.iv c0_i32 c1_i32 k2_t1
  let c512_i32 : BitVec 32 := 512#32
  let v12 : BitVec 32 := Scalar.muli arg6 c512_i32
  let v13 : BitVec 32 := v12
  let v17 : Index := Scalar.indexCast v13
  ![0, v17.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x8192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  h_S1x512 : 0 < S1x512.numel
  shapeCasts_S1x512_S1x512 : S1x512.ShapeCasts S1x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S16x1x128_S16x1x1_0_0_0 : S16x1x128.Slices ![0, 0, 0] S16x1x1
  shapeCasts_S16x1x1_S16 : S16x1x1.ShapeCasts S16
  reducesTo_S16_S_d0 : S16.ReducesTo [0] S_
  dot_S512x512_S512x512_S512x512_1_1_0_0_n_n_wf : DotDims.WF S512x512 S512x512 S512x512 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x512.size a ≤ S8192x512.size a
  k0_off2_inb : ∀ k0_t1 : Fin k0_t1_loop.trips, ∀ a, (k0_off2 k0_t1) a + S1x512.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S512x512.size a ≤ S8192x512.size a
  k1_off2_inb : ∀ k1_t1 : Fin k1_t1_loop.trips, ∀ a, (k1_off2 k1_t1) a + S1x512.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .bf16 = 32 ∨ (Rect.block (s := S8192x512) S512x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S16x1x128.size a
  hwx1_4 : ∀ i : grid1.Coords, EltTy.bits .f32 = 32 ∨ (Rect.block (s := S16x1x128) S1x1x128.size (cc1_transform_4 i) (hinb1_4 i)).WholeWords (EltTy.packing .f32)
  hrank2 : 0 < grid2.rank
  k2_t1_ok : k2_t1_loop.OK
  k2_mult1_dvd : ∀ k2_t1 : Fin k2_t1_loop.trips, 512 ∣ (k2_mult1 k2_t1).toNat
  k2_off1_inb : ∀ k2_t1 : Fin k2_t1_loop.trips, ∀ a, (k2_off1 k2_t1) a + S512x512.size a ≤ S8192x512.size a
  k2_off2_inb : ∀ k2_t1 : Fin k2_t1_loop.trips, ∀ a, (k2_off2 k2_t1) a + S1x512.size a ≤ S1x8192.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x512.size a
  hwx2_0 : ∀ i : grid2.Coords, EltTy.bits .bf16 = 32 ∨ (Rect.block (s := S8192x512) S512x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x512.size a ≤ S8192x512.size a
  hwx2_1 : ∀ i : grid2.Coords, EltTy.bits .bf16 = 32 ∨ (Rect.block (s := S8192x512) S8192x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8192.size a ≤ S1x8192.size a
  hwx2_3 : ∀ i : grid2.Coords, EltTy.bits .f32 = 32 ∨ (Rect.block (s := S1x8192) S1x8192.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x128.size a ≤ S16x1x128.size a
  hwx2_4 : ∀ i : grid2.Coords, EltTy.bits .f32 = 32 ∨ (Rect.block (s := S16x1x128) S1x1x128.size (cc2_transform_4 i) (hinb2_4 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v8) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v9) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x1x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v8) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S8192x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x8192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x1x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 87
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S512x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x512, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x512, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S1x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S512x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x512, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x512, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S1x8192, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S512x8192, .f32⟩
  | .hbm, ⟨61, _⟩ => ⟨S8192x8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_7 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_8 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_9 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_10 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_11 : Ref sig .tc := ⟨.hbm, 71, rfl⟩
abbrev main_v57 : Ref sig .tc := ⟨.hbm, 72, rfl⟩
abbrev main_cst_12 : Ref sig .tc := ⟨.hbm, 73, rfl⟩
abbrev main_v58 : Ref sig .tc := ⟨.hbm, 74, rfl⟩
abbrev main_cst_13 : Ref sig .tc := ⟨.hbm, 75, rfl⟩
abbrev main_v59 : Ref sig .tc := ⟨.hbm, 76, rfl⟩
abbrev main_cst_14 : Ref sig .tc := ⟨.hbm, 77, rfl⟩
abbrev main_v60 : Ref sig .tc := ⟨.hbm, 78, rfl⟩
abbrev main_v61 : Ref sig .tc := ⟨.hbm, 79, rfl⟩
abbrev main_cst_15 : Ref sig .tc := ⟨.hbm, 80, rfl⟩
abbrev main_v62 : Ref sig .tc := ⟨.hbm, 81, rfl⟩
abbrev main_cst_16 : Ref sig .tc := ⟨.hbm, 82, rfl⟩
abbrev main_v63 : Ref sig .tc := ⟨.hbm, 83, rfl⟩
abbrev main_cst_17 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KShares.lean ====
/-
  The windows' arrays among a core's unscoped buffers, for the two regions whose first two input windows read ONE array.

  A core's unscoped buffers, each held whole at the full share at a valuation `V`, are the distinct buffers behind a
  region's windows and the rest.  Region 0's five windows stand on four buffers (the first behind windows 0 and 1), and
  so do region 1's.  The region's arrays hold each window's buffer whole, an input window's at its own share and the
  output window's at the full share; with the two windows of the shared buffer at the two halves of the full share
  and the other inputs at the full share, the full-share points-to of the shared buffer splits into the two halves at
  the region's entry and the two halves join into it at the exit, the other buffers passing through unchanged.
-/
import proofs.«124713_j8907762171929_2_alg».proof.Proof.Gen.Kernel.Launch
import Idealize.ShloMosaic.Lib.Pipeline.Launch

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

/-- A points-to at an equal element set and an equal share. -/
theorem pt_congr {ℓ : Loc nD τ sig} {I J : Finset (Idx ℓ)} {q q' : PosShare TreeShare} (f : Buf (Elt F) ℓ) (hI : I = J) (hq : q = q') :
    (ℓ ↦[I]{q} f : sProp 𝕄) = (ℓ ↦[J]{q'} f) := by subst hI hq; rfl

/-! ## Region 0 -/

/-- The buffers behind region 0's five windows: four distinct ones, the first behind two windows. -/
theorem image0 : Finset.univ.image (Pipeline.arrRef spec0) = {main_v8, main_v2, main_v6, main_v10} := by decide

theorem split0 (c : Dev nD) (V : (b : Ref sig .tc) → Buf (Elt F) ((c.tc : Thread nD τ).loc b)) :
    (unscopedBufs c V : sProp 𝕄) = iprop((Pipeline.arrBufs spec0 c V : sProp 𝕄) ∗ Pipeline.unscopedRest spec0 c V) :=
  Pipeline.unscopedBufs_split₀ cfgs 0 winFacts₀0.arr_unscoped c V

theorem arrBufs0_eq (c : Dev nD) (V : (b : Ref sig .tc) → Buf (Elt F) ((c.tc : Thread nD τ).loc b)) :
    (Pipeline.arrBufs spec0 c V : sProp 𝕄)
      = iprop((((c.tc : Thread nD τ).loc main_v8) ↦{fullShare} V main_v8) ∗ (((c.tc : Thread nD τ).loc main_v2) ↦{fullShare} V main_v2)
          ∗ (((c.tc : Thread nD τ).loc main_v6) ↦{fullShare} V main_v6) ∗ (((c.tc : Thread nD τ).loc main_v10) ↦{fullShare} V main_v10)) := by
  unfold Pipeline.arrBufs
  rw [image0, bigSep_insert (by decide), bigSep_insert (by decide), bigSep_insert (by decide), bigSep_singleton]
  rfl

/-- The five windows' arrays, each a whole buffer: the first buffer at the two halves of the full share, the others at the
    full share. -/
theorem arrays0_eq {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Fa : (w : Fin cfg0.W) → Buf (Elt F) ((cfg0.win w).arr.view.loc (c.tc : Thread nD τ))) :
    (dat.arrays Fa : sProp 𝕄)
      = iprop((((c.tc : Thread nD τ).loc main_v8) ↦{fullShare.left} Fa 0) ∗ (((c.tc : Thread nD τ).loc main_v8) ↦{fullShare.right} Fa 1)
          ∗ (((c.tc : Thread nD τ).loc main_v2) ↦{fullShare} Fa 2) ∗ (((c.tc : Thread nD τ).loc main_v6) ↦{fullShare} Fa 3)
          ∗ (((c.tc : Thread nD τ).loc main_v10) ↦{fullShare} Fa 4)) := by
  unfold Dat.arrays
  rw [bigSep_W0]
  have s0 : dat.share 0 = fullShare.left := (if_neg (by decide)).trans hq0
  have s1 : dat.share 1 = fullShare.right := (if_neg (by decide)).trans hq1
  have s2 : dat.share 2 = fullShare := (if_neg (by decide)).trans hq2
  have s3 : dat.share 3 = fullShare := (if_neg (by decide)).trans hq3
  have s4 : dat.share 4 = fullShare := if_pos (by decide)
  exact congrArg₂ _ (pt_congr (Fa 0) (arr_whole0 0).set_eq_univ s0) (congrArg₂ _ (pt_congr (Fa 1) (arr_whole0 1).set_eq_univ s1)
    (congrArg₂ _ (pt_congr (Fa 2) (arr_whole0 2).set_eq_univ s2) (congrArg₂ _ (pt_congr (Fa 3) (arr_whole0 3).set_eq_univ s3)
      (pt_congr (Fa 4) (arr_whole0 4).set_eq_univ s4))))

/-- ENTRY: a core's unscoped buffers at contents `V` are region 0's arrays at the contents read off `V` — the buffer
    behind windows 0 and 1 dealt between them by halves of the full share — and the unscoped rest. -/
theorem arrays_of_unscopedBufs0 {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (Fa : (w : Fin cfg0.W) → Buf (Elt F) ((cfg0.win w).arr.view.loc (c.tc : Thread nD τ))) (hF : ∀ w, Fa w = V (Pipeline.arrRef spec0 w)) :
    (unscopedBufs c V : sProp 𝕄) ⊢ iprop(dat.arrays Fa ∗ Pipeline.unscopedRest spec0 c V) := by
  have h0 : Fa 0 = V main_v8 := hF 0
  have h1 : Fa 1 = V main_v8 := hF 1
  have h2 : Fa 2 = V main_v2 := hF 2
  have h3 : Fa 3 = V main_v6 := hF 3
  have h4 : Fa 4 = V main_v10 := hF 4
  rw [split0, arrBufs0_eq, arrays0_eq dat hq0 hq1 hq2 hq3 Fa, h0, h1, h2, h3, h4]
  iintro ⟨⟨H8, H2, H6, H10⟩, Hrest⟩
  ihave H8 := (pointsTo_share (PosShare.mem_left_op_right fullShare)).1 $$ H8
  icases H8 with ⟨H8l, H8r⟩
  isplitr [Hrest]
  · isplitl [H8l]; · iexact H8l
    isplitl [H8r]; · iexact H8r
    isplitl [H2]; · iexact H2
    isplitl [H6]; · iexact H6
    iexact H10
  · iexact Hrest

/-- EXIT: region 0's arrays at contents `Fa` and the unscoped rest at `V` are the core's unscoped buffers at any
    valuation `V'` that has the arrays at `Fa` and agrees with `V` off them — the two halves of the shared buffer joined. -/
theorem unscopedBufs_of_arrays0 {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V V' : (b : Ref sig .tc) → Buf (Elt F) ((c.tc : Thread nD τ).loc b))
    (Fa : (w : Fin cfg0.W) → Buf (Elt F) ((cfg0.win w).arr.view.loc (c.tc : Thread nD τ))) (hF : ∀ w, Fa w = V' (Pipeline.arrRef spec0 w))
    (hrest : ∀ b, b ∉ Finset.univ.image (Pipeline.arrRef spec0) → V' b = V b) :
    iprop(dat.arrays Fa ∗ Pipeline.unscopedRest spec0 c V) ⊢ (unscopedBufs c V' : sProp 𝕄) := by
  have h0 : Fa 0 = V' main_v8 := hF 0
  have h1 : Fa 1 = V' main_v8 := hF 1
  have h2 : Fa 2 = V' main_v2 := hF 2
  have h3 : Fa 3 = V' main_v6 := hF 3
  have h4 : Fa 4 = V' main_v10 := hF 4
  have hr : (Pipeline.unscopedRest spec0 c V : sProp 𝕄) = Pipeline.unscopedRest spec0 c V' := by
    unfold Pipeline.unscopedRest
    exact bigSep_congr fun b hb => by rw [hrest b (Finset.mem_sdiff.mp hb).2]
  rw [split0 c V', arrBufs0_eq, arrays0_eq dat hq0 hq1 hq2 hq3 Fa, hr, h0, h1, h2, h3, h4]
  iintro ⟨⟨H8l, H8r, H2, H6, H10⟩, Hrest⟩
  isplitr [Hrest]
  · isplitl [H8l H8r]
    · iapply (pointsTo_share (PosShare.mem_left_op_right fullShare)).2
      isplitl [H8l] <;> iassumption
    isplitl [H2]; · iexact H2
    isplitl [H6]; · iexact H6
    iexact H10
  · iexact Hrest

/-! ## Region 1 -/
/-- The buffers behind region 1's five windows: four distinct ones, the first behind two windows. -/
theorem image1 : Finset.univ.image (Pipeline.arrRef spec1) = {main_v9, main_v5, main_v7, main_v14} := by decide

theorem split1 (c : Dev nD) (V : (b : Ref sig .tc) → Buf (Elt F) ((c.tc : Thread nD τ).loc b)) :
    (unscopedBufs c V : sProp 𝕄) = iprop((Pipeline.arrBufs spec1 c V : sProp 𝕄) ∗ Pipeline.unscopedRest spec1 c V) :=
  Pipeline.unscopedBufs_split₀ cfgs 1 winFacts₀1.arr_unscoped c V

theorem arrBufs1_eq (c : Dev nD) (V : (b : Ref sig .tc) → Buf (Elt F) ((c.tc : Thread nD τ).loc b)) :
    (Pipeline.arrBufs spec1 c V : sProp 𝕄)
      = iprop((((c.tc : Thread nD τ).loc main_v9) ↦{fullShare} V main_v9) ∗ (((c.tc : Thread nD τ).loc main_v5) ↦{fullShare} V main_v5)
          ∗ (((c.tc : Thread nD τ).loc main_v7) ↦{fullShare} V main_v7) ∗ (((c.tc : Thread nD τ).loc main_v14) ↦{fullShare} V main_v14)) := by
  unfold Pipeline.arrBufs
  rw [image1, bigSep_insert (by decide), bigSep_insert (by decide), bigSep_insert (by decide), bigSep_singleton]
  rfl

/-- The five windows' arrays, each a whole buffer: the first buffer at the two halves of the full share, the others at the
    full share. -/
theorem arrays1_eq {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (Fa : (w : Fin cfg1.W) → Buf (Elt F) ((cfg1.win w).arr.view.loc (c.tc : Thread nD τ))) :
    (dat.arrays Fa : sProp 𝕄)
      = iprop((((c.tc : Thread nD τ).loc main_v9) ↦{fullShare.left} Fa 0) ∗ (((c.tc : Thread nD τ).loc main_v9) ↦{fullShare.right} Fa 1)
          ∗ (((c.tc : Thread nD τ).loc main_v5) ↦{fullShare} Fa 2) ∗ (((c.tc : Thread nD τ).loc main_v7) ↦{fullShare} Fa 3)
          ∗ (((c.tc : Thread nD τ).loc main_v14) ↦{fullShare} Fa 4)) := by
  unfold Dat.arrays
  rw [bigSep_W1]
  have s0 : dat.share 0 = fullShare.left := (if_neg (by decide)).trans hq0
  have s1 : dat.share 1 = fullShare.right := (if_neg (by decide)).trans hq1
  have s2 : dat.share 2 = fullShare := (if_neg (by decide)).trans hq2
  have s3 : dat.share 3 = fullShare := (if_neg (by decide)).trans hq3
  have s4 : dat.share 4 = fullShare := if_pos (by decide)
  exact congrArg₂ _ (pt_congr (Fa 0) (arr_whole1 0).set_eq_univ s0) (congrArg₂ _ (pt_congr (Fa 1) (arr_whole1 1).set_eq_univ s1)
    (congrArg₂ _ (pt_congr (Fa 2) (arr_whole1 2).set_eq_univ s2) (congrArg₂ _ (pt_congr (Fa 3) (arr_whole1 3).set_eq_univ s3)
      (pt_congr (Fa 4) (arr_whole1 4).set_eq_univ s4))))

/-- ENTRY: a core's unscoped buffers at contents `V` are region 1's arrays at the contents read off `V` — the buffer
    behind windows 0 and 1 dealt between them by halves of the full share — and the unscoped rest. -/
theorem arrays_of_unscopedBufs1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (Fa : (w : Fin cfg1.W) → Buf (Elt F) ((cfg1.win w).arr.view.loc (c.tc : Thread nD τ))) (hF : ∀ w, Fa w = V (Pipeline.arrRef spec1 w)) :
    (unscopedBufs c V : sProp 𝕄) ⊢ iprop(dat.arrays Fa ∗ Pipeline.unscopedRest spec1 c V) := by
  have h0 : Fa 0 = V main_v9 := hF 0
  have h1 : Fa 1 = V main_v9 := hF 1
  have h2 : Fa 2 = V main_v5 := hF 2
  have h3 : Fa 3 = V main_v7 := hF 3
  have h4 : Fa 4 = V main_v14 := hF 4
  rw [split1, arrBufs1_eq, arrays1_eq dat hq0 hq1 hq2 hq3 Fa, h0, h1, h2, h3, h4]
  iintro ⟨⟨H8, H2, H6, H10⟩, Hrest⟩
  ihave H8 := (pointsTo_share (PosShare.mem_left_op_right fullShare)).1 $$ H8
  icases H8 with ⟨H8l, H8r⟩
  isplitr [Hrest]
  · isplitl [H8l]; · iexact H8l
    isplitl [H8r]; · iexact H8r
    isplitl [H2]; · iexact H2
    isplitl [H6]; · iexact H6
    iexact H10
  · iexact Hrest

/-- EXIT: region 1's arrays at contents `Fa` and the unscoped rest at `V` are the core's unscoped buffers at any
    valuation `V'` that has the arrays at `Fa` and agrees with `V` off them — the two halves of the shared buffer joined. -/
theorem unscopedBufs_of_arrays1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V V' : (b : Ref sig .tc) → Buf (Elt F) ((c.tc : Thread nD τ).loc b))
    (Fa : (w : Fin cfg1.W) → Buf (Elt F) ((cfg1.win w).arr.view.loc (c.tc : Thread nD τ))) (hF : ∀ w, Fa w = V' (Pipeline.arrRef spec1 w))
    (hrest : ∀ b, b ∉ Finset.univ.image (Pipeline.arrRef spec1) → V' b = V b) :
    iprop(dat.arrays Fa ∗ Pipeline.unscopedRest spec1 c V) ⊢ (unscopedBufs c V' : sProp 𝕄) := by
  have h0 : Fa 0 = V' main_v9 := hF 0
  have h1 : Fa 1 = V' main_v9 := hF 1
  have h2 : Fa 2 = V' main_v5 := hF 2
  have h3 : Fa 3 = V' main_v7 := hF 3
  have h4 : Fa 4 = V' main_v14 := hF 4
  have hr : (Pipeline.unscopedRest spec1 c V : sProp 𝕄) = Pipeline.unscopedRest spec1 c V' := by
    unfold Pipeline.unscopedRest
    exact bigSep_congr fun b hb => by rw [hrest b (Finset.mem_sdiff.mp hb).2]
  rw [split1 c V', arrBufs1_eq, arrays1_eq dat hq0 hq1 hq2 hq3 Fa, hr, h0, h1, h2, h3, h4]
  iintro ⟨⟨H8l, H8r, H2, H6, H10⟩, Hrest⟩
  isplitr [Hrest]
  · isplitl [H8l H8r]
    · iapply (pointsTo_share (PosShare.mem_left_op_right fullShare)).2
      isplitl [H8l] <;> iassumption
    isplitl [H2]; · iexact H2
    isplitl [H6]; · iexact H6
    iexact H10
  · iexact Hrest

end Cert.Kernel.Hand

end
-- ==== Proof.KRunCond.lean ====
/-
  The whole program's run, given its three kernel regions, with the RESULT named.

  The program is seven items in a row: host operations, the first kernel region, host operations, the second
  region, host operations, the third region, host operations.  Between two items every core holds all its
  buffers whole, at contents that are known up to what the regions leave in the three arrays they write
  (the unknowns `outs`): the launch contents, then each host stretch applied, then a region's output array replaced.
  Given, for each region, that it runs from the state before it to the state after it, every weakly fair
  execution from memory `m` terminates, and in every final memory the result buffer holds what the last of
  those contents says it holds, and the two argument arrays hold what they held at the launch (no item
  writes them).
-/
import proofs.«124713_j8907762171929_2_alg».proof.Proof.Gen.Kernel.Regions
import proofs.«124713_j8907762171929_2_alg».proof.Proof.Gen.Kernel.Launch
import Idealize.ShloMosaic.Lib.Pipeline.Frame
import Idealize.ShloMosaic.Lib.Pipeline.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

-- the run theorem's implicit arguments are found by unifying its conclusion with this one, which takes unfolding
-- plain definitions in a metavariable's type
set_option backward.isDefEq.respectTransparency.types false in
/-- For any user algebra, level assignment, launch dues and ghost resources, any rest states `E` the launch makes
    on every core at once (`hE0`) and that end owing nothing (`hE3`), any contents the regions leave (`outs`) and any
    proof data: given, per region K, a segment record entered from the thread state before it and left at the one
    after it (`RK`, `hpreK`, `hpostK`), every weakly fair execution of the program from memory `m` with zero counters
    terminates, and every final memory holds in the result buffer the last contents' value of it and in each
    argument buffer what it held at the launch. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (m : (ℓ : Loc nD τ sig) → Buf (Elt F) ℓ)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v27) = Gen.V7 m outs c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, hpost1 c, hpre2 c, hpost2 c, sep_mono .rfl (hE3 c)⟩)
    (hinit := ?_) (QY := fun c s => s.mem ((c.tc : Thread nD τ).loc main_v27) = Gen.V7 m outs c main_v27 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- at the launch every core holds its buffers at the launch contents, and the rest gives the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end the result's and each argument's buffer hold what the last contents say
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v27) (Finset.mem_filter.mpr ⟨StableHlo.devRef_mem_tcRefs main_v27, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c)⟩
    · iexact HSI

end Cert.Kernel.Hand

end
-- ==== Proof.KRegs.lean ====
/-
  The three kernel regions as segments of the whole program's run, and the run.

  Between two items of the program every core holds all its unscoped buffers whole at a known valuation, beside its
  generator register at some state and its dues at nothing.  A kernel region is entered from that state: its windows'
  arrays are split out of the unscoped buffers at the contents the valuation gives them — in regions 0 and 1 the
  buffer behind the first two input windows dealt between them by halves of the full share, in region 2 five distinct
  buffers at the full share —, the generator register goes into the region's invariant, nothing is owed; at its
  exit the arrays come back at the contents the pipeline leaves (an input array as entered, the output array at what
  the region writes), which is the next valuation: the entry valuation updated at the output's buffer.  Given the
  regions' proof data and body obligations, the program's run from any memory with zero counters terminates with the
  result buffer at the last valuation's value and both argument buffers as launched.
-/
import proofs.«124713_j8907762171929_2_alg».proof.Proof.KShares
import proofs.«124713_j8907762171929_2_alg».proof.Proof.Gen.Kernel.Regions
import proofs.«124713_j8907762171929_2_alg».proof.Proof.Gen.Kernel.Points
import proofs.«124713_j8907762171929_2_alg».proof.Proof.KRunCond
import Idealize.ShloMosaic.Lib.Pipeline.FrameBody
import Idealize.ShloMosaic.Lib.Pipeline.RegionsLoop
import Idealize.ShloMosaic.Lib.Pipeline.FrameSuffix

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- No kernel variant is named. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)

variable (m : (ℓ : Loc nD τ sig) → Buf (Elt F) ℓ) (outs : Gen.Outs (F := F))
variable (pdats : (p : Fin 3) → (c : Dev nD) → Dat τ (Elt F) Unit ℕ (UR sig nD τ) ℕ (Pipeline.pin (pcfgs (F := F)) Gen.adm p) c)

/-! ## Region 0 -/

/-- At region 0's exit each of its arrays holds what the exit valuation names: an input window's array is never
    written and is no output's buffer; the output window's array holds what the region leaves there. -/
theorem hF0 (hA0 : ∀ c w, (pdats 0 c).A w = Gen.V1 m c (Pipeline.arrRef spec0 w))
    (hout0 : ∀ c, (pdats 0 c).arrAt 4 cfg0.N = outs 2 main_v10 c) (c : Dev nD) :
    ∀ w : Fin 5, (pdats 0 c).arrAt w cfg0.N = Gen.V2 m outs c (Pipeline.arrRef spec0 w)
  | 0 => ((pdats 0 c).arrAt_in 0 rfl _).trans ((hA0 c 0).trans (Gen.V2_of m outs c main_v8 (by decide)).symm)
  | 1 => ((pdats 0 c).arrAt_in 1 rfl _).trans ((hA0 c 1).trans (Gen.V2_of m outs c main_v8 (by decide)).symm)
  | 2 => ((pdats 0 c).arrAt_in 2 rfl _).trans ((hA0 c 2).trans (Gen.V2_of m outs c main_v2 (by decide)).symm)
  | 3 => ((pdats 0 c).arrAt_in 3 rfl _).trans ((hA0 c 3).trans (Gen.V2_of m outs c main_v6 (by decide)).symm)
  | 4 => (hout0 c).trans (show outs 2 main_v10 c = Function.update (Gen.V1 m c) (Proc.devRef (τ := τ) .tc main_v10) (outs 2 main_v10 c)
      (Proc.devRef .tc main_v10) by rw [Function.update_self])
  | ⟨_ + 5, h⟩ => absurd h (Nat.not_lt.2 (Nat.le_add_left _ _))

/-- Off region 0's arrays the exit valuation is the entry valuation: the one buffer it changes is an array. -/
theorem hrest0 (c : Dev nD) (b : Ref sig .tc) (hb : b ∉ Finset.univ.image (Pipeline.arrRef spec0)) :
    Gen.V2 m outs c b = Gen.V1 m c b :=
  Gen.V2_of m outs c b fun h => hb (by rw [List.mem_singleton.mp h, image0]; decide)

set_option backward.isDefEq.respectTransparency.types false in
/-- REGION 0 over the thread state: entered from every unscoped buffer at the valuation before it, left at the one
    after it. Its arrays split out of the unscoped buffers and put back at the exit contents; the generator register
    into the class invariant and out; nothing owed; no semaphore of the kernel's own. -/
def mkReg0
    (hq00 : ∀ c, (pdats 0 c).q 0 = fullShare.left) (hq01 : ∀ c, (pdats 0 c).q 1 = fullShare.right)
    (hq02 : ∀ c, (pdats 0 c).q 2 = fullShare) (hq03 : ∀ c, (pdats 0 c).q 3 = fullShare)
    (hΦ0 : ∀ c t, (pdats 0 c).Φ t = Pipeline.ΦA spec0 c) (howed0 : ∀ c t, (pdats 0 c).owed t = 0)
    (hrec0 : ∀ c, (pdats 0 c).recorded 0 = Set.univ)
    (hA0 : ∀ c w, (pdats 0 c).A w = Gen.V1 m c (Pipeline.arrRef spec0 w))
    (hout0 : ∀ c, (pdats 0 c).arrAt 4 cfg0.N = outs 2 main_v10 c)
    (hbody0 : ∀ c, BodyObligation (pdats 0 c) (defs₀ (F := F)) 𝒱₀ () Set.univ) :
    Pipeline.RegionSeg (pcfgs (F := F)) Gen.adm pdats () defs₀ 𝒱₀ L lv 0 where
  win := Gen.winFacts₀0
  block_pos := Gen.block_pos0
  stage_whole := Gen.stage_whole0
  K := PEmpty
  osem k := k.elim
  ho := Pipeline.OwnSemFacts.none _
  hbody c := (hbody0 c).loose
  hwaits := Pipeline.hwaits_of_owed_zero _ _ _ _ L lv 0 howed0
  pre c := iprop(StableHlo.held (c : Thread nD τ) (Pipeline.ucRefs τ sig) (Gen.V1 m c) ∗ R c)
  post c := iprop(StableHlo.held (c : Thread nD τ) (Pipeline.ucRefs τ sig) (Gen.V2 m outs c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := arrays_of_unscopedBufs0 (pdats 0 c) (hq00 c) (hq01 c) (hq02 c) (hq03 c) (fun b => Gen.V1 m c b)
      ((pdats 0 c).arrAt · 0) (fun w => hA0 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed0 c 0]
      icases HO with ⟨%W, HO⟩; iexists W; isplitr; · ipureintro; exact fun _ _ => Or.inl ((hrec0 c).symm ▸ trivial)
      iexact HO
    isplitl [Hp]; · iexact Hp
    iexact Hrest
  hin c := by
    rw [hΦ0 c 0]; unfold Pipeline.ΦA
    iintro ⟨Hp, -, Hr⟩
    isplitl [Hr]; · iexact Hr
    iexact Hp
  hout c := by
    rw [Pipeline.ownSems0_none, hΦ0 c (Fin.last _)]; unfold Pipeline.ΦA
    iintro ⟨Hr, Hp⟩
    isplitl [Hp]; · iexact Hp
    isplitr; · iempintro
    iexact Hr
  hexit c := by
    have hjoin := unscopedBufs_of_arrays0 (pdats 0 c) (hq00 c) (hq01 c) (hq02 c) (hq03 c) (fun b => Gen.V1 m c b) (fun b => Gen.V2 m outs c b)
      ((pdats 0 c).arrAt · cfg0.N) (hF0 m outs pdats hA0 hout0 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed0 c (Fin.last _)]
    icases HO with ⟨%W, -, HO⟩; iexists W; iexact HO

/-! ## Region 1 -/

/-- At region 1's exit each of its arrays holds what the exit valuation names: an input window's array is never
    written and is no output's buffer; the output window's array holds what the region leaves there. -/
theorem hF1 (hA1 : ∀ c w, (pdats 1 c).A w = Gen.V3 m outs c (Pipeline.arrRef spec1 w))
    (hout1 : ∀ c, (pdats 1 c).arrAt 4 cfg1.N = outs 4 main_v14 c) (c : Dev nD) :
    ∀ w : Fin 5, (pdats 1 c).arrAt w cfg1.N = Gen.V4 m outs c (Pipeline.arrRef spec1 w)
  | 0 => ((pdats 1 c).arrAt_in 0 rfl _).trans ((hA1 c 0).trans (Gen.V4_of m outs c main_v9 (by decide)).symm)
  | 1 => ((pdats 1 c).arrAt_in 1 rfl _).trans ((hA1 c 1).trans (Gen.V4_of m outs c main_v9 (by decide)).symm)
  | 2 => ((pdats 1 c).arrAt_in 2 rfl _).trans ((hA1 c 2).trans (Gen.V4_of m outs c main_v5 (by decide)).symm)
  | 3 => ((pdats 1 c).arrAt_in 3 rfl _).trans ((hA1 c 3).trans (Gen.V4_of m outs c main_v7 (by decide)).symm)
  | 4 => (hout1 c).trans (show outs 4 main_v14 c = Function.update (Gen.V3 m outs c) (Proc.devRef (τ := τ) .tc main_v14) (outs 4 main_v14 c)
      (Proc.devRef .tc main_v14) by rw [Function.update_self])
  | ⟨_ + 5, h⟩ => absurd h (Nat.not_lt.2 (Nat.le_add_left _ _))

/-- Off region 1's arrays the exit valuation is the entry valuation: the one buffer it changes is an array. -/
theorem hrest1 (c : Dev nD) (b : Ref sig .tc) (hb : b ∉ Finset.univ.image (Pipeline.arrRef spec1)) :
    Gen.V4 m outs c b = Gen.V3 m outs c b :=
  Gen.V4_of m outs c b fun h => hb (by rw [List.mem_singleton.mp h, image1]; decide)

set_option backward.isDefEq.respectTransparency.types false in
/-- REGION 1 over the thread state: entered from every unscoped buffer at the valuation before it, left at the one
    after it. Its arrays split out of the unscoped buffers and put back at the exit contents; the generator register
    into the class invariant and out; nothing owed; no semaphore of the kernel's own. -/
def mkReg1
    (hq10 : ∀ c, (pdats 1 c).q 0 = fullShare.left) (hq11 : ∀ c, (pdats 1 c).q 1 = fullShare.right)
    (hq12 : ∀ c, (pdats 1 c).q 2 = fullShare) (hq13 : ∀ c, (pdats 1 c).q 3 = fullShare)
    (hΦ1 : ∀ c t, (pdats 1 c).Φ t = Pipeline.ΦA spec1 c) (howed1 : ∀ c t, (pdats 1 c).owed t = 0)
    (hrec1 : ∀ c, (pdats 1 c).recorded 0 = Set.univ)
    (hA1 : ∀ c w, (pdats 1 c).A w = Gen.V3 m outs c (Pipeline.arrRef spec1 w))
    (hout1 : ∀ c, (pdats 1 c).arrAt 4 cfg1.N = outs 4 main_v14 c)
    (hbody1 : ∀ c, BodyObligation (pdats 1 c) (defs₀ (F := F)) 𝒱₀ () Set.univ) :
    Pipeline.RegionSeg (pcfgs (F := F)) Gen.adm pdats () defs₀ 𝒱₀ L lv 1 where
  win := Gen.winFacts₀1
  block_pos := Gen.block_pos1
  stage_whole := Gen.stage_whole1
  K := PEmpty
  osem k := k.elim
  ho := Pipeline.OwnSemFacts.none _
  hbody c := (hbody1 c).loose
  hwaits := Pipeline.hwaits_of_owed_zero _ _ _ _ L lv 1 howed1
  pre c := iprop(StableHlo.held (c : Thread nD τ) (Pipeline.ucRefs τ sig) (Gen.V3 m outs c) ∗ R c)
  post c := iprop(StableHlo.held (c : Thread nD τ) (Pipeline.ucRefs τ sig) (Gen.V4 m outs c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V3 m outs c b)
  hentry c := by
    rw [Pipeline.ownSems0_none]
    have hsplit := arrays_of_unscopedBufs1 (pdats 1 c) (hq10 c) (hq11 c) (hq12 c) (hq13 c) (fun b => Gen.V3 m outs c b)
      ((pdats 1 c).arrAt · 0) (fun w => hA1 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed1 c 0]
      icases HO with ⟨%W, HO⟩; iexists W; isplitr; · ipureintro; exact fun _ _ => Or.inl ((hrec1 c).symm ▸ trivial)
      iexact HO
    isplitl [Hp]; · iexact Hp
    iexact Hrest
  hin c := by
    rw [hΦ1 c 0]; unfold Pipeline.ΦA
    iintro ⟨Hp, -, Hr⟩
    isplitl [Hr]; · iexact Hr
    iexact Hp
  hout c := by
    rw [Pipeline.ownSems0_none, hΦ1 c (Fin.last _)]; unfold Pipeline.ΦA
    iintro ⟨Hr, Hp⟩
    isplitl [Hp]; · iexact Hp
    isplitr; · iempintro
    iexact Hr
  hexit c := by
    have hjoin := unscopedBufs_of_arrays1 (pdats 1 c) (hq10 c) (hq11 c) (hq12 c) (hq13 c) (fun b => Gen.V3 m outs c b) (fun b => Gen.V4 m outs c b)
      ((pdats 1 c).arrAt · cfg1.N) (hF1 m outs pdats hA1 hout1 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed1 c (Fin.last _)]
    icases HO with ⟨%W, -, HO⟩; iexists W; iexact HO

/-! ## Region 2 -/

/-- At region 2's exit each of its arrays holds what the exit valuation names: an input window's array is never
    written and is no output's buffer; the output window's array holds what the region leaves there. -/
theorem hF2 (hA2 : ∀ c w, (pdats 2 c).A w = Gen.V5 m outs c (Pipeline.arrRef spec2 w))
    (hout2 : ∀ c, (pdats 2 c).arrAt 4 cfg2.N = outs 6 main_v18 c) (c : Dev nD) :
    ∀ w : Fin 5, (pdats 2 c).arrAt w cfg2.N = Gen.V6 m outs c (Pipeline.arrRef spec2 w)
  | 0 => ((pdats 2 c).arrAt_in 0 rfl _).trans ((hA2 c 0).trans (Gen.V6_of m outs c main_v8 (by decide)).symm)
  | 1 => ((pdats 2 c).arrAt_in 1 rfl _).trans ((hA2 c 1).trans (Gen.V6_of m outs c main_v9 (by decide)).symm)
  | 2 => ((pdats 2 c).arrAt_in 2 rfl _).trans ((hA2 c 2).trans (Gen.V6_of m outs c main_v2 (by decide)).symm)
  | 3 => ((pdats 2 c).arrAt_in 3 rfl _).trans ((hA2 c 3).trans (Gen.V6_of m outs c main_v7 (by decide)).symm)
  | 4 => (hout2 c).trans (show outs 6 main_v18 c = Function.update (Gen.V5 m outs c) (Proc.devRef (τ := τ) .tc main_v18) (outs 6 main_v18 c)
      (Proc.devRef .tc main_v18) by rw [Function.update_self])
  | ⟨_ + 5, h⟩ => absurd h (Nat.not_lt.2 (Nat.le_add_left _ _))

/-- Off region 2's arrays the exit valuation is the entry valuation: the one buffer it changes is an array. -/
theorem hrest2 (c : Dev nD) (b : Ref sig .tc) (hb : b ∉ Finset.univ.image (Pipeline.arrRef spec2)) :
    Gen.V6 m outs c b = Gen.V5 m outs c b :=
  Gen.V6_of m outs c b fun h => hb (by rw [List.mem_singleton.mp h]; exact Finset.mem_image.mpr ⟨4, Finset.mem_univ _, rfl⟩)

/-- Region 2's arrays are held at the full share: the inputs by hypothesis, the output always. -/
theorem hshare2 (hq20 : ∀ c, (pdats 2 c).q 0 = fullShare) (hq21 : ∀ c, (pdats 2 c).q 1 = fullShare)
    (hq22 : ∀ c, (pdats 2 c).q 2 = fullShare) (hq23 : ∀ c, (pdats 2 c).q 3 = fullShare) (c : Dev nD) :
    ∀ w : Fin 5, (pdats 2 c).share w = fullShare
  | 0 => (if_neg (show ¬ ((cfg2.win 0).isOut = true) from Bool.false_ne_true)).trans (hq20 c)
  | 1 => (if_neg (show ¬ ((cfg2.win 1).isOut = true) from Bool.false_ne_true)).trans (hq21 c)
  | 2 => (if_neg (show ¬ ((cfg2.win 2).isOut = true) from Bool.false_ne_true)).trans (hq22 c)
  | 3 => (if_neg (show ¬ ((cfg2.win 3).isOut = true) from Bool.false_ne_true)).trans (hq23 c)
  | 4 => if_pos (show (cfg2.win 4).isOut = true from rfl)
  | ⟨_ + 5, h⟩ => absurd h (Nat.not_lt.2 (Nat.le_add_left _ _))

set_option backward.isDefEq.respectTransparency.types false in
/-- REGION 2 over the thread state: entered from every unscoped buffer at the valuation before it, left at the one
    after it. Its five windows stand on five distinct buffers, each held whole at the full share; the generator
    register into the class invariant and out; nothing owed; no semaphore of the kernel's own. -/
def mkReg2
    (hq20 : ∀ c, (pdats 2 c).q 0 = fullShare) (hq21 : ∀ c, (pdats 2 c).q 1 = fullShare)
    (hq22 : ∀ c, (pdats 2 c).q 2 = fullShare) (hq23 : ∀ c, (pdats 2 c).q 3 = fullShare)
    (hΦ2 : ∀ c t, (pdats 2 c).Φ t = Pipeline.ΦA spec2 c) (howed2 : ∀ c t, (pdats 2 c).owed t = 0)
    (hrec2 : ∀ c, (pdats 2 c).recorded 0 = Set.univ)
    (hA2 : ∀ c w, (pdats 2 c).A w = Gen.V5 m outs c (Pipeline.arrRef spec2 w))
    (hout2 : ∀ c, (pdats 2 c).arrAt 4 cfg2.N = outs 6 main_v18 c)
    (hbody2 : ∀ c, BodyObligation (pdats 2 c) (defs₀ (F := F)) 𝒱₀ () Set.univ) :
    Pipeline.RegionSeg (pcfgs (F := F)) Gen.adm pdats () defs₀ 𝒱₀ L lv 2 where
  win := Gen.launch2.win.to₀
  block_pos := Gen.launch2.block_pos
  stage_whole := Gen.launch2.stage_whole
  K := PEmpty
  osem k := k.elim
  ho := Pipeline.OwnSemFacts.none _
  hbody c := (hbody2 c).loose
  hwaits := Pipeline.hwaits_of_owed_zero _ _ _ _ L lv 2 howed2
  pre c := iprop(StableHlo.held (c : Thread nD τ) (Pipeline.ucRefs τ sig) (Gen.V5 m outs c) ∗ R c)
  post c := iprop(StableHlo.held (c : Thread nD τ) (Pipeline.ucRefs τ sig) (Gen.V6 m outs c) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V5 m outs c b)
  hentry c := by
    rw [Pipeline.ownSems0_none]
    have hsplit := Pipeline.arrays_of_unscopedBufs (p := 2) (pcfgs (F := F)) Gen.adm pdats Gen.launch2.win Gen.launch2.arr_whole c
      (hshare2 pdats hq20 hq21 hq22 hq23 c) (fun b => Gen.V5 m outs c b) (fun w => hA2 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed2 c 0]
      icases HO with ⟨%W, HO⟩; iexists W; isplitr; · ipureintro; exact fun _ _ => Or.inl ((hrec2 c).symm ▸ trivial)
      iexact HO
    isplitl [Hp]; · iexact Hp
    iexact Hrest
  hin c := by
    rw [hΦ2 c 0]; unfold Pipeline.ΦA
    iintro ⟨Hp, -, Hr⟩
    isplitl [Hr]; · iexact Hr
    iexact Hp
  hout c := by
    rw [Pipeline.ownSems0_none, hΦ2 c (Fin.last _)]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      Gen.launch2.win Gen.launch2.arr_whole c pdats (hshare2 pdats hq20 hq21 hq22 hq23 c)
      (fun b => Gen.V5 m outs c b) (fun b => Gen.V6 m outs c b) ((pdats 2 c).arrAt · cfg2.N) (hF2 m outs pdats hA2 hout2 c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed2 c (Fin.last _)]
    icases HO with ⟨%W, -, HO⟩; iexists W; iexact HO

/-! ## The run -/

set_option backward.isDefEq.respectTransparency.types false in
/-- THE RUN. Given proof data for the three regions whose input shares, invariants, dues, entry contents and
    output contents are as the valuations say, and their body obligations: every weakly fair execution of the
    program from memory `m` with zero counters terminates, and every final memory holds in the result buffer the
    last valuation's value of it and in each argument buffer what it held at the launch. -/
theorem run_all (ρ : Dev nD → PrngReg)
    (hq00 : ∀ c, (pdats 0 c).q 0 = fullShare.left) (hq01 : ∀ c, (pdats 0 c).q 1 = fullShare.right)
    (hq02 : ∀ c, (pdats 0 c).q 2 = fullShare) (hq03 : ∀ c, (pdats 0 c).q 3 = fullShare)
    (hΦ0 : ∀ c t, (pdats 0 c).Φ t = Pipeline.ΦA spec0 c) (howed0 : ∀ c t, (pdats 0 c).owed t = 0)
    (hrec0 : ∀ c, (pdats 0 c).recorded 0 = Set.univ)
    (hA0 : ∀ c w, (pdats 0 c).A w = Gen.V1 m c (Pipeline.arrRef spec0 w))
    (hout0 : ∀ c, (pdats 0 c).arrAt 4 cfg0.N = outs 2 main_v10 c)
    (hbody0 : ∀ c, BodyObligation (pdats 0 c) (defs₀ (F := F)) 𝒱₀ () Set.univ)
    (hq10 : ∀ c, (pdats 1 c).q 0 = fullShare.left) (hq11 : ∀ c, (pdats 1 c).q 1 = fullShare.right)
    (hq12 : ∀ c, (pdats 1 c).q 2 = fullShare) (hq13 : ∀ c, (pdats 1 c).q 3 = fullShare)
    (hΦ1 : ∀ c t, (pdats 1 c).Φ t = Pipeline.ΦA spec1 c) (howed1 : ∀ c t, (pdats 1 c).owed t = 0)
    (hrec1 : ∀ c, (pdats 1 c).recorded 0 = Set.univ)
    (hA1 : ∀ c w, (pdats 1 c).A w = Gen.V3 m outs c (Pipeline.arrRef spec1 w))
    (hout1 : ∀ c, (pdats 1 c).arrAt 4 cfg1.N = outs 4 main_v14 c)
    (hbody1 : ∀ c, BodyObligation (pdats 1 c) (defs₀ (F := F)) 𝒱₀ () Set.univ)
    (hq20 : ∀ c, (pdats 2 c).q 0 = fullShare) (hq21 : ∀ c, (pdats 2 c).q 1 = fullShare)
    (hq22 : ∀ c, (pdats 2 c).q 2 = fullShare) (hq23 : ∀ c, (pdats 2 c).q 3 = fullShare)
    (hΦ2 : ∀ c t, (pdats 2 c).Φ t = Pipeline.ΦA spec2 c) (howed2 : ∀ c t, (pdats 2 c).owed t = 0)
    (hrec2 : ∀ c, (pdats 2 c).recorded 0 = Set.univ)
    (hA2 : ∀ c w, (pdats 2 c).A w = Gen.V5 m outs c (Pipeline.arrRef spec2 w))
    (hout2 : ∀ c, (pdats 2 c).arrAt 4 cfg2.N = outs 6 main_v18 c)
    (hbody2 : ∀ c, BodyObligation (pdats 2 c) (defs₀ (F := F)) 𝒱₀ () Set.univ) :
    θ_run defs (onTc (τ := τ) (main (F := F))) ⟨m, fun _ => 0, ρ⟩ (fun r => ∀ c : Dev nD,
      r.2.mem ((c.tc : Thread nD τ).loc main_v27) = Gen.V7 m outs c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond (emb₁) () 𝒱₀ L lv (fun _ _ => rfl) m ρ outs pdats (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := mkReg0 m outs pdats hq00 hq01 hq02 hq03 hΦ0 howed0 hrec0 hA0 hout0 hbody0) (hpre0 := fun _ => .rfl) (hpost0 := fun _ => .rfl)
    (R1 := mkReg1 m outs pdats hq10 hq11 hq12 hq13 hΦ1 howed1 hrec1 hA1 hout1 hbody1) (hpre1 := fun _ => .rfl) (hpost1 := fun _ => .rfl)
    (R2 := mkReg2 m outs pdats hq20 hq21 hq22 hq23 hΦ2 howed2 hrec2 hA2 hout2 hbody2) (hpre2 := fun _ => .rfl) (hpost2 := fun _ => .rfl)

end Cert.Kernel.Hand

end
-- ==== Proof.KOut.lean ====
/-
  What each of the three pipelines leaves in its output window, named: at a grid point the body stores, over the 128 lanes of
  the point's [1,1,128] block, the total its sixteen-trip loop carries out — the sum of the band's sixteen 512×512 tiles —
  as a term of the four input blocks the point finds in its staging memrefs.
-/
import proofs.«124713_j8907762171929_2_alg».proof.Proof.Gen.Kernel.Launch
import proofs.«124713_j8907762171929_2_alg».proof.Proof.Gen.Kernel.Skeleton
import proofs.«124713_j8907762171929_2_alg».proof.Proof.Gen.Kernel.Loops
import proofs.«124713_j8907762171929_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Pipeline 0 -/

/-- The output's whole block. -/
abbrev r0_4 : Rect S1x1x128 := Rect.unit (s := S1x1x128) ![0, 0, 0] S1x1x128.size inb_S1x1x128_S1x1x128_0_0_0

/-- The band's total: the loop's carried value after its last trip, from the four input blocks the body finds in
    its staging memrefs (the row tile `x0` and its norms `x2`, the whole second array `x1` and its norms `x3`). -/
def tot0 (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) : FVec F S1x1 .f32 :=
  st_k0_t1 (F := F) Variants.none c none i arg1 harg1 arg2 harg2 arg3 harg3 arg4 harg4 arg5 harg5
    (View.readAt (Elt F) arg1.view (Rect.unit (s := S512x512) ![0, 0] S512x512.size inb_S512x512_S512x512_0_0).toLoadRect (harg1.unread x0))
    (View.readAt (Elt F) arg3.view (Rect.unit (s := S512x1) ![0, 0] S512x1.size inb_S512x1_S512x1_0_0).toLoadRect (harg3.unread x2))
    (harg2.unread x1) (harg4.unread x3) (k0_pay1 (F := F)) k0_t1_loop.trips

/-- What the body leaves in the output's staging buffer: its one store, of the total spread over the lanes. -/
def outv0 (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) : Vec F S1x1x128 .f32 :=
  View.canon [⟨r0_4, k0_pay3 (tot0 c i arg1 harg1 arg2 harg2 arg3 harg3 arg4 harg4 arg5 harg5 x0 x1 x2 x3)⟩]

/-- The store covers the buffer. -/
theorem cover0_4 (p0 : Vec F S1x1x128 .f32) (y : S1x1x128.Idx) :
    ∃ pc ∈ ([⟨r0_4, p0⟩] : List (View.Piece (Elt F) S1x1x128 .f32)), y ∈ pc.1.set :=
  View.cover_of_tiled [⟨r0_4, p0⟩] S1x1x128.size (by rfl) y

/-- Each window's current staging memref at point `t`, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output window's staging buffer at point `t`. -/
def out0 (c : Dev nD) (t : Fin cfg0.N) : Vec F S1x1x128 .f32 :=
  outv0 (F := F) c (grid0.coords t) (ms0_0 t) (hs0_0 t) (ms0_1 t) (hs0_1 t) (ms0_2 t) (hs0_2 t) (ms0_3 t) (hs0_3 t) (ms0_4 t) (hs0_4 t)
    (iblk0 V c 0 t) (iblk0 V c 1 t) (iblk0 V c 2 t) (iblk0 V c 3 t)

end

/-! ## Pipeline 1 -/

/-- The output's whole block. -/
abbrev r1_4 : Rect S1x1x128 := Rect.unit (s := S1x1x128) ![0, 0, 0] S1x1x128.size inb_S1x1x128_S1x1x128_0_0_0

/-- The band's total: the loop's carried value after its last trip, from the four input blocks the body finds in
    its staging memrefs (the row tile `x0` and its norms `x2`, the whole second array `x1` and its norms `x3`). -/
def tot1 (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) : FVec F S1x1 .f32 :=
  st_k1_t1 (F := F) Variants.none c none i arg1 harg1 arg2 harg2 arg3 harg3 arg4 harg4 arg5 harg5
    (View.readAt (Elt F) arg1.view (Rect.unit (s := S512x512) ![0, 0] S512x512.size inb_S512x512_S512x512_0_0).toLoadRect (harg1.unread x0))
    (View.readAt (Elt F) arg3.view (Rect.unit (s := S512x1) ![0, 0] S512x1.size inb_S512x1_S512x1_0_0).toLoadRect (harg3.unread x2))
    (harg2.unread x1) (harg4.unread x3) (k1_pay1 (F := F)) k1_t1_loop.trips

/-- What the body leaves in the output's staging buffer: its one store, of the total spread over the lanes. -/
def outv1 (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) : Vec F S1x1x128 .f32 :=
  View.canon [⟨r1_4, k1_pay3 (tot1 c i arg1 harg1 arg2 harg2 arg3 harg3 arg4 harg4 arg5 harg5 x0 x1 x2 x3)⟩]

/-- The store covers the buffer. -/
theorem cover1_4 (p0 : Vec F S1x1x128 .f32) (y : S1x1x128.Idx) :
    ∃ pc ∈ ([⟨r1_4, p0⟩] : List (View.Piece (Elt F) S1x1x128 .f32)), y ∈ pc.1.set :=
  View.cover_of_tiled [⟨r1_4, p0⟩] S1x1x128.size (by rfl) y

/-- Each window's current staging memref at point `t`, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128 .f32 := win1_4.stage (cfg1.slots t 4)
abbrev hs1_4 (t : Fin cfg1.N) : (ms1_4 t).IsWhole := hstage1_4 ((cfg1.slots t 4).cast nbuf1_4)

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output window's staging buffer at point `t`. -/
def out1 (c : Dev nD) (t : Fin cfg1.N) : Vec F S1x1x128 .f32 :=
  outv1 (F := F) c (grid1.coords t) (ms1_0 t) (hs1_0 t) (ms1_1 t) (hs1_1 t) (ms1_2 t) (hs1_2 t) (ms1_3 t) (hs1_3 t) (ms1_4 t) (hs1_4 t)
    (iblk1 V c 0 t) (iblk1 V c 1 t) (iblk1 V c 2 t) (iblk1 V c 3 t)

end

/-! ## Pipeline 2 -/

/-- The output's whole block. -/
abbrev r2_4 : Rect S1x1x128 := Rect.unit (s := S1x1x128) ![0, 0, 0] S1x1x128.size inb_S1x1x128_S1x1x128_0_0_0

/-- The band's total: the loop's carried value after its last trip, from the four input blocks the body finds in
    its staging memrefs (the row tile `x0` and its norms `x2`, the whole second array `x1` and its norms `x3`). -/
def tot2 (c : Dev nD) (i : grid2.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) : FVec F S1x1 .f32 :=
  st_k2_t1 (F := F) Variants.none c none i arg1 harg1 arg2 harg2 arg3 harg3 arg4 harg4 arg5 harg5
    (View.readAt (Elt F) arg1.view (Rect.unit (s := S512x512) ![0, 0] S512x512.size inb_S512x512_S512x512_0_0).toLoadRect (harg1.unread x0))
    (View.readAt (Elt F) arg3.view (Rect.unit (s := S512x1) ![0, 0] S512x1.size inb_S512x1_S512x1_0_0).toLoadRect (harg3.unread x2))
    (harg2.unread x1) (harg4.unread x3) (k2_pay1 (F := F)) k2_t1_loop.trips

/-- What the body leaves in the output's staging buffer: its one store, of the total spread over the lanes. -/
def outv2 (c : Dev nD) (i : grid2.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) : Vec F S1x1x128 .f32 :=
  View.canon [⟨r2_4, k2_pay3 (tot2 c i arg1 harg1 arg2 harg2 arg3 harg3 arg4 harg4 arg5 harg5 x0 x1 x2 x3)⟩]

/-- The store covers the buffer. -/
theorem cover2_4 (p0 : Vec F S1x1x128 .f32) (y : S1x1x128.Idx) :
    ∃ pc ∈ ([⟨r2_4, p0⟩] : List (View.Piece (Elt F) S1x1x128 .f32)), y ∈ pc.1.set :=
  View.cover_of_tiled [⟨r2_4, p0⟩] S1x1x128.size (by rfl) y

/-- Each window's current staging memref at point `t`, and its wholeness. -/
abbrev ms2_0 (t : Fin cfg2.N) : Memref sig .tc .vmem S512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x8192 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x128 .f32 := win2_4.stage (cfg2.slots t 4)
abbrev hs2_4 (t : Fin cfg2.N) : (ms2_4 t).IsWhole := hstage2_4 ((cfg2.slots t 4).cast nbuf2_4)

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output window's staging buffer at point `t`. -/
def out2 (c : Dev nD) (t : Fin cfg2.N) : Vec F S1x1x128 .f32 :=
  outv2 (F := F) c (grid2.coords t) (ms2_0 t) (hs2_0 t) (ms2_1 t) (hs2_1 t) (ms2_2 t) (hs2_2 t) (ms2_3 t) (hs2_3 t) (ms2_4 t) (hs2_4 t)
    (iblk2 V c 0 t) (iblk2 V c 1 t) (iblk2 V c 2 t) (iblk2 V c 3 t)

end

end Cert.Kernel.Hand

end
-- ==== Proof.KRun0.lean ====
/-
  The body of kernel 0, run once on whole staging memrefs.
-/
import proofs.«124713_j8907762171929_2_alg».proof.Proof.Gen.Kernel.Launch
import proofs.«124713_j8907762171929_2_alg».proof.Proof.Gen.Kernel.Skeleton
import proofs.«124713_j8907762171929_2_alg».proof.Proof.Gen.Kernel.Loops
import proofs.«124713_j8907762171929_2_alg».proof.Proof.Gen.Kernel.Points
import Idealize.ShloMosaic.Lib.Pipeline.FrameBody
import Idealize.ShloMosaic.Lib.Ring
import Idealize.ShloMosaic.Lib.Tactic
import proofs.«124713_j8907762171929_2_alg».proof.Proof.KOut

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body of kernel 0 on whole staging memrefs: the four inputs at read contents and the output at anything; it
    runs to its return with the inputs as they were and the output at `outv0` of the inputs. The sixteen-trip loop
    goes by its invariant: the carried value before trip `k` is the recursion's value at `k`. -/
theorem sound_kernel0 (c : Dev nD) (E : Set ℕ) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outv0 (F := F) c i arg1 harg1 arg2 harg2 arg3 harg3 arg4 harg4 arg5 harg5 x0 x1 x2 x3)) -∗ K ⟨⟩))
      ⊢ wp frame (wpE (defs₀ (F := F)) Variants.none c none) E (cc0__mmd_sum_kernel i arg1 harg1 arg2 harg2 arg3 harg3 arg4 harg4 arg5 harg5) K := by
  simp only [cc0__mmd_sum_kernel_eq_skeleton]; unfold cc0__mmd_sum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  set_option sl_exec.maxSteps 2 in sl_exec
  sl_for (inv_k0_t1 (F := F) Variants.none c none i arg1 harg1 arg2 harg2 arg3 harg3 arg4 harg4 arg5 harg5 (View.readAt (Elt F) arg1.view (Rect.unit (s := S512x512) ![0, 0] S512x512.size inb_S512x512_S512x512_0_0).toLoadRect (harg1.unread x0)) (View.readAt (Elt F) arg3.view (Rect.unit (s := S512x1) ![0, 0] S512x1.size inb_S512x1_S512x1_0_0).toLoadRect (harg3.unread x2)) (harg2.unread x1) (harg4.unread x3) (k0_pay1 (F := F))) $$ [H1 H3]
  case region =>
    intro k acc
    exact (loopInv_k0_t1 (F := F) Variants.none c none E i arg1 harg1 arg2 harg2 arg3 harg3 arg4 harg4 arg5 harg5 (View.readAt (Elt F) arg1.view (Rect.unit (s := S512x512) ![0, 0] S512x512.size inb_S512x512_S512x512_0_0).toLoadRect (harg1.unread x0)) (View.readAt (Elt F) arg3.view (Rect.unit (s := S512x1) ![0, 0] S512x1.size inb_S512x1_S512x1_0_0).toLoadRect (harg3.unread x2)) (harg2.unread x1) (harg4.unread x3) (k0_pay1 (F := F))).step k acc
  · isplitl [H1]; · iexact H1
    isplitl [H3]; · iexact H3
    ipureintro; rfl
  iintro %acc ⟨H1, H3, %hacc⟩
  subst hacc
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  exact View.read_writes_eq_canon _ _ _ (cover0_4 _)

end Cert.Kernel.Hand

end
-- ==== Proof.KRun1.lean ====
/-
  The body of kernel 1, run once on whole staging memrefs.
-/
import proofs.«124713_j8907762171929_2_alg».proof.Proof.Gen.Kernel.Launch
import proofs.«124713_j8907762171929_2_alg».proof.Proof.Gen.Kernel.Skeleton
import proofs.«124713_j8907762171929_2_alg».proof.Proof.Gen.Kernel.Loops
import proofs.«124713_j8907762171929_2_alg».proof.Proof.Gen.Kernel.Points
import Idealize.ShloMosaic.Lib.Pipeline.FrameBody
import Idealize.ShloMosaic.Lib.Ring
import Idealize.ShloMosaic.Lib.Tactic
import proofs.«124713_j8907762171929_2_alg».proof.Proof.KOut

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body of kernel 1 on whole staging memrefs: the four inputs at read contents and the output at anything; it
    runs to its return with the inputs as they were and the output at `outv1` of the inputs. The sixteen-trip loop
    goes by its invariant: the carried value before trip `k` is the recursion's value at `k`. -/
theorem sound_kernel1 (c : Dev nD) (E : Set ℕ) (i : grid1.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outv1 (F := F) c i arg1 harg1 arg2 harg2 arg3 harg3 arg4 harg4 arg5 harg5 x0 x1 x2 x3)) -∗ K ⟨⟩))
      ⊢ wp frame (wpE (defs₀ (F := F)) Variants.none c none) E (cc1__mmd_sum_kernel i arg1 harg1 arg2 harg2 arg3 harg3 arg4 harg4 arg5 harg5) K := by
  simp only [cc1__mmd_sum_kernel_eq_skeleton]; unfold cc1__mmd_sum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  set_option sl_exec.maxSteps 2 in sl_exec
  sl_for (inv_k1_t1 (F := F) Variants.none c none i arg1 harg1 arg2 harg2 arg3 harg3 arg4 harg4 arg5 harg5 (View.readAt (Elt F) arg1.view (Rect.unit (s := S512x512) ![0, 0] S512x512.size inb_S512x512_S512x512_0_0).toLoadRect (harg1.unread x0)) (View.readAt (Elt F) arg3.view (Rect.unit (s := S512x1) ![0, 0] S512x1.size inb_S512x1_S512x1_0_0).toLoadRect (harg3.unread x2)) (harg2.unread x1) (harg4.unread x3) (k1_pay1 (F := F))) $$ [H1 H3]
  case region =>
    intro k acc
    exact (loopInv_k1_t1 (F := F) Variants.none c none E i arg1 harg1 arg2 harg2 arg3 harg3 arg4 harg4 arg5 harg5 (View.readAt (Elt F) arg1.view (Rect.unit (s := S512x512) ![0, 0] S512x512.size inb_S512x512_S512x512_0_0).toLoadRect (harg1.unread x0)) (View.readAt (Elt F) arg3.view (Rect.unit (s := S512x1) ![0, 0] S512x1.size inb_S512x1_S512x1_0_0).toLoadRect (harg3.unread x2)) (harg2.unread x1) (harg4.unread x3) (k1_pay1 (F := F))).step k acc
  · isplitl [H1]; · iexact H1
    isplitl [H3]; · iexact H3
    ipureintro; rfl
  iintro %acc ⟨H1, H3, %hacc⟩
  subst hacc
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  exact View.read_writes_eq_canon _ _ _ (cover1_4 _)

end Cert.Kernel.Hand

end
-- ==== Proof.KRun2.lean ====
/-
  The body of kernel 2, run once on whole staging memrefs.
-/
import proofs.«124713_j8907762171929_2_alg».proof.Proof.Gen.Kernel.Launch
import proofs.«124713_j8907762171929_2_alg».proof.Proof.Gen.Kernel.Skeleton
import proofs.«124713_j8907762171929_2_alg».proof.Proof.Gen.Kernel.Loops
import proofs.«124713_j8907762171929_2_alg».proof.Proof.Gen.Kernel.Points
import Idealize.ShloMosaic.Lib.Pipeline.FrameBody
import Idealize.ShloMosaic.Lib.Ring
import Idealize.ShloMosaic.Lib.Tactic
import proofs.«124713_j8907762171929_2_alg».proof.Proof.KOut

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body of kernel 2 on whole staging memrefs: the four inputs at read contents and the output at anything; it
    runs to its return with the inputs as they were and the output at `outv2` of the inputs. The sixteen-trip loop
    goes by its invariant: the carried value before trip `k` is the recursion's value at `k`. -/
theorem sound_kernel2 (c : Dev nD) (E : Set ℕ) (i : grid2.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outv2 (F := F) c i arg1 harg1 arg2 harg2 arg3 harg3 arg4 harg4 arg5 harg5 x0 x1 x2 x3)) -∗ K ⟨⟩))
      ⊢ wp frame (wpE (defs₀ (F := F)) Variants.none c none) E (cc2__mmd_sum_kernel i arg1 harg1 arg2 harg2 arg3 harg3 arg4 harg4 arg5 harg5) K := by
  simp only [cc2__mmd_sum_kernel_eq_skeleton]; unfold cc2__mmd_sum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  set_option sl_exec.maxSteps 2 in sl_exec
  sl_for (inv_k2_t1 (F := F) Variants.none c none i arg1 harg1 arg2 harg2 arg3 harg3 arg4 harg4 arg5 harg5 (View.readAt (Elt F) arg1.view (Rect.unit (s := S512x512) ![0, 0] S512x512.size inb_S512x512_S512x512_0_0).toLoadRect (harg1.unread x0)) (View.readAt (Elt F) arg3.view (Rect.unit (s := S512x1) ![0, 0] S512x1.size inb_S512x1_S512x1_0_0).toLoadRect (harg3.unread x2)) (harg2.unread x1) (harg4.unread x3) (k2_pay1 (F := F))) $$ [H1 H3]
  case region =>
    intro k acc
    exact (loopInv_k2_t1 (F := F) Variants.none c none E i arg1 harg1 arg2 harg2 arg3 harg3 arg4 harg4 arg5 harg5 (View.readAt (Elt F) arg1.view (Rect.unit (s := S512x512) ![0, 0] S512x512.size inb_S512x512_S512x512_0_0).toLoadRect (harg1.unread x0)) (View.readAt (Elt F) arg3.view (Rect.unit (s := S512x1) ![0, 0] S512x1.size inb_S512x1_S512x1_0_0).toLoadRect (harg3.unread x2)) (harg2.unread x1) (harg4.unread x3) (k2_pay1 (F := F))).step k acc
  · isplitl [H1]; · iexact H1
    isplitl [H3]; · iexact H3
    ipureintro; rfl
  iintro %acc ⟨H1, H3, %hacc⟩
  subst hacc
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  exact View.read_writes_eq_canon _ _ _ (cover2_4 _)

end Cert.Kernel.Hand

end
-- ==== Proof.KBody.lean ====
/-
  The proof data of the three pipelines and their body obligations: at every grid point the four input windows hold their
  blocks, the kernel's run leaves the output window at the band's total, and nothing else is touched.
-/
import proofs.«124713_j8907762171929_2_alg».proof.Proof.Gen.Kernel.Launch
import proofs.«124713_j8907762171929_2_alg».proof.Proof.Gen.Kernel.Skeleton
import proofs.«124713_j8907762171929_2_alg».proof.Proof.Gen.Kernel.Loops
import proofs.«124713_j8907762171929_2_alg».proof.Proof.Gen.Kernel.Points
import Idealize.ShloMosaic.Lib.Pipeline.FrameBody
import Idealize.ShloMosaic.Lib.Ring
import Idealize.ShloMosaic.Lib.Tactic
import proofs.«124713_j8907762171929_2_alg».proof.Proof.KOut
import proofs.«124713_j8907762171929_2_alg».proof.Proof.KRun0
import proofs.«124713_j8907762171929_2_alg».proof.Proof.KRun1
import proofs.«124713_j8907762171929_2_alg».proof.Proof.KRun2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Pipeline 0 -/

section Region0
-- the TensorCore's buffer contents when the region is entered: a parameter, instantiated at the run
variable (V : (c : Dev nD) → (b : Ref sig .tc) → Buf (Elt F) ((c : Thread nD τ).loc b))

/-- Input window 0's current staging buffer holds its block at every point, fetched there or not: an unfetched
    point's index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    point's index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    point's index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched
    point's index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`: the arrays as the region finds them; after the body at point `t` each
    input's buffer at its block and the output's at `out0`; the invariant the scoped rest and the generator register,
    untouched; nothing owed; the array that windows 0 and 1 both read held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]
theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]
theorem q0_3 (c : Dev nD) : (dat0 V c).q 3 = fullShare := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' memrefs hold their blocks, so the kernel's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 (F := F) c Set.univ (grid0.coords t) (ms0_0 t) (hs0_0 t) (ms0_1 t) (hs0_1 t) (ms0_2 t) (hs0_2 t) (ms0_3 t) (hs0_3 t) (ms0_4 t) (hs0_4 t)
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

/-! ## Pipeline 1 -/

section Region1
-- the TensorCore's buffer contents when the region is entered: a parameter, instantiated at the run
variable (V : (c : Dev nD) → (b : Ref sig .tc) → Buf (Elt F) ((c : Thread nD τ).loc b))

/-- Input window 0's current staging buffer holds its block at every point, fetched there or not: an unfetched
    point's index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched
    point's index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an unfetched
    point's index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: an unfetched
    point's index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`: the arrays as the region finds them; after the body at point `t` each
    input's buffer at its block and the output's at `out1`; the invariant the scoped rest and the generator register,
    untouched; nothing owed; the array that windows 0 and 1 both read held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' memrefs hold their blocks, so the kernel's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 (F := F) c Set.univ (grid1.coords t) (ms1_0 t) (hs1_0 t) (ms1_1 t) (hs1_1 t) (ms1_2 t) (hs1_2 t) (ms1_3 t) (hs1_3 t) (ms1_4 t) (hs1_4 t)
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

/-! ## Pipeline 2 -/

section Region2
-- the TensorCore's buffer contents when the region is entered: a parameter, instantiated at the run
variable (V : (c : Dev nD) → (b : Ref sig .tc) → Buf (Elt F) ((c : Thread nD τ).loc b))

/-- Input window 0's current staging buffer holds its block at every point, fetched there or not: an unfetched
    point's index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    point's index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    point's index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched
    point's index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The proof data of pipeline 2 on core `c`: the arrays as the region finds them; after the body at point `t` each
    input's buffer at its block and the output's at `out2`; the invariant the scoped rest and the generator register,
    untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ _ := Pipeline.ΦA spec2 c
  q w := match w with
    | ⟨0, _⟩ => fullShare
    | ⟨1, _⟩ => fullShare
    | ⟨2, _⟩ => fullShare
    | ⟨3, _⟩ => fullShare
    | ⟨4, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 V c t := by dsimp only [dat2]
theorem q2_0 (c : Dev nD) : (dat2 V c).q 0 = fullShare := by dsimp only [dat2]
theorem q2_1 (c : Dev nD) : (dat2 V c).q 1 = fullShare := by dsimp only [dat2]
theorem q2_2 (c : Dev nD) : (dat2 V c).q 2 = fullShare := by dsimp only [dat2]
theorem q2_3 (c : Dev nD) : (dat2 V c).q 3 = fullShare := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1000000 in
/-- The body at any point: the inputs' memrefs hold their blocks, so the kernel's run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 (F := F) c Set.univ (grid2.coords t) (ms2_0 t) (hs2_0 t) (ms2_1 t) (hs2_1 t) (ms2_2 t) (hs2_2 t) (ms2_3 t) (hs2_3 t) (ms2_4 t) (hs2_4 t)
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KVals.lean ====
/-
  The buffer contents each of the three regions is entered with, read at the TensorCore's references: the valuations
  between @main's items.
-/
import proofs.«124713_j8907762171929_2_alg».proof.Proof.Gen.Kernel.Regions

noncomputable section

namespace Cert.Kernel.Hand

open Idealize.ShloMosaic Idealize.ShloMosaic.TcCoe
open Cert.Kernel Cert.Kernel.Gen

variable {F : FTy → Type} [FloatOps F]
variable (m : (ℓ : Loc nD τ sig) → Buf (Elt F) ℓ) (outs : Gen.Outs (F := F))

/-- What region 0 finds. -/
abbrev VV1 : (c : Dev nD) → (b : Ref sig .tc) → Buf (Elt F) ((c : Thread nD τ).loc b) := fun c b => Gen.V1 m c b
/-- What region 1 finds. -/
abbrev VV3 : (c : Dev nD) → (b : Ref sig .tc) → Buf (Elt F) ((c : Thread nD τ).loc b) := fun c b => Gen.V3 m outs c b
/-- What region 2 finds. -/
abbrev VV5 : (c : Dev nD) → (b : Ref sig .tc) → Buf (Elt F) ((c : Thread nD τ).loc b) := fun c b => Gen.V5 m outs c b

end Cert.Kernel.Hand

end
-- ==== Proof.KMain.lean ====
/-
  The kernel program's run, assembled.

  The three regions run one after another, each entered from what the items before it left.  So the contents they
  leave in their output arrays are fixed in stages: region 0's output is the fold of its write-backs over the contents
  after the first host stretch; region 1's entry contents read that output (and no later one), and its output is the
  fold of its write-backs over them; likewise region 2.  The valuations between the items read the unknowns at three
  points only — region K's output array after region K —, so a valuation taken at the final unknowns equals the one
  taken at the unknowns known so far.  With each pipeline's proof data at its region's entry contents, the regions'
  records and the program's run give: every weakly fair execution terminates, the result buffer at the last valuation's
  value and the arguments as launched.
-/
import proofs.«124713_j8907762171929_2_alg».proof.Proof.KRegs
import proofs.«124713_j8907762171929_2_alg».proof.Proof.KBody
import proofs.«124713_j8907762171929_2_alg».proof.Proof.KVals

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents the regions leave -/

/-- The regions' unknowns from the three arrays' contents: each of the three output buffers at its given contents, any
    other buffer at its launch contents (never read). -/
def outsOf (o2 : (c : Dev nD) → Buf (Elt F) ((c : Thread nD τ).loc main_v10))
    (o4 : (c : Dev nD) → Buf (Elt F) ((c : Thread nD τ).loc main_v14))
    (o6 : (c : Dev nD) → Buf (Elt F) ((c : Thread nD τ).loc main_v18)) : Gen.Outs (F := F) :=
  fun _ r c =>
    if h : r = main_v10 then h ▸ o2 c
    else if h : r = main_v14 then h ▸ o4 c
    else if h : r = main_v18 then h ▸ o6 c
    else m ((c : Thread nD τ).loc r)

theorem outsOf_v10 (o2 o4 o6) (J : ℕ) (c : Dev nD) : outsOf m o2 o4 o6 J main_v10 c = o2 c := by
  unfold outsOf; rw [dif_pos rfl]
theorem outsOf_v14 (o2 o4 o6) (J : ℕ) (c : Dev nD) : outsOf m o2 o4 o6 J main_v14 c = o4 c := by
  unfold outsOf; rw [dif_neg (by decide), dif_pos rfl]
theorem outsOf_v18 (o2 o4 o6) (J : ℕ) (c : Dev nD) : outsOf m o2 o4 o6 J main_v18 c = o6 c := by
  unfold outsOf; rw [dif_neg (by decide), dif_neg (by decide), dif_pos rfl]

/-- What region 0 leaves in its output array: the write-backs of all its points folded over the entry contents. -/
def o2 (c : Dev nD) : Buf (Elt F) ((c : Thread nD τ).loc main_v10) := (dat0 (VV1 m) c).arrAt 4 cfg0.N
/-- The unknowns with region 0's output known. -/
def outsA : Gen.Outs (F := F) :=
  outsOf m (o2 m) (fun c => m ((c : Thread nD τ).loc main_v14)) (fun c => m ((c : Thread nD τ).loc main_v18))
/-- What region 1, entered from what region 0 left, leaves in its output array. -/
def o4 (c : Dev nD) : Buf (Elt F) ((c : Thread nD τ).loc main_v14) := (dat1 (VV3 m (outsA m)) c).arrAt 4 cfg1.N
/-- The unknowns with regions 0 and 1's outputs known. -/
def outsB : Gen.Outs (F := F) := outsOf m (o2 m) (o4 m) (fun c => m ((c : Thread nD τ).loc main_v18))
/-- What region 2, entered from what region 1 left, leaves in its output array. -/
def o6 (c : Dev nD) : Buf (Elt F) ((c : Thread nD τ).loc main_v18) := (dat2 (VV5 m (outsB m)) c).arrAt 4 cfg2.N
/-- The contents the three regions leave. -/
def outsC : Gen.Outs (F := F) := outsOf m (o2 m) (o4 m) (o6 m)

/-! ## The valuations read the unknowns at three points only -/

theorem V2_congr (outs outs' : Gen.Outs (F := F)) (c : Dev nD) (h2 : outs 2 main_v10 c = outs' 2 main_v10 c) :
    Gen.V2 m outs c = Gen.V2 m outs' c := by
  show Function.update _ _ _ = Function.update _ _ _
  rw [h2]
theorem V3_congr (outs outs' : Gen.Outs (F := F)) (c : Dev nD) (h2 : outs 2 main_v10 c = outs' 2 main_v10 c) :
    Gen.V3 m outs c = Gen.V3 m outs' c :=
  congrArg (StableHlo.after hostOps1) (V2_congr m outs outs' c h2)
theorem V4_congr (outs outs' : Gen.Outs (F := F)) (c : Dev nD) (h2 : outs 2 main_v10 c = outs' 2 main_v10 c)
    (h4 : outs 4 main_v14 c = outs' 4 main_v14 c) : Gen.V4 m outs c = Gen.V4 m outs' c := by
  show Function.update _ _ _ = Function.update _ _ _
  rw [V3_congr m outs outs' c h2, h4]
theorem V5_congr (outs outs' : Gen.Outs (F := F)) (c : Dev nD) (h2 : outs 2 main_v10 c = outs' 2 main_v10 c)
    (h4 : outs 4 main_v14 c = outs' 4 main_v14 c) : Gen.V5 m outs c = Gen.V5 m outs' c :=
  congrArg (StableHlo.after hostOps2) (V4_congr m outs outs' c h2 h4)

/-- Region 1's entry contents do not depend on what regions 1 and 2 leave. -/
theorem V3_CA (c : Dev nD) : Gen.V3 m (outsC m) c = Gen.V3 m (outsA m) c :=
  V3_congr m _ _ c ((outsOf_v10 m _ _ _ 2 c).trans (outsOf_v10 m _ _ _ 2 c).symm)
/-- Region 2's entry contents do not depend on what region 2 leaves. -/
theorem V5_CB (c : Dev nD) : Gen.V5 m (outsC m) c = Gen.V5 m (outsB m) c :=
  V5_congr m _ _ c ((outsOf_v10 m _ _ _ 2 c).trans (outsOf_v10 m _ _ _ 2 c).symm)
    ((outsOf_v14 m _ _ _ 4 c).trans (outsOf_v14 m _ _ _ 4 c).symm)

theorem VV3_AC : VV3 m (outsA m) = VV3 m (outsC m) := funext fun c => funext fun b => congrFun (V3_CA m c).symm _
theorem VV5_BC : VV5 m (outsB m) = VV5 m (outsC m) := funext fun c => funext fun b => congrFun (V5_CB m c).symm _

/-! ## What the unknowns are at the three points -/

theorem outsC_2 (c : Dev nD) : outsC m 2 main_v10 c = (dat0 (VV1 m) c).arrAt 4 cfg0.N := outsOf_v10 m _ _ _ 2 c
theorem outsC_4 (c : Dev nD) : outsC m 4 main_v14 c = (dat1 (VV3 m (outsA m)) c).arrAt 4 cfg1.N := outsOf_v14 m _ _ _ 4 c
theorem outsC_6 (c : Dev nD) : outsC m 6 main_v18 c = (dat2 (VV5 m (outsB m)) c).arrAt 4 cfg2.N := outsOf_v18 m _ _ _ 6 c

/-! ## The proof data family and the run -/

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (VV1 m) c
  | ⟨1, _⟩ => fun c => dat1 (VV3 m (outsA m)) c
  | ⟨2, _⟩ => fun c => dat2 (VV5 m (outsB m)) c

/-- THE KERNEL PROGRAM'S RUN: every weakly fair execution from memory `m` with zero counters terminates, the result
    buffer at the last valuation's value — the valuations taken at the contents the three regions leave — and both
    argument buffers as launched. -/
theorem main_run (ρ : Dev nD → PrngReg) :
    θ_run defs (onTc (τ := τ) (main (F := F))) ⟨m, fun _ => 0, ρ⟩ (fun r => ∀ c : Dev nD,
      r.2.mem ((c.tc : Thread nD τ).loc main_v27) = Gen.V7 m (outsC m) c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_all m (outsC m) (pdats m) ρ
    (fun c => q0_0 (VV1 m) c) (fun c => q0_1 (VV1 m) c) (fun c => q0_2 (VV1 m) c) (fun c => q0_3 (VV1 m) c)
    (fun _ _ => rfl) (fun _ _ => rfl) (fun _ => rfl)
    (fun c w => A_eq0 (VV1 m) c w)
    (fun c => (outsC_2 m c).symm)
    (fun c => body_obligation0 (VV1 m) c)
    (fun c => q1_0 (VV3 m (outsA m)) c) (fun c => q1_1 (VV3 m (outsA m)) c) (fun c => q1_2 (VV3 m (outsA m)) c) (fun c => q1_3 (VV3 m (outsA m)) c)
    (fun _ _ => rfl) (fun _ _ => rfl) (fun _ => rfl)
    (fun c w => (A_eq1 (VV3 m (outsA m)) c w).trans (congrFun (V3_CA m c).symm _))
    (fun c => (outsC_4 m c).symm)
    (fun c => body_obligation1 (VV3 m (outsA m)) c)
    (fun c => q2_0 (VV5 m (outsB m)) c) (fun c => q2_1 (VV5 m (outsB m)) c) (fun c => q2_2 (VV5 m (outsB m)) c) (fun c => q2_3 (VV5 m (outsB m)) c)
    (fun _ _ => rfl) (fun _ _ => rfl) (fun _ => rfl)
    (fun c w => (A_eq2 (VV5 m (outsB m)) c w).trans (congrFun (V5_CB m c).symm _))
    (fun c => (outsC_6 m c).symm)
    (fun c => body_obligation2 (VV5 m (outsB m)) c)

end Cert.Kernel.Hand

end
-- ==== Proof.KIShares.lean ====
/-
  The windows' arrays among a core's unscoped buffers, for the two regions whose first two input windows read ONE array.

  A core's unscoped buffers, each held whole at the full share at a valuation `V`, are the distinct buffers behind a
  region's windows and the rest.  Region 0's five windows stand on four buffers (the first behind windows 0 and 1), and
  so do region 1's.  The region's arrays hold each window's buffer whole, an input window's at its own share and the
  output window's at the full share; with the two windows of the shared buffer at the two halves of the full share
  and the other inputs at the full share, the full-share points-to of the shared buffer splits into the two halves at
  the region's entry and the two halves join into it at the exit, the other buffers passing through unchanged.
-/
import proofs.«124713_j8907762171929_2_alg».proof.Proof.Gen.KernelIdeal.Launch
import Idealize.ShloMosaic.Lib.Pipeline.Launch

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

/-- A points-to at an equal element set and an equal share. -/
theorem pt_congr {ℓ : Loc nD τ sig} {I J : Finset (Idx ℓ)} {q q' : PosShare TreeShare} (f : Buf (Elt F) ℓ) (hI : I = J) (hq : q = q') :
    (ℓ ↦[I]{q} f : sProp 𝕄) = (ℓ ↦[J]{q'} f) := by subst hI hq; rfl

/-! ## Region 0 -/

/-- The buffers behind region 0's five windows: four distinct ones, the first behind two windows. -/
theorem image0 : Finset.univ.image (Pipeline.arrRef spec0) = {main_v8, main_v2, main_v6, main_v10} := by decide

theorem split0 (c : Dev nD) (V : (b : Ref sig .tc) → Buf (Elt F) ((c.tc : Thread nD τ).loc b)) :
    (unscopedBufs c V : sProp 𝕄) = iprop((Pipeline.arrBufs spec0 c V : sProp 𝕄) ∗ Pipeline.unscopedRest spec0 c V) :=
  Pipeline.unscopedBufs_split₀ cfgs 0 winFacts₀0.arr_unscoped c V

theorem arrBufs0_eq (c : Dev nD) (V : (b : Ref sig .tc) → Buf (Elt F) ((c.tc : Thread nD τ).loc b)) :
    (Pipeline.arrBufs spec0 c V : sProp 𝕄)
      = iprop((((c.tc : Thread nD τ).loc main_v8) ↦{fullShare} V main_v8) ∗ (((c.tc : Thread nD τ).loc main_v2) ↦{fullShare} V main_v2)
          ∗ (((c.tc : Thread nD τ).loc main_v6) ↦{fullShare} V main_v6) ∗ (((c.tc : Thread nD τ).loc main_v10) ↦{fullShare} V main_v10)) := by
  unfold Pipeline.arrBufs
  rw [image0, bigSep_insert (by decide), bigSep_insert (by decide), bigSep_insert (by decide), bigSep_singleton]
  rfl

/-- The five windows' arrays, each a whole buffer: the first buffer at the two halves of the full share, the others at the
    full share. -/
theorem arrays0_eq {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Fa : (w : Fin cfg0.W) → Buf (Elt F) ((cfg0.win w).arr.view.loc (c.tc : Thread nD τ))) :
    (dat.arrays Fa : sProp 𝕄)
      = iprop((((c.tc : Thread nD τ).loc main_v8) ↦{fullShare.left} Fa 0) ∗ (((c.tc : Thread nD τ).loc main_v8) ↦{fullShare.right} Fa 1)
          ∗ (((c.tc : Thread nD τ).loc main_v2) ↦{fullShare} Fa 2) ∗ (((c.tc : Thread nD τ).loc main_v6) ↦{fullShare} Fa 3)
          ∗ (((c.tc : Thread nD τ).loc main_v10) ↦{fullShare} Fa 4)) := by
  unfold Dat.arrays
  rw [bigSep_W0]
  have s0 : dat.share 0 = fullShare.left := (if_neg (by decide)).trans hq0
  have s1 : dat.share 1 = fullShare.right := (if_neg (by decide)).trans hq1
  have s2 : dat.share 2 = fullShare := (if_neg (by decide)).trans hq2
  have s3 : dat.share 3 = fullShare := (if_neg (by decide)).trans hq3
  have s4 : dat.share 4 = fullShare := if_pos (by decide)
  exact congrArg₂ _ (pt_congr (Fa 0) (arr_whole0 0).set_eq_univ s0) (congrArg₂ _ (pt_congr (Fa 1) (arr_whole0 1).set_eq_univ s1)
    (congrArg₂ _ (pt_congr (Fa 2) (arr_whole0 2).set_eq_univ s2) (congrArg₂ _ (pt_congr (Fa 3) (arr_whole0 3).set_eq_univ s3)
      (pt_congr (Fa 4) (arr_whole0 4).set_eq_univ s4))))

/-- ENTRY: a core's unscoped buffers at contents `V` are region 0's arrays at the contents read off `V` — the buffer
    behind windows 0 and 1 dealt between them by halves of the full share — and the unscoped rest. -/
theorem arrays_of_unscopedBufs0 {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (Fa : (w : Fin cfg0.W) → Buf (Elt F) ((cfg0.win w).arr.view.loc (c.tc : Thread nD τ))) (hF : ∀ w, Fa w = V (Pipeline.arrRef spec0 w)) :
    (unscopedBufs c V : sProp 𝕄) ⊢ iprop(dat.arrays Fa ∗ Pipeline.unscopedRest spec0 c V) := by
  have h0 : Fa 0 = V main_v8 := hF 0
  have h1 : Fa 1 = V main_v8 := hF 1
  have h2 : Fa 2 = V main_v2 := hF 2
  have h3 : Fa 3 = V main_v6 := hF 3
  have h4 : Fa 4 = V main_v10 := hF 4
  rw [split0, arrBufs0_eq, arrays0_eq dat hq0 hq1 hq2 hq3 Fa, h0, h1, h2, h3, h4]
  iintro ⟨⟨H8, H2, H6, H10⟩, Hrest⟩
  ihave H8 := (pointsTo_share (PosShare.mem_left_op_right fullShare)).1 $$ H8
  icases H8 with ⟨H8l, H8r⟩
  isplitr [Hrest]
  · isplitl [H8l]; · iexact H8l
    isplitl [H8r]; · iexact H8r
    isplitl [H2]; · iexact H2
    isplitl [H6]; · iexact H6
    iexact H10
  · iexact Hrest

/-- EXIT: region 0's arrays at contents `Fa` and the unscoped rest at `V` are the core's unscoped buffers at any
    valuation `V'` that has the arrays at `Fa` and agrees with `V` off them — the two halves of the shared buffer joined. -/
theorem unscopedBufs_of_arrays0 {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V V' : (b : Ref sig .tc) → Buf (Elt F) ((c.tc : Thread nD τ).loc b))
    (Fa : (w : Fin cfg0.W) → Buf (Elt F) ((cfg0.win w).arr.view.loc (c.tc : Thread nD τ))) (hF : ∀ w, Fa w = V' (Pipeline.arrRef spec0 w))
    (hrest : ∀ b, b ∉ Finset.univ.image (Pipeline.arrRef spec0) → V' b = V b) :
    iprop(dat.arrays Fa ∗ Pipeline.unscopedRest spec0 c V) ⊢ (unscopedBufs c V' : sProp 𝕄) := by
  have h0 : Fa 0 = V' main_v8 := hF 0
  have h1 : Fa 1 = V' main_v8 := hF 1
  have h2 : Fa 2 = V' main_v2 := hF 2
  have h3 : Fa 3 = V' main_v6 := hF 3
  have h4 : Fa 4 = V' main_v10 := hF 4
  have hr : (Pipeline.unscopedRest spec0 c V : sProp 𝕄) = Pipeline.unscopedRest spec0 c V' := by
    unfold Pipeline.unscopedRest
    exact bigSep_congr fun b hb => by rw [hrest b (Finset.mem_sdiff.mp hb).2]
  rw [split0 c V', arrBufs0_eq, arrays0_eq dat hq0 hq1 hq2 hq3 Fa, hr, h0, h1, h2, h3, h4]
  iintro ⟨⟨H8l, H8r, H2, H6, H10⟩, Hrest⟩
  isplitr [Hrest]
  · isplitl [H8l H8r]
    · iapply (pointsTo_share (PosShare.mem_left_op_right fullShare)).2
      isplitl [H8l] <;> iassumption
    isplitl [H2]; · iexact H2
    isplitl [H6]; · iexact H6
    iexact H10
  · iexact Hrest

/-! ## Region 1 -/
/-- The buffers behind region 1's five windows: four distinct ones, the first behind two windows. -/
theorem image1 : Finset.univ.image (Pipeline.arrRef spec1) = {main_v9, main_v5, main_v7, main_v14} := by decide

theorem split1 (c : Dev nD) (V : (b : Ref sig .tc) → Buf (Elt F) ((c.tc : Thread nD τ).loc b)) :
    (unscopedBufs c V : sProp 𝕄) = iprop((Pipeline.arrBufs spec1 c V : sProp 𝕄) ∗ Pipeline.unscopedRest spec1 c V) :=
  Pipeline.unscopedBufs_split₀ cfgs 1 winFacts₀1.arr_unscoped c V

theorem arrBufs1_eq (c : Dev nD) (V : (b : Ref sig .tc) → Buf (Elt F) ((c.tc : Thread nD τ).loc b)) :
    (Pipeline.arrBufs spec1 c V : sProp 𝕄)
      = iprop((((c.tc : Thread nD τ).loc main_v9) ↦{fullShare} V main_v9) ∗ (((c.tc : Thread nD τ).loc main_v5) ↦{fullShare} V main_v5)
          ∗ (((c.tc : Thread nD τ).loc main_v7) ↦{fullShare} V main_v7) ∗ (((c.tc : Thread nD τ).loc main_v14) ↦{fullShare} V main_v14)) := by
  unfold Pipeline.arrBufs
  rw [image1, bigSep_insert (by decide), bigSep_insert (by decide), bigSep_insert (by decide), bigSep_singleton]
  rfl

/-- The five windows' arrays, each a whole buffer: the first buffer at the two halves of the full share, the others at the
    full share. -/
theorem arrays1_eq {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (Fa : (w : Fin cfg1.W) → Buf (Elt F) ((cfg1.win w).arr.view.loc (c.tc : Thread nD τ))) :
    (dat.arrays Fa : sProp 𝕄)
      = iprop((((c.tc : Thread nD τ).loc main_v9) ↦{fullShare.left} Fa 0) ∗ (((c.tc : Thread nD τ).loc main_v9) ↦{fullShare.right} Fa 1)
          ∗ (((c.tc : Thread nD τ).loc main_v5) ↦{fullShare} Fa 2) ∗ (((c.tc : Thread nD τ).loc main_v7) ↦{fullShare} Fa 3)
          ∗ (((c.tc : Thread nD τ).loc main_v14) ↦{fullShare} Fa 4)) := by
  unfold Dat.arrays
  rw [bigSep_W1]
  have s0 : dat.share 0 = fullShare.left := (if_neg (by decide)).trans hq0
  have s1 : dat.share 1 = fullShare.right := (if_neg (by decide)).trans hq1
  have s2 : dat.share 2 = fullShare := (if_neg (by decide)).trans hq2
  have s3 : dat.share 3 = fullShare := (if_neg (by decide)).trans hq3
  have s4 : dat.share 4 = fullShare := if_pos (by decide)
  exact congrArg₂ _ (pt_congr (Fa 0) (arr_whole1 0).set_eq_univ s0) (congrArg₂ _ (pt_congr (Fa 1) (arr_whole1 1).set_eq_univ s1)
    (congrArg₂ _ (pt_congr (Fa 2) (arr_whole1 2).set_eq_univ s2) (congrArg₂ _ (pt_congr (Fa 3) (arr_whole1 3).set_eq_univ s3)
      (pt_congr (Fa 4) (arr_whole1 4).set_eq_univ s4))))

/-- ENTRY: a core's unscoped buffers at contents `V` are region 1's arrays at the contents read off `V` — the buffer
    behind windows 0 and 1 dealt between them by halves of the full share — and the unscoped rest. -/
theorem arrays_of_unscopedBufs1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (Fa : (w : Fin cfg1.W) → Buf (Elt F) ((cfg1.win w).arr.view.loc (c.tc : Thread nD τ))) (hF : ∀ w, Fa w = V (Pipeline.arrRef spec1 w)) :
    (unscopedBufs c V : sProp 𝕄) ⊢ iprop(dat.arrays Fa ∗ Pipeline.unscopedRest spec1 c V) := by
  have h0 : Fa 0 = V main_v9 := hF 0
  have h1 : Fa 1 = V main_v9 := hF 1
  have h2 : Fa 2 = V main_v5 := hF 2
  have h3 : Fa 3 = V main_v7 := hF 3
  have h4 : Fa 4 = V main_v14 := hF 4
  rw [split1, arrBufs1_eq, arrays1_eq dat hq0 hq1 hq2 hq3 Fa, h0, h1, h2, h3, h4]
  iintro ⟨⟨H8, H2, H6, H10⟩, Hrest⟩
  ihave H8 := (pointsTo_share (PosShare.mem_left_op_right fullShare)).1 $$ H8
  icases H8 with ⟨H8l, H8r⟩
  isplitr [Hrest]
  · isplitl [H8l]; · iexact H8l
    isplitl [H8r]; · iexact H8r
    isplitl [H2]; · iexact H2
    isplitl [H6]; · iexact H6
    iexact H10
  · iexact Hrest

/-- EXIT: region 1's arrays at contents `Fa` and the unscoped rest at `V` are the core's unscoped buffers at any
    valuation `V'` that has the arrays at `Fa` and agrees with `V` off them — the two halves of the shared buffer joined. -/
theorem unscopedBufs_of_arrays1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V V' : (b : Ref sig .tc) → Buf (Elt F) ((c.tc : Thread nD τ).loc b))
    (Fa : (w : Fin cfg1.W) → Buf (Elt F) ((cfg1.win w).arr.view.loc (c.tc : Thread nD τ))) (hF : ∀ w, Fa w = V' (Pipeline.arrRef spec1 w))
    (hrest : ∀ b, b ∉ Finset.univ.image (Pipeline.arrRef spec1) → V' b = V b) :
    iprop(dat.arrays Fa ∗ Pipeline.unscopedRest spec1 c V) ⊢ (unscopedBufs c V' : sProp 𝕄) := by
  have h0 : Fa 0 = V' main_v9 := hF 0
  have h1 : Fa 1 = V' main_v9 := hF 1
  have h2 : Fa 2 = V' main_v5 := hF 2
  have h3 : Fa 3 = V' main_v7 := hF 3
  have h4 : Fa 4 = V' main_v14 := hF 4
  have hr : (Pipeline.unscopedRest spec1 c V : sProp 𝕄) = Pipeline.unscopedRest spec1 c V' := by
    unfold Pipeline.unscopedRest
    exact bigSep_congr fun b hb => by rw [hrest b (Finset.mem_sdiff.mp hb).2]
  rw [split1 c V', arrBufs1_eq, arrays1_eq dat hq0 hq1 hq2 hq3 Fa, hr, h0, h1, h2, h3, h4]
  iintro ⟨⟨H8l, H8r, H2, H6, H10⟩, Hrest⟩
  isplitr [Hrest]
  · isplitl [H8l H8r]
    · iapply (pointsTo_share (PosShare.mem_left_op_right fullShare)).2
      isplitl [H8l] <;> iassumption
    isplitl [H2]; · iexact H2
    isplitl [H6]; · iexact H6
    iexact H10
  · iexact Hrest

end Cert.KernelIdeal.Hand

end
-- ==== Proof.KIRunCond.lean ====
/-
  The whole program's run, given its three kernel regions, with the RESULT named.

  The program is seven items in a row: host operations, the first kernel region, host operations, the second
  region, host operations, the third region, host operations.  Between two items every core holds all its
  buffers whole, at contents that are known up to what the regions leave in the three arrays they write
  (the unknowns `outs`): the launch contents, then each host stretch applied, then a region's output array replaced.
  Given, for each region, that it runs from the state before it to the state after it, every weakly fair
  execution from memory `m` terminates, and in every final memory the result buffer holds what the last of
  those contents says it holds, and the two argument arrays hold what they held at the launch (no item
  writes them).
-/
import proofs.«124713_j8907762171929_2_alg».proof.Proof.Gen.KernelIdeal.Regions
import proofs.«124713_j8907762171929_2_alg».proof.Proof.Gen.KernelIdeal.Launch
import Idealize.ShloMosaic.Lib.Pipeline.Frame
import Idealize.ShloMosaic.Lib.Pipeline.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

-- the run theorem's implicit arguments are found by unifying its conclusion with this one, which takes unfolding
-- plain definitions in a metavariable's type
set_option backward.isDefEq.respectTransparency.types false in
/-- For any user algebra, level assignment, launch dues and ghost resources, any rest states `E` the launch makes
    on every core at once (`hE0`) and that end owing nothing (`hE3`), any contents the regions leave (`outs`) and any
    proof data: given, per region K, a segment record entered from the thread state before it and left at the one
    after it (`RK`, `hpreK`, `hpostK`), every weakly fair execution of the program from memory `m` with zero counters
    terminates, and every final memory holds in the result buffer the last contents' value of it and in each
    argument buffer what it held at the launch. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (m : (ℓ : Loc nD τ sig) → Buf (Elt F) ℓ)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v27) = Gen.V7 m outs c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, hpost1 c, hpre2 c, hpost2 c, sep_mono .rfl (hE3 c)⟩)
    (hinit := ?_) (QY := fun c s => s.mem ((c.tc : Thread nD τ).loc main_v27) = Gen.V7 m outs c main_v27 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- at the launch every core holds its buffers at the launch contents, and the rest gives the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end the result's and each argument's buffer hold what the last contents say
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v27) (Finset.mem_filter.mpr ⟨StableHlo.devRef_mem_tcRefs main_v27, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c)⟩
    · iexact HSI

end Cert.KernelIdeal.Hand

end
-- ==== Proof.KIRegs.lean ====
/-
  The three kernel regions as segments of the whole program's run, and the run.

  Between two items of the program every core holds all its unscoped buffers whole at a known valuation, beside its
  generator register at some state and its dues at nothing.  A kernel region is entered from that state: its windows'
  arrays are split out of the unscoped buffers at the contents the valuation gives them — in regions 0 and 1 the
  buffer behind the first two input windows dealt between them by halves of the full share, in region 2 five distinct
  buffers at the full share —, the generator register goes into the region's invariant, nothing is owed; at its
  exit the arrays come back at the contents the pipeline leaves (an input array as entered, the output array at what
  the region writes), which is the next valuation: the entry valuation updated at the output's buffer.  Given the
  regions' proof data and body obligations, the program's run from any memory with zero counters terminates with the
  result buffer at the last valuation's value and both argument buffers as launched.
-/
import proofs.«124713_j8907762171929_2_alg».proof.Proof.KIShares
import proofs.«124713_j8907762171929_2_alg».proof.Proof.Gen.KernelIdeal.Regions
import proofs.«124713_j8907762171929_2_alg».proof.Proof.Gen.KernelIdeal.Points
import proofs.«124713_j8907762171929_2_alg».proof.Proof.KIRunCond
import Idealize.ShloMosaic.Lib.Pipeline.FrameBody
import Idealize.ShloMosaic.Lib.Pipeline.RegionsLoop
import Idealize.ShloMosaic.Lib.Pipeline.FrameSuffix

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- No kernel variant is named. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)

variable (m : (ℓ : Loc nD τ sig) → Buf (Elt F) ℓ) (outs : Gen.Outs (F := F))
variable (pdats : (p : Fin 3) → (c : Dev nD) → Dat τ (Elt F) Unit ℕ (UR sig nD τ) ℕ (Pipeline.pin (pcfgs (F := F)) Gen.adm p) c)

/-! ## Region 0 -/

/-- At region 0's exit each of its arrays holds what the exit valuation names: an input window's array is never
    written and is no output's buffer; the output window's array holds what the region leaves there. -/
theorem hF0 (hA0 : ∀ c w, (pdats 0 c).A w = Gen.V1 m c (Pipeline.arrRef spec0 w))
    (hout0 : ∀ c, (pdats 0 c).arrAt 4 cfg0.N = outs 2 main_v10 c) (c : Dev nD) :
    ∀ w : Fin 5, (pdats 0 c).arrAt w cfg0.N = Gen.V2 m outs c (Pipeline.arrRef spec0 w)
  | 0 => ((pdats 0 c).arrAt_in 0 rfl _).trans ((hA0 c 0).trans (Gen.V2_of m outs c main_v8 (by decide)).symm)
  | 1 => ((pdats 0 c).arrAt_in 1 rfl _).trans ((hA0 c 1).trans (Gen.V2_of m outs c main_v8 (by decide)).symm)
  | 2 => ((pdats 0 c).arrAt_in 2 rfl _).trans ((hA0 c 2).trans (Gen.V2_of m outs c main_v2 (by decide)).symm)
  | 3 => ((pdats 0 c).arrAt_in 3 rfl _).trans ((hA0 c 3).trans (Gen.V2_of m outs c main_v6 (by decide)).symm)
  | 4 => (hout0 c).trans (show outs 2 main_v10 c = Function.update (Gen.V1 m c) (Proc.devRef (τ := τ) .tc main_v10) (outs 2 main_v10 c)
      (Proc.devRef .tc main_v10) by rw [Function.update_self])
  | ⟨_ + 5, h⟩ => absurd h (Nat.not_lt.2 (Nat.le_add_left _ _))

/-- Off region 0's arrays the exit valuation is the entry valuation: the one buffer it changes is an array. -/
theorem hrest0 (c : Dev nD) (b : Ref sig .tc) (hb : b ∉ Finset.univ.image (Pipeline.arrRef spec0)) :
    Gen.V2 m outs c b = Gen.V1 m c b :=
  Gen.V2_of m outs c b fun h => hb (by rw [List.mem_singleton.mp h, image0]; decide)

set_option backward.isDefEq.respectTransparency.types false in
/-- REGION 0 over the thread state: entered from every unscoped buffer at the valuation before it, left at the one
    after it. Its arrays split out of the unscoped buffers and put back at the exit contents; the generator register
    into the class invariant and out; nothing owed; no semaphore of the kernel's own. -/
def mkReg0
    (hq00 : ∀ c, (pdats 0 c).q 0 = fullShare.left) (hq01 : ∀ c, (pdats 0 c).q 1 = fullShare.right)
    (hq02 : ∀ c, (pdats 0 c).q 2 = fullShare) (hq03 : ∀ c, (pdats 0 c).q 3 = fullShare)
    (hΦ0 : ∀ c t, (pdats 0 c).Φ t = Pipeline.ΦA spec0 c) (howed0 : ∀ c t, (pdats 0 c).owed t = 0)
    (hrec0 : ∀ c, (pdats 0 c).recorded 0 = Set.univ)
    (hA0 : ∀ c w, (pdats 0 c).A w = Gen.V1 m c (Pipeline.arrRef spec0 w))
    (hout0 : ∀ c, (pdats 0 c).arrAt 4 cfg0.N = outs 2 main_v10 c)
    (hbody0 : ∀ c, BodyObligation (pdats 0 c) (defs₀ (F := F)) 𝒱₀ () Set.univ) :
    Pipeline.RegionSeg (pcfgs (F := F)) Gen.adm pdats () defs₀ 𝒱₀ L lv 0 where
  win := Gen.winFacts₀0
  block_pos := Gen.block_pos0
  stage_whole := Gen.stage_whole0
  K := PEmpty
  osem k := k.elim
  ho := Pipeline.OwnSemFacts.none _
  hbody c := (hbody0 c).loose
  hwaits := Pipeline.hwaits_of_owed_zero _ _ _ _ L lv 0 howed0
  pre c := iprop(StableHlo.held (c : Thread nD τ) (Pipeline.ucRefs τ sig) (Gen.V1 m c) ∗ R c)
  post c := iprop(StableHlo.held (c : Thread nD τ) (Pipeline.ucRefs τ sig) (Gen.V2 m outs c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := arrays_of_unscopedBufs0 (pdats 0 c) (hq00 c) (hq01 c) (hq02 c) (hq03 c) (fun b => Gen.V1 m c b)
      ((pdats 0 c).arrAt · 0) (fun w => hA0 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed0 c 0]
      icases HO with ⟨%W, HO⟩; iexists W; isplitr; · ipureintro; exact fun _ _ => Or.inl ((hrec0 c).symm ▸ trivial)
      iexact HO
    isplitl [Hp]; · iexact Hp
    iexact Hrest
  hin c := by
    rw [hΦ0 c 0]; unfold Pipeline.ΦA
    iintro ⟨Hp, -, Hr⟩
    isplitl [Hr]; · iexact Hr
    iexact Hp
  hout c := by
    rw [Pipeline.ownSems0_none, hΦ0 c (Fin.last _)]; unfold Pipeline.ΦA
    iintro ⟨Hr, Hp⟩
    isplitl [Hp]; · iexact Hp
    isplitr; · iempintro
    iexact Hr
  hexit c := by
    have hjoin := unscopedBufs_of_arrays0 (pdats 0 c) (hq00 c) (hq01 c) (hq02 c) (hq03 c) (fun b => Gen.V1 m c b) (fun b => Gen.V2 m outs c b)
      ((pdats 0 c).arrAt · cfg0.N) (hF0 m outs pdats hA0 hout0 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed0 c (Fin.last _)]
    icases HO with ⟨%W, -, HO⟩; iexists W; iexact HO

/-! ## Region 1 -/

/-- At region 1's exit each of its arrays holds what the exit valuation names: an input window's array is never
    written and is no output's buffer; the output window's array holds what the region leaves there. -/
theorem hF1 (hA1 : ∀ c w, (pdats 1 c).A w = Gen.V3 m outs c (Pipeline.arrRef spec1 w))
    (hout1 : ∀ c, (pdats 1 c).arrAt 4 cfg1.N = outs 4 main_v14 c) (c : Dev nD) :
    ∀ w : Fin 5, (pdats 1 c).arrAt w cfg1.N = Gen.V4 m outs c (Pipeline.arrRef spec1 w)
  | 0 => ((pdats 1 c).arrAt_in 0 rfl _).trans ((hA1 c 0).trans (Gen.V4_of m outs c main_v9 (by decide)).symm)
  | 1 => ((pdats 1 c).arrAt_in 1 rfl _).trans ((hA1 c 1).trans (Gen.V4_of m outs c main_v9 (by decide)).symm)
  | 2 => ((pdats 1 c).arrAt_in 2 rfl _).trans ((hA1 c 2).trans (Gen.V4_of m outs c main_v5 (by decide)).symm)
  | 3 => ((pdats 1 c).arrAt_in 3 rfl _).trans ((hA1 c 3).trans (Gen.V4_of m outs c main_v7 (by decide)).symm)
  | 4 => (hout1 c).trans (show outs 4 main_v14 c = Function.update (Gen.V3 m outs c) (Proc.devRef (τ := τ) .tc main_v14) (outs 4 main_v14 c)
      (Proc.devRef .tc main_v14) by rw [Function.update_self])
  | ⟨_ + 5, h⟩ => absurd h (Nat.not_lt.2 (Nat.le_add_left _ _))

/-- Off region 1's arrays the exit valuation is the entry valuation: the one buffer it changes is an array. -/
theorem hrest1 (c : Dev nD) (b : Ref sig .tc) (hb : b ∉ Finset.univ.image (Pipeline.arrRef spec1)) :
    Gen.V4 m outs c b = Gen.V3 m outs c b :=
  Gen.V4_of m outs c b fun h => hb (by rw [List.mem_singleton.mp h, image1]; decide)

set_option backward.isDefEq.respectTransparency.types false in
/-- REGION 1 over the thread state: entered from every unscoped buffer at the valuation before it, left at the one
    after it. Its arrays split out of the unscoped buffers and put back at the exit contents; the generator register
    into the class invariant and out; nothing owed; no semaphore of the kernel's own. -/
def mkReg1
    (hq10 : ∀ c, (pdats 1 c).q 0 = fullShare.left) (hq11 : ∀ c, (pdats 1 c).q 1 = fullShare.right)
    (hq12 : ∀ c, (pdats 1 c).q 2 = fullShare) (hq13 : ∀ c, (pdats 1 c).q 3 = fullShare)
    (hΦ1 : ∀ c t, (pdats 1 c).Φ t = Pipeline.ΦA spec1 c) (howed1 : ∀ c t, (pdats 1 c).owed t = 0)
    (hrec1 : ∀ c, (pdats 1 c).recorded 0 = Set.univ)
    (hA1 : ∀ c w, (pdats 1 c).A w = Gen.V3 m outs c (Pipeline.arrRef spec1 w))
    (hout1 : ∀ c, (pdats 1 c).arrAt 4 cfg1.N = outs 4 main_v14 c)
    (hbody1 : ∀ c, BodyObligation (pdats 1 c) (defs₀ (F := F)) 𝒱₀ () Set.univ) :
    Pipeline.RegionSeg (pcfgs (F := F)) Gen.adm pdats () defs₀ 𝒱₀ L lv 1 where
  win := Gen.winFacts₀1
  block_pos := Gen.block_pos1
  stage_whole := Gen.stage_whole1
  K := PEmpty
  osem k := k.elim
  ho := Pipeline.OwnSemFacts.none _
  hbody c := (hbody1 c).loose
  hwaits := Pipeline.hwaits_of_owed_zero _ _ _ _ L lv 1 howed1
  pre c := iprop(StableHlo.held (c : Thread nD τ) (Pipeline.ucRefs τ sig) (Gen.V3 m outs c) ∗ R c)
  post c := iprop(StableHlo.held (c : Thread nD τ) (Pipeline.ucRefs τ sig) (Gen.V4 m outs c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V3 m outs c b)
  hentry c := by
    rw [Pipeline.ownSems0_none]
    have hsplit := arrays_of_unscopedBufs1 (pdats 1 c) (hq10 c) (hq11 c) (hq12 c) (hq13 c) (fun b => Gen.V3 m outs c b)
      ((pdats 1 c).arrAt · 0) (fun w => hA1 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed1 c 0]
      icases HO with ⟨%W, HO⟩; iexists W; isplitr; · ipureintro; exact fun _ _ => Or.inl ((hrec1 c).symm ▸ trivial)
      iexact HO
    isplitl [Hp]; · iexact Hp
    iexact Hrest
  hin c := by
    rw [hΦ1 c 0]; unfold Pipeline.ΦA
    iintro ⟨Hp, -, Hr⟩
    isplitl [Hr]; · iexact Hr
    iexact Hp
  hout c := by
    rw [Pipeline.ownSems0_none, hΦ1 c (Fin.last _)]; unfold Pipeline.ΦA
    iintro ⟨Hr, Hp⟩
    isplitl [Hp]; · iexact Hp
    isplitr; · iempintro
    iexact Hr
  hexit c := by
    have hjoin := unscopedBufs_of_arrays1 (pdats 1 c) (hq10 c) (hq11 c) (hq12 c) (hq13 c) (fun b => Gen.V3 m outs c b) (fun b => Gen.V4 m outs c b)
      ((pdats 1 c).arrAt · cfg1.N) (hF1 m outs pdats hA1 hout1 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed1 c (Fin.last _)]
    icases HO with ⟨%W, -, HO⟩; iexists W; iexact HO

/-! ## Region 2 -/

/-- At region 2's exit each of its arrays holds what the exit valuation names: an input window's array is never
    written and is no output's buffer; the output window's array holds what the region leaves there. -/
theorem hF2 (hA2 : ∀ c w, (pdats 2 c).A w = Gen.V5 m outs c (Pipeline.arrRef spec2 w))
    (hout2 : ∀ c, (pdats 2 c).arrAt 4 cfg2.N = outs 6 main_v18 c) (c : Dev nD) :
    ∀ w : Fin 5, (pdats 2 c).arrAt w cfg2.N = Gen.V6 m outs c (Pipeline.arrRef spec2 w)
  | 0 => ((pdats 2 c).arrAt_in 0 rfl _).trans ((hA2 c 0).trans (Gen.V6_of m outs c main_v8 (by decide)).symm)
  | 1 => ((pdats 2 c).arrAt_in 1 rfl _).trans ((hA2 c 1).trans (Gen.V6_of m outs c main_v9 (by decide)).symm)
  | 2 => ((pdats 2 c).arrAt_in 2 rfl _).trans ((hA2 c 2).trans (Gen.V6_of m outs c main_v2 (by decide)).symm)
  | 3 => ((pdats 2 c).arrAt_in 3 rfl _).trans ((hA2 c 3).trans (Gen.V6_of m outs c main_v7 (by decide)).symm)
  | 4 => (hout2 c).trans (show outs 6 main_v18 c = Function.update (Gen.V5 m outs c) (Proc.devRef (τ := τ) .tc main_v18) (outs 6 main_v18 c)
      (Proc.devRef .tc main_v18) by rw [Function.update_self])
  | ⟨_ + 5, h⟩ => absurd h (Nat.not_lt.2 (Nat.le_add_left _ _))

/-- Off region 2's arrays the exit valuation is the entry valuation: the one buffer it changes is an array. -/
theorem hrest2 (c : Dev nD) (b : Ref sig .tc) (hb : b ∉ Finset.univ.image (Pipeline.arrRef spec2)) :
    Gen.V6 m outs c b = Gen.V5 m outs c b :=
  Gen.V6_of m outs c b fun h => hb (by rw [List.mem_singleton.mp h]; exact Finset.mem_image.mpr ⟨4, Finset.mem_univ _, rfl⟩)

/-- Region 2's arrays are held at the full share: the inputs by hypothesis, the output always. -/
theorem hshare2 (hq20 : ∀ c, (pdats 2 c).q 0 = fullShare) (hq21 : ∀ c, (pdats 2 c).q 1 = fullShare)
    (hq22 : ∀ c, (pdats 2 c).q 2 = fullShare) (hq23 : ∀ c, (pdats 2 c).q 3 = fullShare) (c : Dev nD) :
    ∀ w : Fin 5, (pdats 2 c).share w = fullShare
  | 0 => (if_neg (show ¬ ((cfg2.win 0).isOut = true) from Bool.false_ne_true)).trans (hq20 c)
  | 1 => (if_neg (show ¬ ((cfg2.win 1).isOut = true) from Bool.false_ne_true)).trans (hq21 c)
  | 2 => (if_neg (show ¬ ((cfg2.win 2).isOut = true) from Bool.false_ne_true)).trans (hq22 c)
  | 3 => (if_neg (show ¬ ((cfg2.win 3).isOut = true) from Bool.false_ne_true)).trans (hq23 c)
  | 4 => if_pos (show (cfg2.win 4).isOut = true from rfl)
  | ⟨_ + 5, h⟩ => absurd h (Nat.not_lt.2 (Nat.le_add_left _ _))

set_option backward.isDefEq.respectTransparency.types false in
/-- REGION 2 over the thread state: entered from every unscoped buffer at the valuation before it, left at the one
    after it. Its five windows stand on five distinct buffers, each held whole at the full share; the generator
    register into the class invariant and out; nothing owed; no semaphore of the kernel's own. -/
def mkReg2
    (hq20 : ∀ c, (pdats 2 c).q 0 = fullShare) (hq21 : ∀ c, (pdats 2 c).q 1 = fullShare)
    (hq22 : ∀ c, (pdats 2 c).q 2 = fullShare) (hq23 : ∀ c, (pdats 2 c).q 3 = fullShare)
    (hΦ2 : ∀ c t, (pdats 2 c).Φ t = Pipeline.ΦA spec2 c) (howed2 : ∀ c t, (pdats 2 c).owed t = 0)
    (hrec2 : ∀ c, (pdats 2 c).recorded 0 = Set.univ)
    (hA2 : ∀ c w, (pdats 2 c).A w = Gen.V5 m outs c (Pipeline.arrRef spec2 w))
    (hout2 : ∀ c, (pdats 2 c).arrAt 4 cfg2.N = outs 6 main_v18 c)
    (hbody2 : ∀ c, BodyObligation (pdats 2 c) (defs₀ (F := F)) 𝒱₀ () Set.univ) :
    Pipeline.RegionSeg (pcfgs (F := F)) Gen.adm pdats () defs₀ 𝒱₀ L lv 2 where
  win := Gen.launch2.win.to₀
  block_pos := Gen.launch2.block_pos
  stage_whole := Gen.launch2.stage_whole
  K := PEmpty
  osem k := k.elim
  ho := Pipeline.OwnSemFacts.none _
  hbody c := (hbody2 c).loose
  hwaits := Pipeline.hwaits_of_owed_zero _ _ _ _ L lv 2 howed2
  pre c := iprop(StableHlo.held (c : Thread nD τ) (Pipeline.ucRefs τ sig) (Gen.V5 m outs c) ∗ R c)
  post c := iprop(StableHlo.held (c : Thread nD τ) (Pipeline.ucRefs τ sig) (Gen.V6 m outs c) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V5 m outs c b)
  hentry c := by
    rw [Pipeline.ownSems0_none]
    have hsplit := Pipeline.arrays_of_unscopedBufs (p := 2) (pcfgs (F := F)) Gen.adm pdats Gen.launch2.win Gen.launch2.arr_whole c
      (hshare2 pdats hq20 hq21 hq22 hq23 c) (fun b => Gen.V5 m outs c b) (fun w => hA2 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed2 c 0]
      icases HO with ⟨%W, HO⟩; iexists W; isplitr; · ipureintro; exact fun _ _ => Or.inl ((hrec2 c).symm ▸ trivial)
      iexact HO
    isplitl [Hp]; · iexact Hp
    iexact Hrest
  hin c := by
    rw [hΦ2 c 0]; unfold Pipeline.ΦA
    iintro ⟨Hp, -, Hr⟩
    isplitl [Hr]; · iexact Hr
    iexact Hp
  hout c := by
    rw [Pipeline.ownSems0_none, hΦ2 c (Fin.last _)]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      Gen.launch2.win Gen.launch2.arr_whole c pdats (hshare2 pdats hq20 hq21 hq22 hq23 c)
      (fun b => Gen.V5 m outs c b) (fun b => Gen.V6 m outs c b) ((pdats 2 c).arrAt · cfg2.N) (hF2 m outs pdats hA2 hout2 c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed2 c (Fin.last _)]
    icases HO with ⟨%W, -, HO⟩; iexists W; iexact HO

/-! ## The run -/

set_option backward.isDefEq.respectTransparency.types false in
/-- THE RUN. Given proof data for the three regions whose input shares, invariants, dues, entry contents and
    output contents are as the valuations say, and their body obligations: every weakly fair execution of the
    program from memory `m` with zero counters terminates, and every final memory holds in the result buffer the
    last valuation's value of it and in each argument buffer what it held at the launch. -/
theorem run_all (ρ : Dev nD → PrngReg)
    (hq00 : ∀ c, (pdats 0 c).q 0 = fullShare.left) (hq01 : ∀ c, (pdats 0 c).q 1 = fullShare.right)
    (hq02 : ∀ c, (pdats 0 c).q 2 = fullShare) (hq03 : ∀ c, (pdats 0 c).q 3 = fullShare)
    (hΦ0 : ∀ c t, (pdats 0 c).Φ t = Pipeline.ΦA spec0 c) (howed0 : ∀ c t, (pdats 0 c).owed t = 0)
    (hrec0 : ∀ c, (pdats 0 c).recorded 0 = Set.univ)
    (hA0 : ∀ c w, (pdats 0 c).A w = Gen.V1 m c (Pipeline.arrRef spec0 w))
    (hout0 : ∀ c, (pdats 0 c).arrAt 4 cfg0.N = outs 2 main_v10 c)
    (hbody0 : ∀ c, BodyObligation (pdats 0 c) (defs₀ (F := F)) 𝒱₀ () Set.univ)
    (hq10 : ∀ c, (pdats 1 c).q 0 = fullShare.left) (hq11 : ∀ c, (pdats 1 c).q 1 = fullShare.right)
    (hq12 : ∀ c, (pdats 1 c).q 2 = fullShare) (hq13 : ∀ c, (pdats 1 c).q 3 = fullShare)
    (hΦ1 : ∀ c t, (pdats 1 c).Φ t = Pipeline.ΦA spec1 c) (howed1 : ∀ c t, (pdats 1 c).owed t = 0)
    (hrec1 : ∀ c, (pdats 1 c).recorded 0 = Set.univ)
    (hA1 : ∀ c w, (pdats 1 c).A w = Gen.V3 m outs c (Pipeline.arrRef spec1 w))
    (hout1 : ∀ c, (pdats 1 c).arrAt 4 cfg1.N = outs 4 main_v14 c)
    (hbody1 : ∀ c, BodyObligation (pdats 1 c) (defs₀ (F := F)) 𝒱₀ () Set.univ)
    (hq20 : ∀ c, (pdats 2 c).q 0 = fullShare) (hq21 : ∀ c, (pdats 2 c).q 1 = fullShare)
    (hq22 : ∀ c, (pdats 2 c).q 2 = fullShare) (hq23 : ∀ c, (pdats 2 c).q 3 = fullShare)
    (hΦ2 : ∀ c t, (pdats 2 c).Φ t = Pipeline.ΦA spec2 c) (howed2 : ∀ c t, (pdats 2 c).owed t = 0)
    (hrec2 : ∀ c, (pdats 2 c).recorded 0 = Set.univ)
    (hA2 : ∀ c w, (pdats 2 c).A w = Gen.V5 m outs c (Pipeline.arrRef spec2 w))
    (hout2 : ∀ c, (pdats 2 c).arrAt 4 cfg2.N = outs 6 main_v18 c)
    (hbody2 : ∀ c, BodyObligation (pdats 2 c) (defs₀ (F := F)) 𝒱₀ () Set.univ) :
    θ_run defs (onTc (τ := τ) (main (F := F))) ⟨m, fun _ => 0, ρ⟩ (fun r => ∀ c : Dev nD,
      r.2.mem ((c.tc : Thread nD τ).loc main_v27) = Gen.V7 m outs c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond (emb₁) () 𝒱₀ L lv (fun _ _ => rfl) m ρ outs pdats (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := mkReg0 m outs pdats hq00 hq01 hq02 hq03 hΦ0 howed0 hrec0 hA0 hout0 hbody0) (hpre0 := fun _ => .rfl) (hpost0 := fun _ => .rfl)
    (R1 := mkReg1 m outs pdats hq10 hq11 hq12 hq13 hΦ1 howed1 hrec1 hA1 hout1 hbody1) (hpre1 := fun _ => .rfl) (hpost1 := fun _ => .rfl)
    (R2 := mkReg2 m outs pdats hq20 hq21 hq22 hq23 hΦ2 howed2 hrec2 hA2 hout2 hbody2) (hpre2 := fun _ => .rfl) (hpost2 := fun _ => .rfl)

end Cert.KernelIdeal.Hand

end
-- ==== Proof.KIOut.lean ====
/-
  What each of the three pipelines leaves in its output window, named: at a grid point the body stores, over the 128 lanes of
  the point's [1,1,128] block, the total its sixteen-trip loop carries out — the sum of the band's sixteen 512×512 tiles —
  as a term of the four input blocks the point finds in its staging memrefs.
-/
import proofs.«124713_j8907762171929_2_alg».proof.Proof.Gen.KernelIdeal.Launch
import proofs.«124713_j8907762171929_2_alg».proof.Proof.Gen.KernelIdeal.Skeleton
import proofs.«124713_j8907762171929_2_alg».proof.Proof.Gen.KernelIdeal.Loops
import proofs.«124713_j8907762171929_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Pipeline 0 -/

/-- The output's whole block. -/
abbrev r0_4 : Rect S1x1x128 := Rect.unit (s := S1x1x128) ![0, 0, 0] S1x1x128.size inb_S1x1x128_S1x1x128_0_0_0

/-- The band's total: the loop's carried value after its last trip, from the four input blocks the body finds in
    its staging memrefs (the row tile `x0` and its norms `x2`, the whole second array `x1` and its norms `x3`). -/
def tot0 (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) : FVec F S1x1 .f32 :=
  st_k0_t1 (F := F) Variants.none c none i arg1 harg1 arg2 harg2 arg3 harg3 arg4 harg4 arg5 harg5
    (View.readAt (Elt F) arg1.view (Rect.unit (s := S512x512) ![0, 0] S512x512.size inb_S512x512_S512x512_0_0).toLoadRect (harg1.unread x0))
    (View.readAt (Elt F) arg3.view (Rect.unit (s := S512x1) ![0, 0] S512x1.size inb_S512x1_S512x1_0_0).toLoadRect (harg3.unread x2))
    (harg2.unread x1) (harg4.unread x3) (k0_pay1 (F := F)) k0_t1_loop.trips

/-- What the body leaves in the output's staging buffer: its one store, of the total spread over the lanes. -/
def outv0 (c : Dev nD) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) : Vec F S1x1x128 .f32 :=
  View.canon [⟨r0_4, k0_pay3 (tot0 c i arg1 harg1 arg2 harg2 arg3 harg3 arg4 harg4 arg5 harg5 x0 x1 x2 x3)⟩]

/-- The store covers the buffer. -/
theorem cover0_4 (p0 : Vec F S1x1x128 .f32) (y : S1x1x128.Idx) :
    ∃ pc ∈ ([⟨r0_4, p0⟩] : List (View.Piece (Elt F) S1x1x128 .f32)), y ∈ pc.1.set :=
  View.cover_of_tiled [⟨r0_4, p0⟩] S1x1x128.size (by rfl) y

/-- Each window's current staging memref at point `t`, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output window's staging buffer at point `t`. -/
def out0 (c : Dev nD) (t : Fin cfg0.N) : Vec F S1x1x128 .f32 :=
  outv0 (F := F) c (grid0.coords t) (ms0_0 t) (hs0_0 t) (ms0_1 t) (hs0_1 t) (ms0_2 t) (hs0_2 t) (ms0_3 t) (hs0_3 t) (ms0_4 t) (hs0_4 t)
    (iblk0 V c 0 t) (iblk0 V c 1 t) (iblk0 V c 2 t) (iblk0 V c 3 t)

end

/-! ## Pipeline 1 -/

/-- The output's whole block. -/
abbrev r1_4 : Rect S1x1x128 := Rect.unit (s := S1x1x128) ![0, 0, 0] S1x1x128.size inb_S1x1x128_S1x1x128_0_0_0

/-- The band's total: the loop's carried value after its last trip, from the four input blocks the body finds in
    its staging memrefs (the row tile `x0` and its norms `x2`, the whole second array `x1` and its norms `x3`). -/
def tot1 (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) : FVec F S1x1 .f32 :=
  st_k1_t1 (F := F) Variants.none c none i arg1 harg1 arg2 harg2 arg3 harg3 arg4 harg4 arg5 harg5
    (View.readAt (Elt F) arg1.view (Rect.unit (s := S512x512) ![0, 0] S512x512.size inb_S512x512_S512x512_0_0).toLoadRect (harg1.unread x0))
    (View.readAt (Elt F) arg3.view (Rect.unit (s := S512x1) ![0, 0] S512x1.size inb_S512x1_S512x1_0_0).toLoadRect (harg3.unread x2))
    (harg2.unread x1) (harg4.unread x3) (k1_pay1 (F := F)) k1_t1_loop.trips

/-- What the body leaves in the output's staging buffer: its one store, of the total spread over the lanes. -/
def outv1 (c : Dev nD) (i : grid1.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) : Vec F S1x1x128 .f32 :=
  View.canon [⟨r1_4, k1_pay3 (tot1 c i arg1 harg1 arg2 harg2 arg3 harg3 arg4 harg4 arg5 harg5 x0 x1 x2 x3)⟩]

/-- The store covers the buffer. -/
theorem cover1_4 (p0 : Vec F S1x1x128 .f32) (y : S1x1x128.Idx) :
    ∃ pc ∈ ([⟨r1_4, p0⟩] : List (View.Piece (Elt F) S1x1x128 .f32)), y ∈ pc.1.set :=
  View.cover_of_tiled [⟨r1_4, p0⟩] S1x1x128.size (by rfl) y

/-- Each window's current staging memref at point `t`, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128 .f32 := win1_4.stage (cfg1.slots t 4)
abbrev hs1_4 (t : Fin cfg1.N) : (ms1_4 t).IsWhole := hstage1_4 ((cfg1.slots t 4).cast nbuf1_4)

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output window's staging buffer at point `t`. -/
def out1 (c : Dev nD) (t : Fin cfg1.N) : Vec F S1x1x128 .f32 :=
  outv1 (F := F) c (grid1.coords t) (ms1_0 t) (hs1_0 t) (ms1_1 t) (hs1_1 t) (ms1_2 t) (hs1_2 t) (ms1_3 t) (hs1_3 t) (ms1_4 t) (hs1_4 t)
    (iblk1 V c 0 t) (iblk1 V c 1 t) (iblk1 V c 2 t) (iblk1 V c 3 t)

end

/-! ## Pipeline 2 -/

/-- The output's whole block. -/
abbrev r2_4 : Rect S1x1x128 := Rect.unit (s := S1x1x128) ![0, 0, 0] S1x1x128.size inb_S1x1x128_S1x1x128_0_0_0

/-- The band's total: the loop's carried value after its last trip, from the four input blocks the body finds in
    its staging memrefs (the row tile `x0` and its norms `x2`, the whole second array `x1` and its norms `x3`). -/
def tot2 (c : Dev nD) (i : grid2.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) : FVec F S1x1 .f32 :=
  st_k2_t1 (F := F) Variants.none c none i arg1 harg1 arg2 harg2 arg3 harg3 arg4 harg4 arg5 harg5
    (View.readAt (Elt F) arg1.view (Rect.unit (s := S512x512) ![0, 0] S512x512.size inb_S512x512_S512x512_0_0).toLoadRect (harg1.unread x0))
    (View.readAt (Elt F) arg3.view (Rect.unit (s := S512x1) ![0, 0] S512x1.size inb_S512x1_S512x1_0_0).toLoadRect (harg3.unread x2))
    (harg2.unread x1) (harg4.unread x3) (k2_pay1 (F := F)) k2_t1_loop.trips

/-- What the body leaves in the output's staging buffer: its one store, of the total spread over the lanes. -/
def outv2 (c : Dev nD) (i : grid2.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) : Vec F S1x1x128 .f32 :=
  View.canon [⟨r2_4, k2_pay3 (tot2 c i arg1 harg1 arg2 harg2 arg3 harg3 arg4 harg4 arg5 harg5 x0 x1 x2 x3)⟩]

/-- The store covers the buffer. -/
theorem cover2_4 (p0 : Vec F S1x1x128 .f32) (y : S1x1x128.Idx) :
    ∃ pc ∈ ([⟨r2_4, p0⟩] : List (View.Piece (Elt F) S1x1x128 .f32)), y ∈ pc.1.set :=
  View.cover_of_tiled [⟨r2_4, p0⟩] S1x1x128.size (by rfl) y

/-- Each window's current staging memref at point `t`, and its wholeness. -/
abbrev ms2_0 (t : Fin cfg2.N) : Memref sig .tc .vmem S512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x8192 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x128 .f32 := win2_4.stage (cfg2.slots t 4)
abbrev hs2_4 (t : Fin cfg2.N) : (ms2_4 t).IsWhole := hstage2_4 ((cfg2.slots t 4).cast nbuf2_4)

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output window's staging buffer at point `t`. -/
def out2 (c : Dev nD) (t : Fin cfg2.N) : Vec F S1x1x128 .f32 :=
  outv2 (F := F) c (grid2.coords t) (ms2_0 t) (hs2_0 t) (ms2_1 t) (hs2_1 t) (ms2_2 t) (hs2_2 t) (ms2_3 t) (hs2_3 t) (ms2_4 t) (hs2_4 t)
    (iblk2 V c 0 t) (iblk2 V c 1 t) (iblk2 V c 2 t) (iblk2 V c 3 t)

end

end Cert.KernelIdeal.Hand

end
-- ==== Proof.KIRun0.lean ====
/-
  The body of kernel 0, run once on whole staging memrefs.
-/
import proofs.«124713_j8907762171929_2_alg».proof.Proof.Gen.KernelIdeal.Launch
import proofs.«124713_j8907762171929_2_alg».proof.Proof.Gen.KernelIdeal.Skeleton
import proofs.«124713_j8907762171929_2_alg».proof.Proof.Gen.KernelIdeal.Loops
import proofs.«124713_j8907762171929_2_alg».proof.Proof.Gen.KernelIdeal.Points
import Idealize.ShloMosaic.Lib.Pipeline.FrameBody
import Idealize.ShloMosaic.Lib.Ring
import Idealize.ShloMosaic.Lib.Tactic
import proofs.«124713_j8907762171929_2_alg».proof.Proof.KIOut

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body of kernel 0 on whole staging memrefs: the four inputs at read contents and the output at anything; it
    runs to its return with the inputs as they were and the output at `outv0` of the inputs. The sixteen-trip loop
    goes by its invariant: the carried value before trip `k` is the recursion's value at `k`. -/
theorem sound_kernel0 (c : Dev nD) (E : Set ℕ) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outv0 (F := F) c i arg1 harg1 arg2 harg2 arg3 harg3 arg4 harg4 arg5 harg5 x0 x1 x2 x3)) -∗ K ⟨⟩))
      ⊢ wp frame (wpE (defs₀ (F := F)) Variants.none c none) E (cc0__mmd_sum_kernel i arg1 harg1 arg2 harg2 arg3 harg3 arg4 harg4 arg5 harg5) K := by
  simp only [cc0__mmd_sum_kernel_eq_skeleton]; unfold cc0__mmd_sum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  set_option sl_exec.maxSteps 2 in sl_exec
  sl_for (inv_k0_t1 (F := F) Variants.none c none i arg1 harg1 arg2 harg2 arg3 harg3 arg4 harg4 arg5 harg5 (View.readAt (Elt F) arg1.view (Rect.unit (s := S512x512) ![0, 0] S512x512.size inb_S512x512_S512x512_0_0).toLoadRect (harg1.unread x0)) (View.readAt (Elt F) arg3.view (Rect.unit (s := S512x1) ![0, 0] S512x1.size inb_S512x1_S512x1_0_0).toLoadRect (harg3.unread x2)) (harg2.unread x1) (harg4.unread x3) (k0_pay1 (F := F))) $$ [H1 H3]
  case region =>
    intro k acc
    exact (loopInv_k0_t1 (F := F) Variants.none c none E i arg1 harg1 arg2 harg2 arg3 harg3 arg4 harg4 arg5 harg5 (View.readAt (Elt F) arg1.view (Rect.unit (s := S512x512) ![0, 0] S512x512.size inb_S512x512_S512x512_0_0).toLoadRect (harg1.unread x0)) (View.readAt (Elt F) arg3.view (Rect.unit (s := S512x1) ![0, 0] S512x1.size inb_S512x1_S512x1_0_0).toLoadRect (harg3.unread x2)) (harg2.unread x1) (harg4.unread x3) (k0_pay1 (F := F))).step k acc
  · isplitl [H1]; · iexact H1
    isplitl [H3]; · iexact H3
    ipureintro; rfl
  iintro %acc ⟨H1, H3, %hacc⟩
  subst hacc
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  exact View.read_writes_eq_canon _ _ _ (cover0_4 _)

end Cert.KernelIdeal.Hand

end
-- ==== Proof.KIRun1.lean ====
/-
  The body of kernel 1, run once on whole staging memrefs.
-/
import proofs.«124713_j8907762171929_2_alg».proof.Proof.Gen.KernelIdeal.Launch
import proofs.«124713_j8907762171929_2_alg».proof.Proof.Gen.KernelIdeal.Skeleton
import proofs.«124713_j8907762171929_2_alg».proof.Proof.Gen.KernelIdeal.Loops
import proofs.«124713_j8907762171929_2_alg».proof.Proof.Gen.KernelIdeal.Points
import Idealize.ShloMosaic.Lib.Pipeline.FrameBody
import Idealize.ShloMosaic.Lib.Ring
import Idealize.ShloMosaic.Lib.Tactic
import proofs.«124713_j8907762171929_2_alg».proof.Proof.KIOut

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body of kernel 1 on whole staging memrefs: the four inputs at read contents and the output at anything; it
    runs to its return with the inputs as they were and the output at `outv1` of the inputs. The sixteen-trip loop
    goes by its invariant: the carried value before trip `k` is the recursion's value at `k`. -/
theorem sound_kernel1 (c : Dev nD) (E : Set ℕ) (i : grid1.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outv1 (F := F) c i arg1 harg1 arg2 harg2 arg3 harg3 arg4 harg4 arg5 harg5 x0 x1 x2 x3)) -∗ K ⟨⟩))
      ⊢ wp frame (wpE (defs₀ (F := F)) Variants.none c none) E (cc1__mmd_sum_kernel i arg1 harg1 arg2 harg2 arg3 harg3 arg4 harg4 arg5 harg5) K := by
  simp only [cc1__mmd_sum_kernel_eq_skeleton]; unfold cc1__mmd_sum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  set_option sl_exec.maxSteps 2 in sl_exec
  sl_for (inv_k1_t1 (F := F) Variants.none c none i arg1 harg1 arg2 harg2 arg3 harg3 arg4 harg4 arg5 harg5 (View.readAt (Elt F) arg1.view (Rect.unit (s := S512x512) ![0, 0] S512x512.size inb_S512x512_S512x512_0_0).toLoadRect (harg1.unread x0)) (View.readAt (Elt F) arg3.view (Rect.unit (s := S512x1) ![0, 0] S512x1.size inb_S512x1_S512x1_0_0).toLoadRect (harg3.unread x2)) (harg2.unread x1) (harg4.unread x3) (k1_pay1 (F := F))) $$ [H1 H3]
  case region =>
    intro k acc
    exact (loopInv_k1_t1 (F := F) Variants.none c none E i arg1 harg1 arg2 harg2 arg3 harg3 arg4 harg4 arg5 harg5 (View.readAt (Elt F) arg1.view (Rect.unit (s := S512x512) ![0, 0] S512x512.size inb_S512x512_S512x512_0_0).toLoadRect (harg1.unread x0)) (View.readAt (Elt F) arg3.view (Rect.unit (s := S512x1) ![0, 0] S512x1.size inb_S512x1_S512x1_0_0).toLoadRect (harg3.unread x2)) (harg2.unread x1) (harg4.unread x3) (k1_pay1 (F := F))).step k acc
  · isplitl [H1]; · iexact H1
    isplitl [H3]; · iexact H3
    ipureintro; rfl
  iintro %acc ⟨H1, H3, %hacc⟩
  subst hacc
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  exact View.read_writes_eq_canon _ _ _ (cover1_4 _)

end Cert.KernelIdeal.Hand

end
-- ==== Proof.KIRun2.lean ====
/-
  The body of kernel 2, run once on whole staging memrefs.
-/
import proofs.«124713_j8907762171929_2_alg».proof.Proof.Gen.KernelIdeal.Launch
import proofs.«124713_j8907762171929_2_alg».proof.Proof.Gen.KernelIdeal.Skeleton
import proofs.«124713_j8907762171929_2_alg».proof.Proof.Gen.KernelIdeal.Loops
import proofs.«124713_j8907762171929_2_alg».proof.Proof.Gen.KernelIdeal.Points
import Idealize.ShloMosaic.Lib.Pipeline.FrameBody
import Idealize.ShloMosaic.Lib.Ring
import Idealize.ShloMosaic.Lib.Tactic
import proofs.«124713_j8907762171929_2_alg».proof.Proof.KIOut

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body of kernel 2 on whole staging memrefs: the four inputs at read contents and the output at anything; it
    runs to its return with the inputs as they were and the output at `outv2` of the inputs. The sixteen-trip loop
    goes by its invariant: the carried value before trip `k` is the recursion's value at `k`. -/
theorem sound_kernel2 (c : Dev nD) (E : Set ℕ) (i : grid2.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (x0 : Vec F S512x512 .bf16) (x1 : Vec F S8192x512 .bf16) (x2 : Vec F S512x1 .f32) (x3 : Vec F S1x8192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outv2 (F := F) c i arg1 harg1 arg2 harg2 arg3 harg3 arg4 harg4 arg5 harg5 x0 x1 x2 x3)) -∗ K ⟨⟩))
      ⊢ wp frame (wpE (defs₀ (F := F)) Variants.none c none) E (cc2__mmd_sum_kernel i arg1 harg1 arg2 harg2 arg3 harg3 arg4 harg4 arg5 harg5) K := by
  simp only [cc2__mmd_sum_kernel_eq_skeleton]; unfold cc2__mmd_sum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  set_option sl_exec.maxSteps 2 in sl_exec
  sl_for (inv_k2_t1 (F := F) Variants.none c none i arg1 harg1 arg2 harg2 arg3 harg3 arg4 harg4 arg5 harg5 (View.readAt (Elt F) arg1.view (Rect.unit (s := S512x512) ![0, 0] S512x512.size inb_S512x512_S512x512_0_0).toLoadRect (harg1.unread x0)) (View.readAt (Elt F) arg3.view (Rect.unit (s := S512x1) ![0, 0] S512x1.size inb_S512x1_S512x1_0_0).toLoadRect (harg3.unread x2)) (harg2.unread x1) (harg4.unread x3) (k2_pay1 (F := F))) $$ [H1 H3]
  case region =>
    intro k acc
    exact (loopInv_k2_t1 (F := F) Variants.none c none E i arg1 harg1 arg2 harg2 arg3 harg3 arg4 harg4 arg5 harg5 (View.readAt (Elt F) arg1.view (Rect.unit (s := S512x512) ![0, 0] S512x512.size inb_S512x512_S512x512_0_0).toLoadRect (harg1.unread x0)) (View.readAt (Elt F) arg3.view (Rect.unit (s := S512x1) ![0, 0] S512x1.size inb_S512x1_S512x1_0_0).toLoadRect (harg3.unread x2)) (harg2.unread x1) (harg4.unread x3) (k2_pay1 (F := F))).step k acc
  · isplitl [H1]; · iexact H1
    isplitl [H3]; · iexact H3
    ipureintro; rfl
  iintro %acc ⟨H1, H3, %hacc⟩
  subst hacc
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  exact View.read_writes_eq_canon _ _ _ (cover2_4 _)

end Cert.KernelIdeal.Hand

end
-- ==== Proof.KIBody.lean ====
/-
  The proof data of the three pipelines and their body obligations: at every grid point the four input windows hold their
  blocks, the kernel's run leaves the output window at the band's total, and nothing else is touched.
-/
import proofs.«124713_j8907762171929_2_alg».proof.Proof.Gen.KernelIdeal.Launch
import proofs.«124713_j8907762171929_2_alg».proof.Proof.Gen.KernelIdeal.Skeleton
import proofs.«124713_j8907762171929_2_alg».proof.Proof.Gen.KernelIdeal.Loops
import proofs.«124713_j8907762171929_2_alg».proof.Proof.Gen.KernelIdeal.Points
import Idealize.ShloMosaic.Lib.Pipeline.FrameBody
import Idealize.ShloMosaic.Lib.Ring
import Idealize.ShloMosaic.Lib.Tactic
import proofs.«124713_j8907762171929_2_alg».proof.Proof.KIOut
import proofs.«124713_j8907762171929_2_alg».proof.Proof.KIRun0
import proofs.«124713_j8907762171929_2_alg».proof.Proof.KIRun1
import proofs.«124713_j8907762171929_2_alg».proof.Proof.KIRun2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Pipeline 0 -/

section Region0
-- the TensorCore's buffer contents when the region is entered: a parameter, instantiated at the run
variable (V : (c : Dev nD) → (b : Ref sig .tc) → Buf (Elt F) ((c : Thread nD τ).loc b))

/-- Input window 0's current staging buffer holds its block at every point, fetched there or not: an unfetched
    point's index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    point's index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    point's index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched
    point's index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`: the arrays as the region finds them; after the body at point `t` each
    input's buffer at its block and the output's at `out0`; the invariant the scoped rest and the generator register,
    untouched; nothing owed; the array that windows 0 and 1 both read held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]
theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]
theorem q0_3 (c : Dev nD) : (dat0 V c).q 3 = fullShare := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' memrefs hold their blocks, so the kernel's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 (F := F) c Set.univ (grid0.coords t) (ms0_0 t) (hs0_0 t) (ms0_1 t) (hs0_1 t) (ms0_2 t) (hs0_2 t) (ms0_3 t) (hs0_3 t) (ms0_4 t) (hs0_4 t)
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

/-! ## Pipeline 1 -/

section Region1
-- the TensorCore's buffer contents when the region is entered: a parameter, instantiated at the run
variable (V : (c : Dev nD) → (b : Ref sig .tc) → Buf (Elt F) ((c : Thread nD τ).loc b))

/-- Input window 0's current staging buffer holds its block at every point, fetched there or not: an unfetched
    point's index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched
    point's index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an unfetched
    point's index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: an unfetched
    point's index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`: the arrays as the region finds them; after the body at point `t` each
    input's buffer at its block and the output's at `out1`; the invariant the scoped rest and the generator register,
    untouched; nothing owed; the array that windows 0 and 1 both read held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' memrefs hold their blocks, so the kernel's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 (F := F) c Set.univ (grid1.coords t) (ms1_0 t) (hs1_0 t) (ms1_1 t) (hs1_1 t) (ms1_2 t) (hs1_2 t) (ms1_3 t) (hs1_3 t) (ms1_4 t) (hs1_4 t)
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

/-! ## Pipeline 2 -/

section Region2
-- the TensorCore's buffer contents when the region is entered: a parameter, instantiated at the run
variable (V : (c : Dev nD) → (b : Ref sig .tc) → Buf (Elt F) ((c : Thread nD τ).loc b))

/-- Input window 0's current staging buffer holds its block at every point, fetched there or not: an unfetched
    point's index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    point's index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    point's index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched
    point's index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The proof data of pipeline 2 on core `c`: the arrays as the region finds them; after the body at point `t` each
    input's buffer at its block and the output's at `out2`; the invariant the scoped rest and the generator register,
    untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ _ := Pipeline.ΦA spec2 c
  q w := match w with
    | ⟨0, _⟩ => fullShare
    | ⟨1, _⟩ => fullShare
    | ⟨2, _⟩ => fullShare
    | ⟨3, _⟩ => fullShare
    | ⟨4, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 V c t := by dsimp only [dat2]
theorem q2_0 (c : Dev nD) : (dat2 V c).q 0 = fullShare := by dsimp only [dat2]
theorem q2_1 (c : Dev nD) : (dat2 V c).q 1 = fullShare := by dsimp only [dat2]
theorem q2_2 (c : Dev nD) : (dat2 V c).q 2 = fullShare := by dsimp only [dat2]
theorem q2_3 (c : Dev nD) : (dat2 V c).q 3 = fullShare := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1000000 in
/-- The body at any point: the inputs' memrefs hold their blocks, so the kernel's run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 (F := F) c Set.univ (grid2.coords t) (ms2_0 t) (hs2_0 t) (ms2_1 t) (hs2_1 t) (ms2_2 t) (hs2_2 t) (ms2_3 t) (hs2_3 t) (ms2_4 t) (hs2_4 t)
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KIVals.lean ====
/-
  The buffer contents each of the three regions is entered with, read at the TensorCore's references: the valuations
  between @main's items.
-/
import proofs.«124713_j8907762171929_2_alg».proof.Proof.Gen.KernelIdeal.Regions

noncomputable section

namespace Cert.KernelIdeal.Hand

open Idealize.ShloMosaic Idealize.ShloMosaic.TcCoe
open Cert.KernelIdeal Cert.KernelIdeal.Gen

variable {F : FTy → Type} [FloatOps F]
variable (m : (ℓ : Loc nD τ sig) → Buf (Elt F) ℓ) (outs : Gen.Outs (F := F))

/-- What region 0 finds. -/
abbrev VV1 : (c : Dev nD) → (b : Ref sig .tc) → Buf (Elt F) ((c : Thread nD τ).loc b) := fun c b => Gen.V1 m c b
/-- What region 1 finds. -/
abbrev VV3 : (c : Dev nD) → (b : Ref sig .tc) → Buf (Elt F) ((c : Thread nD τ).loc b) := fun c b => Gen.V3 m outs c b
/-- What region 2 finds. -/
abbrev VV5 : (c : Dev nD) → (b : Ref sig .tc) → Buf (Elt F) ((c : Thread nD τ).loc b) := fun c b => Gen.V5 m outs c b

end Cert.KernelIdeal.Hand

end
-- ==== Proof.KIMain.lean ====
/-
  The kernel program's run, assembled.

  The three regions run one after another, each entered from what the items before it left.  So the contents they
  leave in their output arrays are fixed in stages: region 0's output is the fold of its write-backs over the contents
  after the first host stretch; region 1's entry contents read that output (and no later one), and its output is the
  fold of its write-backs over them; likewise region 2.  The valuations between the items read the unknowns at three
  points only — region K's output array after region K —, so a valuation taken at the final unknowns equals the one
  taken at the unknowns known so far.  With each pipeline's proof data at its region's entry contents, the regions'
  records and the program's run give: every weakly fair execution terminates, the result buffer at the last valuation's
  value and the arguments as launched.
-/
import proofs.«124713_j8907762171929_2_alg».proof.Proof.KIRegs
import proofs.«124713_j8907762171929_2_alg».proof.Proof.KIBody
import proofs.«124713_j8907762171929_2_alg».proof.Proof.KIVals

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents the regions leave -/

/-- The regions' unknowns from the three arrays' contents: each of the three output buffers at its given contents, any
    other buffer at its launch contents (never read). -/
def outsOf (o2 : (c : Dev nD) → Buf (Elt F) ((c : Thread nD τ).loc main_v10))
    (o4 : (c : Dev nD) → Buf (Elt F) ((c : Thread nD τ).loc main_v14))
    (o6 : (c : Dev nD) → Buf (Elt F) ((c : Thread nD τ).loc main_v18)) : Gen.Outs (F := F) :=
  fun _ r c =>
    if h : r = main_v10 then h ▸ o2 c
    else if h : r = main_v14 then h ▸ o4 c
    else if h : r = main_v18 then h ▸ o6 c
    else m ((c : Thread nD τ).loc r)

theorem outsOf_v10 (o2 o4 o6) (J : ℕ) (c : Dev nD) : outsOf m o2 o4 o6 J main_v10 c = o2 c := by
  unfold outsOf; rw [dif_pos rfl]
theorem outsOf_v14 (o2 o4 o6) (J : ℕ) (c : Dev nD) : outsOf m o2 o4 o6 J main_v14 c = o4 c := by
  unfold outsOf; rw [dif_neg (by decide), dif_pos rfl]
theorem outsOf_v18 (o2 o4 o6) (J : ℕ) (c : Dev nD) : outsOf m o2 o4 o6 J main_v18 c = o6 c := by
  unfold outsOf; rw [dif_neg (by decide), dif_neg (by decide), dif_pos rfl]

/-- What region 0 leaves in its output array: the write-backs of all its points folded over the entry contents. -/
def o2 (c : Dev nD) : Buf (Elt F) ((c : Thread nD τ).loc main_v10) := (dat0 (VV1 m) c).arrAt 4 cfg0.N
/-- The unknowns with region 0's output known. -/
def outsA : Gen.Outs (F := F) :=
  outsOf m (o2 m) (fun c => m ((c : Thread nD τ).loc main_v14)) (fun c => m ((c : Thread nD τ).loc main_v18))
/-- What region 1, entered from what region 0 left, leaves in its output array. -/
def o4 (c : Dev nD) : Buf (Elt F) ((c : Thread nD τ).loc main_v14) := (dat1 (VV3 m (outsA m)) c).arrAt 4 cfg1.N
/-- The unknowns with regions 0 and 1's outputs known. -/
def outsB : Gen.Outs (F := F) := outsOf m (o2 m) (o4 m) (fun c => m ((c : Thread nD τ).loc main_v18))
/-- What region 2, entered from what region 1 left, leaves in its output array. -/
def o6 (c : Dev nD) : Buf (Elt F) ((c : Thread nD τ).loc main_v18) := (dat2 (VV5 m (outsB m)) c).arrAt 4 cfg2.N
/-- The contents the three regions leave. -/
def outsC : Gen.Outs (F := F) := outsOf m (o2 m) (o4 m) (o6 m)

/-! ## The valuations read the unknowns at three points only -/

theorem V2_congr (outs outs' : Gen.Outs (F := F)) (c : Dev nD) (h2 : outs 2 main_v10 c = outs' 2 main_v10 c) :
    Gen.V2 m outs c = Gen.V2 m outs' c := by
  show Function.update _ _ _ = Function.update _ _ _
  rw [h2]
theorem V3_congr (outs outs' : Gen.Outs (F := F)) (c : Dev nD) (h2 : outs 2 main_v10 c = outs' 2 main_v10 c) :
    Gen.V3 m outs c = Gen.V3 m outs' c :=
  congrArg (StableHlo.after hostOps1) (V2_congr m outs outs' c h2)
theorem V4_congr (outs outs' : Gen.Outs (F := F)) (c : Dev nD) (h2 : outs 2 main_v10 c = outs' 2 main_v10 c)
    (h4 : outs 4 main_v14 c = outs' 4 main_v14 c) : Gen.V4 m outs c = Gen.V4 m outs' c := by
  show Function.update _ _ _ = Function.update _ _ _
  rw [V3_congr m outs outs' c h2, h4]
theorem V5_congr (outs outs' : Gen.Outs (F := F)) (c : Dev nD) (h2 : outs 2 main_v10 c = outs' 2 main_v10 c)
    (h4 : outs 4 main_v14 c = outs' 4 main_v14 c) : Gen.V5 m outs c = Gen.V5 m outs' c :=
  congrArg (StableHlo.after hostOps2) (V4_congr m outs outs' c h2 h4)

/-- Region 1's entry contents do not depend on what regions 1 and 2 leave. -/
theorem V3_CA (c : Dev nD) : Gen.V3 m (outsC m) c = Gen.V3 m (outsA m) c :=
  V3_congr m _ _ c ((outsOf_v10 m _ _ _ 2 c).trans (outsOf_v10 m _ _ _ 2 c).symm)
/-- Region 2's entry contents do not depend on what region 2 leaves. -/
theorem V5_CB (c : Dev nD) : Gen.V5 m (outsC m) c = Gen.V5 m (outsB m) c :=
  V5_congr m _ _ c ((outsOf_v10 m _ _ _ 2 c).trans (outsOf_v10 m _ _ _ 2 c).symm)
    ((outsOf_v14 m _ _ _ 4 c).trans (outsOf_v14 m _ _ _ 4 c).symm)

theorem VV3_AC : VV3 m (outsA m) = VV3 m (outsC m) := funext fun c => funext fun b => congrFun (V3_CA m c).symm _
theorem VV5_BC : VV5 m (outsB m) = VV5 m (outsC m) := funext fun c => funext fun b => congrFun (V5_CB m c).symm _

/-! ## What the unknowns are at the three points -/

theorem outsC_2 (c : Dev nD) : outsC m 2 main_v10 c = (dat0 (VV1 m) c).arrAt 4 cfg0.N := outsOf_v10 m _ _ _ 2 c
theorem outsC_4 (c : Dev nD) : outsC m 4 main_v14 c = (dat1 (VV3 m (outsA m)) c).arrAt 4 cfg1.N := outsOf_v14 m _ _ _ 4 c
theorem outsC_6 (c : Dev nD) : outsC m 6 main_v18 c = (dat2 (VV5 m (outsB m)) c).arrAt 4 cfg2.N := outsOf_v18 m _ _ _ 6 c

/-! ## The proof data family and the run -/

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (VV1 m) c
  | ⟨1, _⟩ => fun c => dat1 (VV3 m (outsA m)) c
  | ⟨2, _⟩ => fun c => dat2 (VV5 m (outsB m)) c

/-- THE KERNEL PROGRAM'S RUN: every weakly fair execution from memory `m` with zero counters terminates, the result
    buffer at the last valuation's value — the valuations taken at the contents the three regions leave — and both
    argument buffers as launched. -/
theorem main_run (ρ : Dev nD → PrngReg) :
    θ_run defs (onTc (τ := τ) (main (F := F))) ⟨m, fun _ => 0, ρ⟩ (fun r => ∀ c : Dev nD,
      r.2.mem ((c.tc : Thread nD τ).loc main_v27) = Gen.V7 m (outsC m) c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_all m (outsC m) (pdats m) ρ
    (fun c => q0_0 (VV1 m) c) (fun c => q0_1 (VV1 m) c) (fun c => q0_2 (VV1 m) c) (fun c => q0_3 (VV1 m) c)
    (fun _ _ => rfl) (fun _ _ => rfl) (fun _ => rfl)
    (fun c w => A_eq0 (VV1 m) c w)
    (fun c => (outsC_2 m c).symm)
    (fun c => body_obligation0 (VV1 m) c)
    (fun c => q1_0 (VV3 m (outsA m)) c) (fun c => q1_1 (VV3 m (outsA m)) c) (fun c => q1_2 (VV3 m (outsA m)) c) (fun c => q1_3 (VV3 m (outsA m)) c)
    (fun _ _ => rfl) (fun _ _ => rfl) (fun _ => rfl)
    (fun c w => (A_eq1 (VV3 m (outsA m)) c w).trans (congrFun (V3_CA m c).symm _))
    (fun c => (outsC_4 m c).symm)
    (fun c => body_obligation1 (VV3 m (outsA m)) c)
    (fun c => q2_0 (VV5 m (outsB m)) c) (fun c => q2_1 (VV5 m (outsB m)) c) (fun c => q2_2 (VV5 m (outsB m)) c) (fun c => q2_3 (VV5 m (outsB m)) c)
    (fun _ _ => rfl) (fun _ _ => rfl) (fun _ => rfl)
    (fun c w => (A_eq2 (VV5 m (outsB m)) c w).trans (congrFun (V5_CB m c).symm _))
    (fun c => (outsC_6 m c).symm)
    (fun c => body_obligation2 (VV5 m (outsB m)) c)

end Cert.KernelIdeal.Hand

end
-- ==== Proof.Spec.lean ====
/-
  The two sides of the claim as functions of the two argument arrays, over the extended reals.

  For arrays x, y of 8192 rows of 512 entries: the squared length of a row, the inner product of two rows, and
  the squared distance |x_R|² + |y_C|² − 2·⟨x_R, y_C⟩ between row R of x and row C of y.  The kernel's
  Gaussian entry is exp(dist · (−1/2)), replaced by 1 on the diagonal when the two arrays are the same array
  (the entry's exact value there, since the distance of a row to itself is 0); it is summed tile by tile:
  512×512 tiles, sixteen tiles per band of 512 rows, sixteen bands.  The reference's entry is exp((−dist)/2),
  summed over all 8192×8192 pairs.  Both combine the three sums as xx/2²⁶ + yy/2²⁶ − 2·xy/2²⁶, the kernel
  doubling before the division and the reference after it.  The float words are kept as words here; only the
  law between the two sides evaluates them.
-/
import Idealize.ShloMosaic.PureOps.Ideal
import Idealize.ShloMosaic.Lib.ValueIdx

noncomputable section

namespace Cert.MMD

open Idealize.ShloMosaic Idealize.ShloMosaic.ValueIdx

/-- An argument array: 8192 rows of 512 extended reals. -/
abbrev Arr : Type := (⟨2, ![8192, 512]⟩ : Shape).Idx → EReal

abbrev wZero : EReal := Ideal.ofBits .f32 0x00000000#32
abbrev wOne : EReal := Ideal.ofBits .f32 0x3F800000#32
abbrev wTwo : EReal := Ideal.ofBits .f32 0x40000000#32
abbrev wNegHalf : EReal := Ideal.ofBits .f32 0xBF000000#32
/-- 2²⁶ = 8192 · 8192, the number of pairs. -/
abbrev wCount : EReal := Ideal.ofBits .f32 0x4C800000#32

/-- The squared length of row `R`. -/
def rowSq (a : Arr) (R : Fin 8192) : EReal := ∑ d : Fin 512, a (ix2 R d) * a (ix2 R d)

/-- The inner product of row `R` of `x` and row `C` of `y`. -/
def gram (x y : Arr) (R C : Fin 8192) : EReal := ∑ d : Fin 512, x (ix2 R d) * y (ix2 C d)

/-- The squared distance between row `R` of `x` and row `C` of `y`. -/
def dist (x y : Arr) (R C : Fin 8192) : EReal := (rowSq x R + rowSq y C) - wTwo * gram x y R C

/-- The kernel's entry at `(R, C)`: 1 on the diagonal of a masked (self-similarity) sum, else exp(dist · (−1/2)). -/
def kEntry (mask : Bool) (x y : Arr) (R C : Fin 8192) : EReal :=
  if mask = true ∧ R = C then wOne else Ideal.exp (dist x y R C * wNegHalf)

/-- Row `r` of band `t`, and column `c` of tile `k`, as rows of the whole array. -/
def bandRow (t : Fin 16) (r : Fin 512) : Fin 8192 := ⟨512 * t.val + r.val, by omega⟩

/-- Tile `(t, k)`: the 512×512 entries of band `t` against column tile `k`, each row summed first. -/
def kTile (mask : Bool) (x y : Arr) (t k : Fin 16) : EReal :=
  ∑ r : Fin 512, ∑ c : Fin 512, kEntry mask x y (bandRow t r) (bandRow k c)

/-- Band `t`: its sixteen tiles. -/
def kBand (mask : Bool) (x y : Arr) (t : Fin 16) : EReal := ∑ k : Fin 16, kTile mask x y t k

/-- One Gaussian-kernel matrix summed the kernel's way: its sixteen bands. -/
def kSum (mask : Bool) (x y : Arr) : EReal := ∑ t : Fin 16, kBand mask x y t

/-- Every entry of the array is a real number (neither infinity). -/
def AllReal (a : Arr) : Prop := ∀ i, ∃ r : ℝ, a i = (r : EReal)

/-- What the kernel's program returns. -/
def kernelSpec (a0 a1 : Arr) : EReal :=
  (Ideal.div (kSum true a0 a0) wCount + Ideal.div (kSum true a1 a1) wCount) - Ideal.div (wTwo * kSum false a0 a1) wCount

/-- The reference's entry at `(R, C)`. -/
def rEntry (x y : Arr) (R C : Fin 8192) : EReal := Ideal.exp (Ideal.div (-(dist x y R C)) wTwo)

/-- One Gaussian-kernel matrix summed the reference's way: all pairs. -/
def rSum (x y : Arr) : EReal := ∑ R : Fin 8192, ∑ C : Fin 8192, rEntry x y R C

/-- What the reference returns. -/
def refSpec (a0 a1 : Arr) : EReal :=
  (Ideal.div (rSum a0 a0) wCount + Ideal.div (rSum a1 a1) wCount) - wTwo * Ideal.div (rSum a0 a1) wCount

end Cert.MMD

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowWeights.lean ====
/-
  A linear layer whose weights are kept one ROW per output, and a linear layer masked by a 0/1 factor.

  A layer's weights `w` have shape [N, K]: one row of K coefficients per output.  The layer applied to the rows
  of `x` ([M, K]) is the product `x · wᵀ`, whose (r, j) entry is the sum over k of `x (r, k) · w (j, k)`.
  Two machines compute that entry:

  * a matrix unit's product into a zero accumulator that contracts BOTH operands along their last axis
    (`matmul_rowWeights_apply`), and
  * a general dot product of `x` with the transposed array `wᵀ`, contracting the left operand's last axis
    with the right operand's first (that side is read by the reference's own generated lemmas; here only the
    name `tr w` for the transposed array).

  The second half is the one algebraic law about a factor that is 0 or 1 (`sum_mul_bit`): multiplying every
  term's left factor by it before a sum of products is multiplying the sum by it — for 1 nothing changes, for
  0 both sides are 0, because on the extended reals 0 times anything, infinities included, is 0.  No finiteness
  is needed.  `uitofp_bit`: a one-bit integer converted to a float is such a factor.
-/
import proofs.«124713_j8907762171929_2_alg».proof.Proof.LibRowsTimes

noncomputable section

namespace Cert.RowWeights

open Idealize.ShloMosaic Idealize.ShloMosaic.ValueIdx Cert.Dense

/-- The [K, N] array whose (k, j) entry is `w (j, k)`: weights kept one row per output, read as the right
    factor of a product. -/
def tr {N K : Nat} (w : (⟨2, ![N, K]⟩ : Shape).Idx → EReal) : (⟨2, ![K, N]⟩ : Shape).Idx → EReal :=
  fun i => w (ix2 (i 1 : Fin N) (i 0 : Fin K))

/-- Its (k, j) entry, spelt out. -/
theorem tr_apply {N K : Nat} (w : (⟨2, ![N, K]⟩ : Shape).Idx → EReal) (k : Fin K) (j : Fin N) :
    tr w (ix2 k j) = w (ix2 j k) := rfl

/-- The operand indices of a contraction of an [M, K] array with an [N, K] array along both last axes, at the
    output index `i` and contraction index `q`: (i 0, q) on the left and (i 1, q) on the right. -/
theorem rowWeights_idx {M K N : Nat} (d : DotDims ⟨2, ![M, K]⟩ ⟨2, ![N, K]⟩ ⟨2, ![M, N]⟩)
    (wf : DotDims.WF ⟨2, ![M, K]⟩ ⟨2, ![N, K]⟩ ⟨2, ![M, N]⟩ [1] [1] [0] [0] [] [])
    (hd : d = ⟨[1], [1], [0], [0], [], [], wf⟩) (i : (⟨2, ![M, N]⟩ : Shape).Idx) (q : d.contr.Idx) :
    (d.lhsIdx i q 0).val = (i 0).val ∧ (d.lhsIdx i q 1).val = (q ⟨0, by subst hd; exact Nat.one_pos⟩).val
      ∧ (d.rhsIdx i q 0).val = (i 1).val ∧ (d.rhsIdx i q 1).val = (q ⟨0, by subst hd; exact Nat.one_pos⟩).val := by
  subst hd
  refine ⟨?_, DotDims.lhsIdx_val_of_single _ rfl i q, ?_, DotDims.rhsIdx_val_of_single _ rfl i q⟩
  · unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  · unfold DotDims.rhsIdx
    rw [dif_neg (show ¬ (0 : Fin 2) ∈ ([] : List (Fin 2)) from List.not_mem_nil),
      dif_pos (show (0 : Fin 2) ∈ ([0] : List (Fin 2)) from List.mem_singleton.mpr rfl)]
    rfl

/-- A matrix unit's product of `x` ([M, K]) and `w` ([N, K]) into the zero accumulator, both contracted along
    their last axis, read at (p, q) on the extended reals: the (p, q) entry of `x · wᵀ`. -/
theorem matmul_rowWeights_apply {M K N : Nat} {φ₁ φ₂ : FTy} (d : DotDims ⟨2, ![M, K]⟩ ⟨2, ![N, K]⟩ ⟨2, ![M, N]⟩)
    (wf : DotDims.WF ⟨2, ![M, K]⟩ ⟨2, ![N, K]⟩ ⟨2, ![M, N]⟩ [1] [1] [0] [0] [] [])
    (hd : d = ⟨[1], [1], [0], [0], [], [], wf⟩) (prec : Option ContractPrecision)
    (x : FVec Ideal ⟨2, ![M, K]⟩ φ₁) (w : FVec Ideal ⟨2, ![N, K]⟩ φ₂) (p : Fin M) (q : Fin N) :
    FloatOps.matmul d prec x w (constant (F := Ideal) ⟨2, ![M, N]⟩ .f32 0x00000000#32) (ix2 p q)
      = rowsTimes x (tr w) (ix2 p q) := by
  have hr : d.contr.rank = 1 := by subst hd; rfl
  have hs : d.contr.size ⟨0, by omega⟩ = K := by subst hd; rfl
  refine (Ideal.matmul_constant_zero_apply d prec x w (ix2 p q)).trans
    (contraction_eq d hr hs x (tr w) x w (ix2 p q) (ix2 p q) (fun k => ?_) (fun k => ?_))
  · obtain ⟨e0, e1, -, -⟩ := rowWeights_idx d wf hd (ix2 p q) ((contrEquiv1 d K hr hs).symm k)
    have hk := contrEquiv1_symm_val d K hr hs k
    refine congrArg x (funext fun a => Fin.ext ?_)
    match a with
    | ⟨0, _⟩ => exact e0
    | ⟨1, _⟩ => exact e1.trans hk
  · obtain ⟨-, -, e2, e3⟩ := rowWeights_idx d wf hd (ix2 p q) ((contrEquiv1 d K hr hs).symm k)
    have hk := contrEquiv1_symm_val d K hr hs k
    refine congrArg w (funext fun a => Fin.ext ?_)
    match a with
    | ⟨0, _⟩ => exact e2
    | ⟨1, _⟩ => exact e3.trans hk

/-- A factor that is 0 or 1, applied to every term's left factor before a sum of products, is the same factor
    applied to the sum. -/
theorem sum_mul_bit {ι : Type} [Fintype ι] (h w : ι → EReal) (μ : EReal) (hμ : μ = 0 ∨ μ = 1) :
    ∑ k, (h k * μ) * w k = (∑ k, h k * w k) * μ := by
  rcases hμ with rfl | rfl
  · simp only [mul_zero, zero_mul, Finset.sum_const_zero]
  · simp only [mul_one]

/-- A one-bit integer converted to a float is 0 or 1. -/
theorem uitofp_bit (φ : FTy) (b : BitVec 1) :
    FloatOps.uitofp (F := Ideal) φ b = 0 ∨ FloatOps.uitofp (F := Ideal) φ b = 1 := by
  show (((b.toNat : ℝ) : EReal)) = 0 ∨ (((b.toNat : ℝ) : EReal)) = 1
  rcases BitVec.eq_zero_or_eq_one b with h | h <;> subst h
  · left; simp
  · right; simp

end Cert.RowWeights

end
-- ==== Proof.TileLemmas.lean ====
/-
  One 512×512 tile of a Gaussian-kernel matrix, read entry by entry on the extended reals.

  A tile pairs 512 rows of one array (the tile's rows) with 512 rows of another (the tile's columns).  Its
  (r, c) entry is exp(d · (−1/2)) with d = (|x_r|² + |y_c|²) − 2·⟨x_r, y_c⟩: the two squared lengths arrive
  as a column [512, 1] repeated along the columns and as a row [1, 512] repeated down the rows, the inner
  products as the product x · yᵀ of the two blocks contracted along their last axes.  On the tiles of the
  diagonal of a self-similarity matrix the entries whose global row number equals their global column
  number are replaced by 1; the two numbers are 32-bit words 512·t + r and 512·k + c with t, k < 16 and
  r, c < 512, all far below 2³², so the words are equal exactly when the numbers are.  The tile is then
  summed: each row over its 512 columns, then the 512 row sums.
-/
import Idealize.ShloMosaic.Lib.ValueIdx
import Idealize.ShloMosaic.Lib.ValueLayout
import Idealize.ShloMosaic.Lib.Pipeline.Value
import Idealize.ShloMosaic.Lib.Scf
import Idealize.ShloMosaic.PureOps.Ideal.Laws
import proofs.«124713_j8907762171929_2_alg».proof.Proof.LibColumnLayout
import proofs.«124713_j8907762171929_2_alg».proof.Proof.LibRowWeights
import proofs.«124713_j8907762171929_2_alg».proof.Proof.Spec

noncomputable section

namespace Cert.MMD.Tile

open Idealize.ShloMosaic Idealize.ShloMosaic.ValueIdx Idealize.ShloMosaic.ColumnLayout Cert.MMD

/-- The tile, a column of 512 numbers, a row of 512 numbers, a vector of 512, and the one-entry shapes. -/
abbrev T : Shape := ⟨2, ![512, 512]⟩
abbrev Col : Shape := ⟨2, ![512, 1]⟩
abbrev Row : Shape := ⟨2, ![1, 512]⟩
abbrev V512 : Shape := ⟨1, ![512]⟩
abbrev V1 : Shape := ⟨1, ![1]⟩
abbrev U11 : Shape := ⟨2, ![1, 1]⟩

/-! ## The diagonal mask -/

/-- The global row number 512·a + r and the global column number 512·b + c as 32-bit words: with a, b < 16
    and r, c < 512 neither wraps around, so the words are equal exactly when the numbers are. -/
theorem word_eq_iff (a b r c : Nat) (ha : a < 16) (hb : b < 16) (hr : r < 512) (hc : c < 512) :
    IntOp.addi (Scalar.muli (BitVec.ofNat 32 a) 512#32) (BitVec.ofNat 32 r)
      = IntOp.addi (Scalar.muli (Scf.iv 0#32 1#32 b) 512#32) (BitVec.ofNat 32 c)
    ↔ 512 * a + r = 512 * b + c := by
  unfold IntOp.addi Scalar.muli IntOp.muli Scf.iv
  rw [← BitVec.toNat_inj]
  simp only [BitVec.toNat_add, BitVec.toNat_mul, BitVec.toNat_ofNat]
  omega

/-- The one-bit word of a comparison for equality is 1 exactly when the two words are equal. -/
theorem ofBool_beq_eq_one {w : Nat} (x y : BitVec w) : BitVec.ofBool (x == y) = (1 : BitVec 1) ↔ x = y := by
  by_cases h : x = y
  · subst h
    simp
  · have hb : (x == y) = false := by simpa using h
    rw [hb]
    exact ⟨fun h1 => absurd h1 (by decide), fun h1 => absurd h1 h⟩

/-- A select on the comparison of those two words is the `if` on the two numbers. -/
theorem select_diag {α : Type} (a b r c : Nat) (ha : a < 16) (hb : b < 16) (hr : r < 512) (hc : c < 512) (X Y : α) :
    Scalar.select (IntOp.cmpi .eq (IntOp.addi (Scalar.muli (BitVec.ofNat 32 a) 512#32) (BitVec.ofNat 32 r))
        (IntOp.addi (Scalar.muli (Scf.iv 0#32 1#32 b) 512#32) (BitVec.ofNat 32 c))) X Y
      = if 512 * a + r = 512 * b + c then X else Y := by
  show (if BitVec.ofBool (IntOp.addi (Scalar.muli (BitVec.ofNat 32 a) 512#32) (BitVec.ofNat 32 r)
      == IntOp.addi (Scalar.muli (Scf.iv 0#32 1#32 b) 512#32) (BitVec.ofNat 32 c)) = (1 : BitVec 1) then X else Y) = _
  by_cases h : 512 * a + r = 512 * b + c
  · rw [if_pos h, if_pos ((ofBool_beq_eq_one _ _).mpr ((word_eq_iff a b r c ha hb hr hc).mpr h))]
  · rw [if_neg h, if_neg (mt (ofBool_beq_eq_one _ _).mp (mt (word_eq_iff a b r c ha hb hr hc).mp h))]

/-- The mask of a tile read at (r, c): the row coordinate offset by 512·a against the column coordinate offset
    by 512·b, the first operand chosen on equality. -/
theorem mask_apply {α : Type} (a b : Nat) (ha : a < 16) (hb : b < 16) (h0 : T.Iotas .tc 32 [0]) (h1 : T.Iotas .tc 32 [1])
    (X Y : T.Idx → α) (r c : Fin 512) :
    select (cmpi .eq (addi (broadcast T (Scalar.muli (BitVec.ofNat 32 a) 512#32)) (iota .tc T 32 [0] h0))
        (addi (broadcast T (Scalar.muli (Scf.iv 0#32 1#32 b) 512#32)) (iota .tc T 32 [1] h1))) X Y (ix2 r c)
      = if 512 * a + r.val = 512 * b + c.val then X (ix2 r c) else Y (ix2 r c) := by
  show Scalar.select (IntOp.cmpi .eq (IntOp.addi _ (iota .tc T 32 [0] h0 (ix2 r c)))
      (IntOp.addi _ (iota .tc T 32 [1] h1 (ix2 r c)))) _ _ = _
  rw [iota_single_apply, iota_single_apply]
  exact select_diag a b r.val c.val ha hb r.isLt c.isLt _ _

/-! ## The entry off the diagonal -/

/-- exp(((|x_r|² + |y_c|²) − 2·⟨x_r, y_c⟩) · (−1/2)) as the operations produce it, read at (r, c). -/
theorem entry_apply (x y : FVec Ideal T .bf16) (xn : FVec Ideal Col .f32) (yn : FVec Ideal Row .f32)
    (hT : T.ShapeCasts T) (hCol : Col.ShapeCasts Col) (hRow : Row.ShapeCasts Row)
    (hbc : Col.Broadcasts T) (hbr : Row.Broadcasts T)
    (d : DotDims T T T) (wf : DotDims.WF T T T [1] [1] [0] [0] [] []) (hd : d = ⟨[1], [1], [0], [0], [], [], wf⟩)
    (r c : Fin 512) :
    exp (mulf (subf (addf (broadcastTo T (shapeCast Col (shapeCast Col xn hCol) hCol) hbc)
              (broadcastTo T (shapeCast Row yn hRow) hbr))
            (mulf (broadcast T (Scalar.ofBits (F := Ideal) .f32 0x40000000#32))
              (matmul d none (shapeCast T x hT) (shapeCast T y hT) (constant (F := Ideal) T .f32 0x00000000#32))))
          (broadcast T (Scalar.ofBits (F := Ideal) .f32 0xBF000000#32))) (ix2 r c)
      = Ideal.exp (((xn (ix2 r 0) + yn (ix2 0 c)) - wTwo * ∑ k : Fin 512, x (ix2 r k) * y (ix2 c k)) * wNegHalf) := by
  rw [shapeCast_self, shapeCast_self, shapeCast_self, shapeCast_self, shapeCast_self]
  show Ideal.exp (((broadcastTo T xn hbc (ix2 r c) + broadcastTo T yn hbr (ix2 r c))
      - wTwo * FloatOps.matmul d none x y (constant (F := Ideal) T .f32 0x00000000#32) (ix2 r c)) * wNegHalf) = _
  rw [broadcastTo_a1_ab_apply, broadcastTo_1b_ab_apply, Cert.RowWeights.matmul_rowWeights_apply d wf hd]
  rfl

/-! ## The tile's sum -/

/-- A [512, 512] array summed along each row, the row sums kept as a column, the column summed, the one number
    kept as a [1, 1] array: the double sum over rows and columns. -/
theorem tile_total (src : FVec Ideal T .f32) (h1 : T.Reduces [1] V512) (hφ1 : FKind.Formats .f32)
    (hacc1 : (0x00000000#32 : BitVec 32) = FKind.add.neutral .f32 hφ1) (hc1 : V512.ShapeCasts Col)
    (h2 : Col.Reduces [0] V1) (hφ2 : FKind.Formats .f32)
    (hacc2 : (0x00000000#32 : BitVec 32) = FKind.add.neutral .f32 hφ2) (hc2 : V1.ShapeCasts U11) (p q : Fin 1) :
    shapeCast U11 (multiReduction .add [0] V1
        (shapeCast Col (multiReduction .add [1] V512 src 0x00000000#32 h1 hφ1 hacc1) hc1)
        0x00000000#32 h2 hφ2 hacc2) hc2 (ix2 p q)
      = ∑ r : Fin 512, ∑ c : Fin 512, src (ix2 r c) := by
  refine (shapeCast_a_a1_apply _ hc2 p q).trans ?_
  refine (Ideal.multiReduction_add_single _ _ h2 hφ2 hacc2 (ix1 p)).trans ?_
  show ∑ r : Fin 512, shapeCast Col _ hc1 (h2.lift (ix1 p) r) = _
  refine Finset.sum_congr rfl fun r _ => ?_
  have e : h2.lift (ix1 p) r = ix2 r p := funext fun a => Fin.ext (by
    match a with
    | ⟨0, _⟩ => rfl
    | ⟨1, _⟩ => rfl)
  rw [e]
  refine (shapeCast_a_a1_apply _ hc1 r p).trans ?_
  refine (Ideal.multiReduction_add_single _ _ h1 hφ1 hacc1 (ix1 r)).trans ?_
  show ∑ c : Fin 512, src (h1.lift (ix1 r) c) = _
  refine Finset.sum_congr rfl fun c _ => ?_
  exact congrArg src (funext fun a => Fin.ext (by
    match a with
    | ⟨0, _⟩ => rfl
    | ⟨1, _⟩ => rfl))

end Cert.MMD.Tile

end
-- ==== Proof.TileValue.lean ====
/-
  What one trip of each kernel function's loop computes, read on the extended reals as plain sums.

  Each of the three kernel functions keeps a running sum in a [1, 1] array.  It starts at zero; a trip adds one
  512×512 tile of a Gaussian-kernel matrix — the tile's rows are the 512 rows of the band the grid point holds,
  its columns the 512 rows of the other array the trip reads —, every entry exp(((|x_r|² + |y_c|²) − 2·⟨x_r, y_c⟩)·(−1/2)),
  and in the two self-similarity functions the entries on the matrix's diagonal replaced by 1; after the last trip
  the one number is repeated along 128 lanes and stored.  The tile's entries and its sum are read in the module of
  tile lemmas; here they are instantiated at the three functions' operations.
-/
import proofs.«124713_j8907762171929_2_alg».proof.Proof.Gen.KernelIdeal.Skeleton
import proofs.«124713_j8907762171929_2_alg».proof.Proof.Spec
import proofs.«124713_j8907762171929_2_alg».proof.Proof.TileLemmas
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.MMD Cert.KernelIdeal

/-- A [1, 1] array given a leading unit axis and repeated along 128 lanes reads its one entry everywhere. -/
theorem lanes_apply (v : FVec Ideal S1x1 .f32) (hc : S1x1.ShapeCasts S1x1x1) (hb : S1x1x1.Broadcasts S1x1x128)
    (j : S1x1x128.Idx) : broadcastTo S1x1x128 (shapeCast S1x1x1 v hc) hb j = v (ix2 0 0) := by
  refine (broadcastTo_apply _ hb j (ix3 (0 : Fin 1) (0 : Fin 1) (0 : Fin 1)) fun a => ?_).trans
    (shapeCast_ab_1ab_apply v hc 0 0 0)
  match a with
  | ⟨0, _⟩ => rfl
  | ⟨1, _⟩ => rfl
  | ⟨2, _⟩ => rfl

/-! ## Kernel function 0 -/

/-- The running sum starts at the zero word. -/
theorem pay1_0 (j : S1x1.Idx) : Gen.k0_pay1 (F := Ideal) j = wZero := rfl

/-- One trip: the running sum plus the tile of band `i 0` against column tile `k`, each entry 1 where the global
    row and column numbers agree and the Gaussian of the squared distance elsewhere. -/
theorem pay2_0 (i : grid0.Coords) (v0 : Vec Ideal S512x512 .bf16) (v2 : Vec Ideal S512x1 .f32) (k : Fin k0_t1_loop.trips)
    (acc : FVec Ideal S1x1 .f32) (v15 : Vec Ideal S512x512 .bf16) (v18 : Vec Ideal S1x512 .f32) (j : S1x1.Idx) :
    Gen.k0_pay2 i v0 v2 k acc v15 v18 j = acc j + ∑ r : Fin 512, ∑ c : Fin 512,
      (if 512 * (i 0).val + r.val = 512 * k.val + c.val then wOne
       else Ideal.exp (((v2 (ix2 r 0) + v18 (ix2 0 c)) - wTwo * ∑ d : Fin 512, v0 (ix2 r d) * v15 (ix2 c d)) * wNegHalf)) := by
  obtain ⟨p, q, rfl⟩ : ∃ (p q : Fin 1), j = ix2 p q := ⟨j 0, j 1, eq_ix2 j⟩
  have hi : (i 0).val < 16 := (i 0).isLt
  have hk : k.val < 16 := lt_of_lt_of_le k.isLt Gen.k0_t1_abs.2.1
  unfold Gen.k0_pay2
  dsimp only
  refine congrArg (acc (ix2 p q) + ·) ?_
  refine (Tile.tile_total _ _ _ _ _ _ _ _ _ p q).trans ?_
  refine Finset.sum_congr rfl fun r _ => Finset.sum_congr rfl fun c _ => ?_
  refine (Tile.mask_apply (i 0).val k.val hi hk _ _ _ _ r c).trans ?_
  refine if_congr Iff.rfl rfl ?_
  exact Tile.entry_apply v0 v15 v2 v18 _ _ _ _ _ _ Gen.dot_S512x512_S512x512_S512x512_1_1_0_0_n_n_wf rfl r c

/-- What is stored after the last trip: the running sum's one entry, repeated along the 128 lanes. -/
theorem pay3_0 (v8 : FVec Ideal S1x1 .f32) (j : S1x1x128.Idx) : Gen.k0_pay3 v8 j = v8 (ix2 0 0) := by
  unfold Gen.k0_pay3
  exact lanes_apply v8 _ _ j

/-! ## Kernel function 1 -/

/-- The running sum starts at the zero word. -/
theorem pay1_1 (j : S1x1.Idx) : Gen.k1_pay1 (F := Ideal) j = wZero := rfl

/-- One trip: the running sum plus the tile of band `i 0` against column tile `k`, each entry 1 where the global
    row and column numbers agree and the Gaussian of the squared distance elsewhere. -/
theorem pay2_1 (i : grid1.Coords) (v0 : Vec Ideal S512x512 .bf16) (v2 : Vec Ideal S512x1 .f32) (k : Fin k1_t1_loop.trips)
    (acc : FVec Ideal S1x1 .f32) (v15 : Vec Ideal S512x512 .bf16) (v18 : Vec Ideal S1x512 .f32) (j : S1x1.Idx) :
    Gen.k1_pay2 i v0 v2 k acc v15 v18 j = acc j + ∑ r : Fin 512, ∑ c : Fin 512,
      (if 512 * (i 0).val + r.val = 512 * k.val + c.val then wOne
       else Ideal.exp (((v2 (ix2 r 0) + v18 (ix2 0 c)) - wTwo * ∑ d : Fin 512, v0 (ix2 r d) * v15 (ix2 c d)) * wNegHalf)) := by
  obtain ⟨p, q, rfl⟩ : ∃ (p q : Fin 1), j = ix2 p q := ⟨j 0, j 1, eq_ix2 j⟩
  have hi : (i 0).val < 16 := (i 0).isLt
  have hk : k.val < 16 := lt_of_lt_of_le k.isLt Gen.k1_t1_abs.2.1
  unfold Gen.k1_pay2
  dsimp only
  refine congrArg (acc (ix2 p q) + ·) ?_
  refine (Tile.tile_total _ _ _ _ _ _ _ _ _ p q).trans ?_
  refine Finset.sum_congr rfl fun r _ => Finset.sum_congr rfl fun c _ => ?_
  refine (Tile.mask_apply (i 0).val k.val hi hk _ _ _ _ r c).trans ?_
  refine if_congr Iff.rfl rfl ?_
  exact Tile.entry_apply v0 v15 v2 v18 _ _ _ _ _ _ Gen.dot_S512x512_S512x512_S512x512_1_1_0_0_n_n_wf rfl r c

/-- What is stored after the last trip: the running sum's one entry, repeated along the 128 lanes. -/
theorem pay3_1 (v8 : FVec Ideal S1x1 .f32) (j : S1x1x128.Idx) : Gen.k1_pay3 v8 j = v8 (ix2 0 0) := by
  unfold Gen.k1_pay3
  exact lanes_apply v8 _ _ j

/-! ## Kernel function 2 -/

/-- The running sum starts at the zero word. -/
theorem pay1_2 (j : S1x1.Idx) : Gen.k2_pay1 (F := Ideal) j = wZero := rfl

/-- One trip: the running sum plus the tile's 512×512 Gaussians of the squared distances (no diagonal here: the two
    arrays differ). -/
theorem pay2_2 (v0 : Vec Ideal S512x512 .bf16) (v2 : Vec Ideal S512x1 .f32)
    (acc : FVec Ideal S1x1 .f32) (v15 : Vec Ideal S512x512 .bf16) (v18 : Vec Ideal S1x512 .f32) (j : S1x1.Idx) :
    Gen.k2_pay2 v0 v2 acc v15 v18 j = acc j + ∑ r : Fin 512, ∑ c : Fin 512,
      Ideal.exp (((v2 (ix2 r 0) + v18 (ix2 0 c)) - wTwo * ∑ d : Fin 512, v0 (ix2 r d) * v15 (ix2 c d)) * wNegHalf) := by
  obtain ⟨p, q, rfl⟩ : ∃ (p q : Fin 1), j = ix2 p q := ⟨j 0, j 1, eq_ix2 j⟩
  unfold Gen.k2_pay2
  dsimp only
  refine congrArg (acc (ix2 p q) + ·) ?_
  refine (Tile.tile_total _ _ _ _ _ _ _ _ _ p q).trans ?_
  refine Finset.sum_congr rfl fun r _ => Finset.sum_congr rfl fun c _ => ?_
  exact Tile.entry_apply v0 v15 v2 v18 _ _ _ _ _ _ Gen.dot_S512x512_S512x512_S512x512_1_1_0_0_n_n_wf rfl r c

/-- What is stored after the last trip: the running sum's one entry, repeated along the 128 lanes. -/
theorem pay3_2 (v8 : FVec Ideal S1x1 .f32) (j : S1x1x128.Idx) : Gen.k2_pay3 v8 j = v8 (ix2 0 0) := by
  unfold Gen.k2_pay3
  exact lanes_apply v8 _ _ j

end Cert.KernelIdeal.Hand

end
-- ==== Proof.KILoopRead.lean ====
/-
  What a load reads through a whole buffer held at contents that read a given array: at a unit-stride rectangle,
  the array at the rectangle's offset plus the local index.
-/
import Idealize.ShloMosaic.Lib.Pipeline.Frame
import Idealize.ShloMosaic.Lib.WholeRead
import Idealize.ShloMosaic.Lib.ValueIdx

namespace Cert.KernelIdeal.Hand

open Idealize.ShloMosaic Idealize.ShloMosaic.ValueIdx

/-- A rank-2 load at offsets (o0, o1) through a whole buffer whose contents read `X` reads, at local index (a, b),
    the entry of `X` at (o0 + a, o1 + b). -/
theorem readAt_unit_unread2 {sig : RefSig} {Val : EltTy → Type} {κ : Kind} {sp : Space} {e : EltTy} {n0 n1 m0 m1 : ℕ}
    (m : Memref sig κ sp ⟨2, ![n0, n1]⟩ e) (h : m.IsWhole) (X : (⟨2, ![n0, n1]⟩ : Shape).Idx → Val e)
    (off : Fin 2 → ℕ) (inb : ∀ a, off a + (![m0, m1] : Fin 2 → ℕ) a ≤ (⟨2, ![n0, n1]⟩ : Shape).size a)
    (o0 o1 : ℕ) (ho : off = ![o0, o1]) (a : Fin m0) (b : Fin m1) (A : Fin n0) (B : Fin n1)
    (hA : A.val = o0 + a.val) (hB : B.val = o1 + b.val) :
    View.readAt Val m.view (Rect.unit (s := ⟨2, ![n0, n1]⟩) off ![m0, m1] inb).toLoadRect (h.unread X) (ix2 a b)
      = X (ix2 A B) := by
  subst ho
  refine (h.readAt_unread X (Rect.unit (s := ⟨2, ![n0, n1]⟩) ![o0, o1] ![m0, m1] inb).toLoadRect (ix2 a b)).trans
    (congrArg X ?_)
  funext t
  refine Fin.ext ?_
  match t with
  | ⟨0, _⟩ => show o0 + 1 * a.val = A.val; omega
  | ⟨1, _⟩ => show o1 + 1 * b.val = B.val; omega

end Cert.KernelIdeal.Hand
-- ==== Proof.KILoopValue.lean ====
/-
  What kernel function 0's sixteen-trip loop leaves in its running sum, on the extended reals, as one plain sum.

  A trip loads a 512-row slab of the other array and the matching 512 squared lengths, at row offset 512 · k, and
  adds one 512 × 512 tile to the running sum.  Through a whole buffer whose contents read an array, a load at a
  unit-stride rectangle reads the array at the rectangle's offset plus the local index.  So trip k adds the tile of
  the band's rows against the global columns 512 · k + c, and after all sixteen trips the running sum, which starts
  at zero, is the sum of the sixteen tiles.
-/
import proofs.«124713_j8907762171929_2_alg».proof.Proof.Gen.KernelIdeal.Loops
import proofs.«124713_j8907762171929_2_alg».proof.Proof.TileValue
import proofs.«124713_j8907762171929_2_alg».proof.Proof.Spec
import proofs.«124713_j8907762171929_2_alg».proof.Proof.KILoopRead
import Idealize.ShloMosaic.Lib.Pipeline.Frame

noncomputable section

namespace Cert.KernelIdeal.Hand

open Idealize.ShloMosaic Idealize.ShloMosaic.ValueIdx Idealize.ShloMosaic.TcCoe
open Idealize.SL Idealize.SL.Sem
open Cert.MMD Cert.KernelIdeal Cert.KernelIdeal.Gen

/-! ## Kernel function 0 -/

/-- Sixteen trips. -/
theorem trips_0 : k0_t1_loop.trips = 16 := by decide

unseal Cert.KernelIdeal.Gen.trip_k0_t1 in
/-- One trip's yield, as a function of the running sum: the trip's payload at the two loads. -/
theorem tripR0_eq {F : FTy → Type} [FloatOps F] (𝒱 : Variants) (c : Dev nD) (bd : Option 𝒱.V) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (v0 : Vec F S512x512 .bf16) (v2 : Vec F S512x1 .f32)
    (X_arg2 : BufTy.Contents (Elt F) arg2.view.ty) (X_arg4 : BufTy.Contents (Elt F) arg4.view.ty)
    (k : Fin k0_t1_loop.trips) (acc : FVec F S1x1 .f32) :
    Gen.tripR_k0_t1 (F := F) 𝒱 c bd i arg1 harg1 arg2 harg2 arg3 harg3 arg4 harg4 arg5 harg5 v0 v2 X_arg2 X_arg4 k acc
      = Gen.k0_pay2 i v0 v2 k acc
          (View.readAt (Elt F) arg2.view (Rect.unit (s := S8192x512) (k0_off1 k) S512x512.size (k0_off1_inb k)).toLoadRect X_arg2)
          (View.readAt (Elt F) arg4.view (Rect.unit (s := S1x8192) (k0_off2 k) S1x512.size (k0_off2_inb k)).toLoadRect X_arg4) :=
  rfl

/-- The tile trip `kv` adds: the band's 512 rows against the global columns 512 · kv + c, each entry 1 where the global row
    and column numbers agree and the Gaussian of the squared distance elsewhere. -/
def tile0 (i0 : ℕ) (X0 : Vec Ideal S512x512 .bf16) (Xn : Vec Ideal S512x1 .f32) (Y : Vec Ideal S8192x512 .bf16)
    (Yn : Vec Ideal S1x8192 .f32) (kv : ℕ) (hk : kv < 16) : EReal :=
  ∑ r : Fin 512, ∑ c' : Fin 512,
    (if 512 * i0 + r.val = 512 * kv + c'.val then wOne
     else Ideal.exp (((Xn (ix2 r 0) + Yn (ix2 0 ⟨512 * kv + c'.val, by omega⟩))
        - wTwo * ∑ d : Fin 512, X0 (ix2 r d) * Y (ix2 ⟨512 * kv + c'.val, by omega⟩ d)) * wNegHalf))

/-- One trip, the buffers held at contents that read the arrays: the running sum plus the trip's tile. -/
theorem trip0_tile (𝒱 : Variants) (c : Dev nD) (bd : Option 𝒱.V) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole)
    (X0 : Vec Ideal S512x512 .bf16) (Y : Vec Ideal S8192x512 .bf16) (Xn : Vec Ideal S512x1 .f32) (Yn : Vec Ideal S1x8192 .f32)
    (k : Fin k0_t1_loop.trips) (hk : k.val < 16) (acc : FVec Ideal S1x1 .f32) (j : S1x1.Idx) :
    Gen.tripR_k0_t1 (F := Ideal) 𝒱 c bd i arg1 harg1 arg2 harg2 arg3 harg3 arg4 harg4 arg5 harg5
        (View.readAt (Elt Ideal) arg1.view (Rect.unit (s := S512x512) ![0, 0] S512x512.size inb_S512x512_S512x512_0_0).toLoadRect (harg1.unread X0))
        (View.readAt (Elt Ideal) arg3.view (Rect.unit (s := S512x1) ![0, 0] S512x1.size inb_S512x1_S512x1_0_0).toLoadRect (harg3.unread Xn))
        (harg2.unread Y) (harg4.unread Yn) k acc j
      = acc j + tile0 (i 0).val X0 Xn Y Yn k.val hk := by
  refine (congrFun (tripR0_eq 𝒱 c bd i arg1 harg1 arg2 harg2 arg3 harg3 arg4 harg4 arg5 harg5 _ _ _ _ k acc) j).trans ?_
  refine (pay2_0 i _ _ k acc _ _ j).trans ?_
  refine congrArg (acc j + ·) ?_
  unfold tile0
  refine Finset.sum_congr rfl fun r _ => Finset.sum_congr rfl fun c' _ => ?_
  have hC : 512 * k.val + c'.val < 8192 := by omega
  have e2 := readAt_unit_unread2 arg3 harg3 Xn ![0, 0] inb_S512x1_S512x1_0_0 0 0 rfl r (0 : Fin 1) r (0 : Fin 1)
    (Nat.zero_add _).symm rfl
  have e18 := readAt_unit_unread2 arg4 harg4 Yn (k0_off2 k) (k0_off2_inb k) 0 (512 * k.val) (k0_off2_eq k)
    (0 : Fin 1) c' (0 : Fin 1) ⟨512 * k.val + c'.val, hC⟩ rfl rfl
  have eS : ∀ d : Fin 512, _ = X0 (ix2 r d) * Y (ix2 ⟨512 * k.val + c'.val, hC⟩ d) := fun d => congrArg₂ (· * ·)
    (readAt_unit_unread2 arg1 harg1 X0 ![0, 0] inb_S512x512_S512x512_0_0 0 0 rfl r d r d
      (Nat.zero_add _).symm (Nat.zero_add _).symm)
    (readAt_unit_unread2 arg2 harg2 Y (k0_off1 k) (k0_off1_inb k) (512 * k.val) 0 (k0_off1_eq k) c' d
      ⟨512 * k.val + c'.val, hC⟩ d rfl (Nat.zero_add _).symm)
  refine if_congr Iff.rfl rfl ?_
  exact congrArg (fun t => Ideal.exp (t * wNegHalf))
    (congrArg₂ (fun u s => u - wTwo * s) (congrArg₂ (· + ·) e2 e18) (Finset.sum_congr rfl fun d _ => eS d))

/-- The running sum before trip `n`: the tiles of the trips before it. -/
theorem st0_upto (𝒱 : Variants) (c : Dev nD) (bd : Option 𝒱.V) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole)
    (X0 : Vec Ideal S512x512 .bf16) (Y : Vec Ideal S8192x512 .bf16) (Xn : Vec Ideal S512x1 .f32) (Yn : Vec Ideal S1x8192 .f32)
    (j : S1x1.Idx) (n : ℕ) (hn : n ≤ k0_t1_loop.trips) :
    Gen.st_k0_t1 (F := Ideal) 𝒱 c bd i arg1 harg1 arg2 harg2 arg3 harg3 arg4 harg4 arg5 harg5
        (View.readAt (Elt Ideal) arg1.view (Rect.unit (s := S512x512) ![0, 0] S512x512.size inb_S512x512_S512x512_0_0).toLoadRect (harg1.unread X0))
        (View.readAt (Elt Ideal) arg3.view (Rect.unit (s := S512x1) ![0, 0] S512x1.size inb_S512x1_S512x1_0_0).toLoadRect (harg3.unread Xn))
        (harg2.unread Y) (harg4.unread Yn) Gen.k0_pay1 n j
      = ∑ k : Fin n, tile0 (i 0).val X0 Xn Y Yn k.val (lt_of_lt_of_le k.isLt (le_trans hn (le_of_eq trips_0))) := by
  induction n with
  | zero => exact (pay1_0 j).trans (Ideal.ofBits_zero_f32.trans (Fin.sum_univ_zero _).symm)
  | succ n ih =>
    have hlt : n < k0_t1_loop.trips := hn
    refine (congrFun (Gen.st_k0_t1_succ (F := Ideal) 𝒱 c bd i arg1 harg1 arg2 harg2 arg3 harg3 arg4 harg4 arg5 harg5 _ _ _ _ _
      ⟨n, hlt⟩) j).trans ?_
    refine (trip0_tile 𝒱 c bd i arg1 harg1 arg2 harg2 arg3 harg3 arg4 harg4 arg5 harg5 X0 Y Xn Yn ⟨n, hlt⟩
      (lt_of_lt_of_le hlt (le_of_eq trips_0)) _ j).trans ?_
    rw [ih (le_of_lt hlt), Fin.sum_univ_castSucc]
    rfl

/-- After the last trip the running sum is the sum of the sixteen tiles: over all 512 × 8192 pairs of a row of the band
    and a global column, 1 where the global row and column numbers agree and the Gaussian of the squared distance
    elsewhere. -/
theorem st0_total (𝒱 : Variants) (c : Dev nD) (bd : Option 𝒱.V) (i : grid0.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole)
    (X0 : Vec Ideal S512x512 .bf16) (Y : Vec Ideal S8192x512 .bf16) (Xn : Vec Ideal S512x1 .f32) (Yn : Vec Ideal S1x8192 .f32)
    (j : S1x1.Idx) :
    Gen.st_k0_t1 (F := Ideal) 𝒱 c bd i arg1 harg1 arg2 harg2 arg3 harg3 arg4 harg4 arg5 harg5
        (View.readAt (Elt Ideal) arg1.view (Rect.unit (s := S512x512) ![0, 0] S512x512.size inb_S512x512_S512x512_0_0).toLoadRect (harg1.unread X0))
        (View.readAt (Elt Ideal) arg3.view (Rect.unit (s := S512x1) ![0, 0] S512x1.size inb_S512x1_S512x1_0_0).toLoadRect (harg3.unread Xn))
        (harg2.unread Y) (harg4.unread Yn) Gen.k0_pay1 k0_t1_loop.trips j
      = ∑ k : Fin 16, ∑ r : Fin 512, ∑ c' : Fin 512,
          (if 512 * (i 0).val + r.val = 512 * k.val + c'.val then wOne
           else Ideal.exp (((Xn (ix2 r 0) + Yn (ix2 0 ⟨512 * k.val + c'.val, by omega⟩))
              - wTwo * ∑ d : Fin 512, X0 (ix2 r d) * Y (ix2 ⟨512 * k.val + c'.val, by omega⟩ d)) * wNegHalf)) := by
  refine (st0_upto 𝒱 c bd i arg1 harg1 arg2 harg2 arg3 harg3 arg4 harg4 arg5 harg5 X0 Y Xn Yn j _ le_rfl).trans ?_
  have key : ∀ (m : ℕ) (hm : m = 16) (g : (kv : ℕ) → kv < 16 → EReal),
      ∑ k : Fin m, g k.val (lt_of_lt_of_le k.isLt (le_of_eq hm)) = ∑ k : Fin 16, g k.val k.isLt := by
    intro m hm g; subst hm; rfl
  exact key _ trips_0 (tile0 (i 0).val X0 Xn Y Yn)

end Cert.KernelIdeal.Hand

end
-- ==== Proof.KILoopValue1.lean ====
/-
  What kernel function 1's sixteen-trip loop leaves in its running sum, on the extended reals, as one plain sum.

  A trip loads a 512-row slab of the other array and the matching 512 squared lengths, at row offset 512 · k, and
  adds one 512 × 512 tile to the running sum.  Through a whole buffer whose contents read an array, a load at a
  unit-stride rectangle reads the array at the rectangle's offset plus the local index.  So trip k adds the tile of
  the band's rows against the global columns 512 · k + c, and after all sixteen trips the running sum, which starts
  at zero, is the sum of the sixteen tiles.
-/
import proofs.«124713_j8907762171929_2_alg».proof.Proof.Gen.KernelIdeal.Loops
import proofs.«124713_j8907762171929_2_alg».proof.Proof.TileValue
import proofs.«124713_j8907762171929_2_alg».proof.Proof.Spec
import proofs.«124713_j8907762171929_2_alg».proof.Proof.KILoopRead
import Idealize.ShloMosaic.Lib.Pipeline.Frame

noncomputable section

namespace Cert.KernelIdeal.Hand

open Idealize.ShloMosaic Idealize.ShloMosaic.ValueIdx Idealize.ShloMosaic.TcCoe
open Idealize.SL Idealize.SL.Sem
open Cert.MMD Cert.KernelIdeal Cert.KernelIdeal.Gen

/-! ## Kernel function 1 -/

/-- Sixteen trips. -/
theorem trips_1 : k1_t1_loop.trips = 16 := by decide

unseal Cert.KernelIdeal.Gen.trip_k1_t1 in
/-- One trip's yield, as a function of the running sum: the trip's payload at the two loads. -/
theorem tripR1_eq {F : FTy → Type} [FloatOps F] (𝒱 : Variants) (c : Dev nD) (bd : Option 𝒱.V) (i : grid1.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (v0 : Vec F S512x512 .bf16) (v2 : Vec F S512x1 .f32)
    (X_arg2 : BufTy.Contents (Elt F) arg2.view.ty) (X_arg4 : BufTy.Contents (Elt F) arg4.view.ty)
    (k : Fin k1_t1_loop.trips) (acc : FVec F S1x1 .f32) :
    Gen.tripR_k1_t1 (F := F) 𝒱 c bd i arg1 harg1 arg2 harg2 arg3 harg3 arg4 harg4 arg5 harg5 v0 v2 X_arg2 X_arg4 k acc
      = Gen.k1_pay2 i v0 v2 k acc
          (View.readAt (Elt F) arg2.view (Rect.unit (s := S8192x512) (k1_off1 k) S512x512.size (k1_off1_inb k)).toLoadRect X_arg2)
          (View.readAt (Elt F) arg4.view (Rect.unit (s := S1x8192) (k1_off2 k) S1x512.size (k1_off2_inb k)).toLoadRect X_arg4) :=
  rfl

/-- The tile trip `kv` adds: the band's 512 rows against the global columns 512 · kv + c, each entry 1 where the global row
    and column numbers agree and the Gaussian of the squared distance elsewhere. -/
def tile1 (i0 : ℕ) (X0 : Vec Ideal S512x512 .bf16) (Xn : Vec Ideal S512x1 .f32) (Y : Vec Ideal S8192x512 .bf16)
    (Yn : Vec Ideal S1x8192 .f32) (kv : ℕ) (hk : kv < 16) : EReal :=
  ∑ r : Fin 512, ∑ c' : Fin 512,
    (if 512 * i0 + r.val = 512 * kv + c'.val then wOne
     else Ideal.exp (((Xn (ix2 r 0) + Yn (ix2 0 ⟨512 * kv + c'.val, by omega⟩))
        - wTwo * ∑ d : Fin 512, X0 (ix2 r d) * Y (ix2 ⟨512 * kv + c'.val, by omega⟩ d)) * wNegHalf))

/-- One trip, the buffers held at contents that read the arrays: the running sum plus the trip's tile. -/
theorem trip1_tile (𝒱 : Variants) (c : Dev nD) (bd : Option 𝒱.V) (i : grid1.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole)
    (X0 : Vec Ideal S512x512 .bf16) (Y : Vec Ideal S8192x512 .bf16) (Xn : Vec Ideal S512x1 .f32) (Yn : Vec Ideal S1x8192 .f32)
    (k : Fin k1_t1_loop.trips) (hk : k.val < 16) (acc : FVec Ideal S1x1 .f32) (j : S1x1.Idx) :
    Gen.tripR_k1_t1 (F := Ideal) 𝒱 c bd i arg1 harg1 arg2 harg2 arg3 harg3 arg4 harg4 arg5 harg5
        (View.readAt (Elt Ideal) arg1.view (Rect.unit (s := S512x512) ![0, 0] S512x512.size inb_S512x512_S512x512_0_0).toLoadRect (harg1.unread X0))
        (View.readAt (Elt Ideal) arg3.view (Rect.unit (s := S512x1) ![0, 0] S512x1.size inb_S512x1_S512x1_0_0).toLoadRect (harg3.unread Xn))
        (harg2.unread Y) (harg4.unread Yn) k acc j
      = acc j + tile1 (i 0).val X0 Xn Y Yn k.val hk := by
  refine (congrFun (tripR1_eq 𝒱 c bd i arg1 harg1 arg2 harg2 arg3 harg3 arg4 harg4 arg5 harg5 _ _ _ _ k acc) j).trans ?_
  refine (pay2_1 i _ _ k acc _ _ j).trans ?_
  refine congrArg (acc j + ·) ?_
  unfold tile1
  refine Finset.sum_congr rfl fun r _ => Finset.sum_congr rfl fun c' _ => ?_
  have hC : 512 * k.val + c'.val < 8192 := by omega
  have e2 := readAt_unit_unread2 arg3 harg3 Xn ![0, 0] inb_S512x1_S512x1_0_0 0 0 rfl r (0 : Fin 1) r (0 : Fin 1)
    (Nat.zero_add _).symm rfl
  have e18 := readAt_unit_unread2 arg4 harg4 Yn (k1_off2 k) (k1_off2_inb k) 0 (512 * k.val) (k1_off2_eq k)
    (0 : Fin 1) c' (0 : Fin 1) ⟨512 * k.val + c'.val, hC⟩ rfl rfl
  have eS : ∀ d : Fin 512, _ = X0 (ix2 r d) * Y (ix2 ⟨512 * k.val + c'.val, hC⟩ d) := fun d => congrArg₂ (· * ·)
    (readAt_unit_unread2 arg1 harg1 X0 ![0, 0] inb_S512x512_S512x512_0_0 0 0 rfl r d r d
      (Nat.zero_add _).symm (Nat.zero_add _).symm)
    (readAt_unit_unread2 arg2 harg2 Y (k1_off1 k) (k1_off1_inb k) (512 * k.val) 0 (k1_off1_eq k) c' d
      ⟨512 * k.val + c'.val, hC⟩ d rfl (Nat.zero_add _).symm)
  refine if_congr Iff.rfl rfl ?_
  exact congrArg (fun t => Ideal.exp (t * wNegHalf))
    (congrArg₂ (fun u s => u - wTwo * s) (congrArg₂ (· + ·) e2 e18) (Finset.sum_congr rfl fun d _ => eS d))

/-- The running sum before trip `n`: the tiles of the trips before it. -/
theorem st1_upto (𝒱 : Variants) (c : Dev nD) (bd : Option 𝒱.V) (i : grid1.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole)
    (X0 : Vec Ideal S512x512 .bf16) (Y : Vec Ideal S8192x512 .bf16) (Xn : Vec Ideal S512x1 .f32) (Yn : Vec Ideal S1x8192 .f32)
    (j : S1x1.Idx) (n : ℕ) (hn : n ≤ k1_t1_loop.trips) :
    Gen.st_k1_t1 (F := Ideal) 𝒱 c bd i arg1 harg1 arg2 harg2 arg3 harg3 arg4 harg4 arg5 harg5
        (View.readAt (Elt Ideal) arg1.view (Rect.unit (s := S512x512) ![0, 0] S512x512.size inb_S512x512_S512x512_0_0).toLoadRect (harg1.unread X0))
        (View.readAt (Elt Ideal) arg3.view (Rect.unit (s := S512x1) ![0, 0] S512x1.size inb_S512x1_S512x1_0_0).toLoadRect (harg3.unread Xn))
        (harg2.unread Y) (harg4.unread Yn) Gen.k1_pay1 n j
      = ∑ k : Fin n, tile1 (i 0).val X0 Xn Y Yn k.val (lt_of_lt_of_le k.isLt (le_trans hn (le_of_eq trips_1))) := by
  induction n with
  | zero => exact (pay1_1 j).trans (Ideal.ofBits_zero_f32.trans (Fin.sum_univ_zero _).symm)
  | succ n ih =>
    have hlt : n < k1_t1_loop.trips := hn
    refine (congrFun (Gen.st_k1_t1_succ (F := Ideal) 𝒱 c bd i arg1 harg1 arg2 harg2 arg3 harg3 arg4 harg4 arg5 harg5 _ _ _ _ _
      ⟨n, hlt⟩) j).trans ?_
    refine (trip1_tile 𝒱 c bd i arg1 harg1 arg2 harg2 arg3 harg3 arg4 harg4 arg5 harg5 X0 Y Xn Yn ⟨n, hlt⟩
      (lt_of_lt_of_le hlt (le_of_eq trips_1)) _ j).trans ?_
    rw [ih (le_of_lt hlt), Fin.sum_univ_castSucc]
    rfl

/-- After the last trip the running sum is the sum of the sixteen tiles: over all 512 × 8192 pairs of a row of the band
    and a global column, 1 where the global row and column numbers agree and the Gaussian of the squared distance
    elsewhere. -/
theorem st1_total (𝒱 : Variants) (c : Dev nD) (bd : Option 𝒱.V) (i : grid1.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole)
    (X0 : Vec Ideal S512x512 .bf16) (Y : Vec Ideal S8192x512 .bf16) (Xn : Vec Ideal S512x1 .f32) (Yn : Vec Ideal S1x8192 .f32)
    (j : S1x1.Idx) :
    Gen.st_k1_t1 (F := Ideal) 𝒱 c bd i arg1 harg1 arg2 harg2 arg3 harg3 arg4 harg4 arg5 harg5
        (View.readAt (Elt Ideal) arg1.view (Rect.unit (s := S512x512) ![0, 0] S512x512.size inb_S512x512_S512x512_0_0).toLoadRect (harg1.unread X0))
        (View.readAt (Elt Ideal) arg3.view (Rect.unit (s := S512x1) ![0, 0] S512x1.size inb_S512x1_S512x1_0_0).toLoadRect (harg3.unread Xn))
        (harg2.unread Y) (harg4.unread Yn) Gen.k1_pay1 k1_t1_loop.trips j
      = ∑ k : Fin 16, ∑ r : Fin 512, ∑ c' : Fin 512,
          (if 512 * (i 0).val + r.val = 512 * k.val + c'.val then wOne
           else Ideal.exp (((Xn (ix2 r 0) + Yn (ix2 0 ⟨512 * k.val + c'.val, by omega⟩))
              - wTwo * ∑ d : Fin 512, X0 (ix2 r d) * Y (ix2 ⟨512 * k.val + c'.val, by omega⟩ d)) * wNegHalf)) := by
  refine (st1_upto 𝒱 c bd i arg1 harg1 arg2 harg2 arg3 harg3 arg4 harg4 arg5 harg5 X0 Y Xn Yn j _ le_rfl).trans ?_
  have key : ∀ (m : ℕ) (hm : m = 16) (g : (kv : ℕ) → kv < 16 → EReal),
      ∑ k : Fin m, g k.val (lt_of_lt_of_le k.isLt (le_of_eq hm)) = ∑ k : Fin 16, g k.val k.isLt := by
    intro m hm g; subst hm; rfl
  exact key _ trips_1 (tile1 (i 0).val X0 Xn Y Yn)

end Cert.KernelIdeal.Hand

end
-- ==== Proof.KILoopValue2.lean ====
/-
  What kernel function 2's sixteen-trip loop leaves in its running sum, on the extended reals, as one plain sum.

  A trip loads a 512-row slab of the other array and the matching 512 squared lengths, at row offset 512 · k, and
  adds one 512 × 512 tile to the running sum.  Through a whole buffer whose contents read an array, a load at a
  unit-stride rectangle reads the array at the rectangle's offset plus the local index.  So trip k adds the tile of
  the band's rows against the global columns 512 · k + c, and after all sixteen trips the running sum, which starts
  at zero, is the sum of the sixteen tiles.
-/
import proofs.«124713_j8907762171929_2_alg».proof.Proof.Gen.KernelIdeal.Loops
import proofs.«124713_j8907762171929_2_alg».proof.Proof.TileValue
import proofs.«124713_j8907762171929_2_alg».proof.Proof.Spec
import proofs.«124713_j8907762171929_2_alg».proof.Proof.KILoopRead
import Idealize.ShloMosaic.Lib.Pipeline.Frame

noncomputable section

namespace Cert.KernelIdeal.Hand

open Idealize.ShloMosaic Idealize.ShloMosaic.ValueIdx Idealize.ShloMosaic.TcCoe
open Idealize.SL Idealize.SL.Sem
open Cert.MMD Cert.KernelIdeal Cert.KernelIdeal.Gen

/-! ## Kernel function 2 -/

/-- Sixteen trips. -/
theorem trips_2 : k2_t1_loop.trips = 16 := by decide

unseal Cert.KernelIdeal.Gen.trip_k2_t1 in
/-- One trip's yield, as a function of the running sum: the trip's payload at the two loads. -/
theorem tripR2_eq {F : FTy → Type} [FloatOps F] (𝒱 : Variants) (c : Dev nD) (bd : Option 𝒱.V) (i : grid2.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole) (v0 : Vec F S512x512 .bf16) (v2 : Vec F S512x1 .f32)
    (X_arg2 : BufTy.Contents (Elt F) arg2.view.ty) (X_arg4 : BufTy.Contents (Elt F) arg4.view.ty)
    (k : Fin k2_t1_loop.trips) (acc : FVec F S1x1 .f32) :
    Gen.tripR_k2_t1 (F := F) 𝒱 c bd i arg1 harg1 arg2 harg2 arg3 harg3 arg4 harg4 arg5 harg5 v0 v2 X_arg2 X_arg4 k acc
      = Gen.k2_pay2 v0 v2 acc
          (View.readAt (Elt F) arg2.view (Rect.unit (s := S8192x512) (k2_off1 k) S512x512.size (k2_off1_inb k)).toLoadRect X_arg2)
          (View.readAt (Elt F) arg4.view (Rect.unit (s := S1x8192) (k2_off2 k) S1x512.size (k2_off2_inb k)).toLoadRect X_arg4) :=
  rfl

/-- The tile trip `kv` adds: the band's 512 rows against the global columns 512 · kv + c, each entry the Gaussian of the squared distance. -/
def tile2 (X0 : Vec Ideal S512x512 .bf16) (Xn : Vec Ideal S512x1 .f32) (Y : Vec Ideal S8192x512 .bf16)
    (Yn : Vec Ideal S1x8192 .f32) (kv : ℕ) (hk : kv < 16) : EReal :=
  ∑ r : Fin 512, ∑ c' : Fin 512,
    (Ideal.exp (((Xn (ix2 r 0) + Yn (ix2 0 ⟨512 * kv + c'.val, by omega⟩))
        - wTwo * ∑ d : Fin 512, X0 (ix2 r d) * Y (ix2 ⟨512 * kv + c'.val, by omega⟩ d)) * wNegHalf))

/-- One trip, the buffers held at contents that read the arrays: the running sum plus the trip's tile. -/
theorem trip2_tile (𝒱 : Variants) (c : Dev nD) (bd : Option 𝒱.V) (i : grid2.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole)
    (X0 : Vec Ideal S512x512 .bf16) (Y : Vec Ideal S8192x512 .bf16) (Xn : Vec Ideal S512x1 .f32) (Yn : Vec Ideal S1x8192 .f32)
    (k : Fin k2_t1_loop.trips) (hk : k.val < 16) (acc : FVec Ideal S1x1 .f32) (j : S1x1.Idx) :
    Gen.tripR_k2_t1 (F := Ideal) 𝒱 c bd i arg1 harg1 arg2 harg2 arg3 harg3 arg4 harg4 arg5 harg5
        (View.readAt (Elt Ideal) arg1.view (Rect.unit (s := S512x512) ![0, 0] S512x512.size inb_S512x512_S512x512_0_0).toLoadRect (harg1.unread X0))
        (View.readAt (Elt Ideal) arg3.view (Rect.unit (s := S512x1) ![0, 0] S512x1.size inb_S512x1_S512x1_0_0).toLoadRect (harg3.unread Xn))
        (harg2.unread Y) (harg4.unread Yn) k acc j
      = acc j + tile2 X0 Xn Y Yn k.val hk := by
  refine (congrFun (tripR2_eq 𝒱 c bd i arg1 harg1 arg2 harg2 arg3 harg3 arg4 harg4 arg5 harg5 _ _ _ _ k acc) j).trans ?_
  refine (pay2_2 _ _ acc _ _ j).trans ?_
  refine congrArg (acc j + ·) ?_
  unfold tile2
  refine Finset.sum_congr rfl fun r _ => Finset.sum_congr rfl fun c' _ => ?_
  have hC : 512 * k.val + c'.val < 8192 := by omega
  have e2 := readAt_unit_unread2 arg3 harg3 Xn ![0, 0] inb_S512x1_S512x1_0_0 0 0 rfl r (0 : Fin 1) r (0 : Fin 1)
    (Nat.zero_add _).symm rfl
  have e18 := readAt_unit_unread2 arg4 harg4 Yn (k2_off2 k) (k2_off2_inb k) 0 (512 * k.val) (k2_off2_eq k)
    (0 : Fin 1) c' (0 : Fin 1) ⟨512 * k.val + c'.val, hC⟩ rfl rfl
  have eS : ∀ d : Fin 512, _ = X0 (ix2 r d) * Y (ix2 ⟨512 * k.val + c'.val, hC⟩ d) := fun d => congrArg₂ (· * ·)
    (readAt_unit_unread2 arg1 harg1 X0 ![0, 0] inb_S512x512_S512x512_0_0 0 0 rfl r d r d
      (Nat.zero_add _).symm (Nat.zero_add _).symm)
    (readAt_unit_unread2 arg2 harg2 Y (k2_off1 k) (k2_off1_inb k) (512 * k.val) 0 (k2_off1_eq k) c' d
      ⟨512 * k.val + c'.val, hC⟩ d rfl (Nat.zero_add _).symm)
  exact congrArg (fun t => Ideal.exp (t * wNegHalf))
    (congrArg₂ (fun u s => u - wTwo * s) (congrArg₂ (· + ·) e2 e18) (Finset.sum_congr rfl fun d _ => eS d))

/-- The running sum before trip `n`: the tiles of the trips before it. -/
theorem st2_upto (𝒱 : Variants) (c : Dev nD) (bd : Option 𝒱.V) (i : grid2.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole)
    (X0 : Vec Ideal S512x512 .bf16) (Y : Vec Ideal S8192x512 .bf16) (Xn : Vec Ideal S512x1 .f32) (Yn : Vec Ideal S1x8192 .f32)
    (j : S1x1.Idx) (n : ℕ) (hn : n ≤ k2_t1_loop.trips) :
    Gen.st_k2_t1 (F := Ideal) 𝒱 c bd i arg1 harg1 arg2 harg2 arg3 harg3 arg4 harg4 arg5 harg5
        (View.readAt (Elt Ideal) arg1.view (Rect.unit (s := S512x512) ![0, 0] S512x512.size inb_S512x512_S512x512_0_0).toLoadRect (harg1.unread X0))
        (View.readAt (Elt Ideal) arg3.view (Rect.unit (s := S512x1) ![0, 0] S512x1.size inb_S512x1_S512x1_0_0).toLoadRect (harg3.unread Xn))
        (harg2.unread Y) (harg4.unread Yn) Gen.k2_pay1 n j
      = ∑ k : Fin n, tile2 X0 Xn Y Yn k.val (lt_of_lt_of_le k.isLt (le_trans hn (le_of_eq trips_2))) := by
  induction n with
  | zero => exact (pay1_2 j).trans (Ideal.ofBits_zero_f32.trans (Fin.sum_univ_zero _).symm)
  | succ n ih =>
    have hlt : n < k2_t1_loop.trips := hn
    refine (congrFun (Gen.st_k2_t1_succ (F := Ideal) 𝒱 c bd i arg1 harg1 arg2 harg2 arg3 harg3 arg4 harg4 arg5 harg5 _ _ _ _ _
      ⟨n, hlt⟩) j).trans ?_
    refine (trip2_tile 𝒱 c bd i arg1 harg1 arg2 harg2 arg3 harg3 arg4 harg4 arg5 harg5 X0 Y Xn Yn ⟨n, hlt⟩
      (lt_of_lt_of_le hlt (le_of_eq trips_2)) _ j).trans ?_
    rw [ih (le_of_lt hlt), Fin.sum_univ_castSucc]
    rfl

/-- After the last trip the running sum is the sum of the sixteen tiles: the Gaussians of the squared distances over all
    512 × 8192 pairs of a row of the band and a global column. -/
theorem st2_total (𝒱 : Variants) (c : Dev nD) (bd : Option 𝒱.V) (i : grid2.Coords) (arg1 : Memref sig .tc .vmem S512x512 .bf16) (harg1 : arg1.IsWhole) (arg2 : Memref sig .tc .vmem S8192x512 .bf16) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x128 .f32) (harg5 : arg5.IsWhole)
    (X0 : Vec Ideal S512x512 .bf16) (Y : Vec Ideal S8192x512 .bf16) (Xn : Vec Ideal S512x1 .f32) (Yn : Vec Ideal S1x8192 .f32)
    (j : S1x1.Idx) :
    Gen.st_k2_t1 (F := Ideal) 𝒱 c bd i arg1 harg1 arg2 harg2 arg3 harg3 arg4 harg4 arg5 harg5
        (View.readAt (Elt Ideal) arg1.view (Rect.unit (s := S512x512) ![0, 0] S512x512.size inb_S512x512_S512x512_0_0).toLoadRect (harg1.unread X0))
        (View.readAt (Elt Ideal) arg3.view (Rect.unit (s := S512x1) ![0, 0] S512x1.size inb_S512x1_S512x1_0_0).toLoadRect (harg3.unread Xn))
        (harg2.unread Y) (harg4.unread Yn) Gen.k2_pay1 k2_t1_loop.trips j
      = ∑ k : Fin 16, ∑ r : Fin 512, ∑ c' : Fin 512,
          (Ideal.exp (((Xn (ix2 r 0) + Yn (ix2 0 ⟨512 * k.val + c'.val, by omega⟩))
              - wTwo * ∑ d : Fin 512, X0 (ix2 r d) * Y (ix2 ⟨512 * k.val + c'.val, by omega⟩ d)) * wNegHalf)) := by
  refine (st2_upto 𝒱 c bd i arg1 harg1 arg2 harg2 arg3 harg3 arg4 harg4 arg5 harg5 X0 Y Xn Yn j _ le_rfl).trans ?_
  have key : ∀ (m : ℕ) (hm : m = 16) (g : (kv : ℕ) → kv < 16 → EReal),
      ∑ k : Fin m, g k.val (lt_of_lt_of_le k.isLt (le_of_eq hm)) = ∑ k : Fin 16, g k.val k.isLt := by
    intro m hm g; subst hm; rfl
  exact key _ trips_2 (tile2 X0 Xn Y Yn)

end Cert.KernelIdeal.Hand

end
-- ==== Proof.KIBlocks.lean ====
/-
  The three pipelines' blocks and arrays.

  Each of the three kernel regions runs over a grid of sixteen points.  At point t it sees: rows 512·t … 512·t + 511
  of one [8192, 512] array (window 0) and of that array's [8192, 1] column of squared row lengths (window 2); the
  WHOLE of an [8192, 512] array (window 1) and of its [1, 8192] row of squared row lengths (window 3), the same at
  every point; and it writes block t, of shape [1, 1, 128], of a [16, 1, 128] array (window 4).  A block's element
  sits in its array, on each axis, at the block index times the block's size plus its own coordinate.  The sixteen
  output blocks tile the output array and no two meet, so after the run block t holds what point t wrote; the input
  arrays are not written at all.
-/
import proofs.«124713_j8907762171929_2_alg».proof.Proof.Gen.KernelIdeal.Launch
import proofs.«124713_j8907762171929_2_alg».proof.Proof.Gen.KernelIdeal.Points
import Idealize.ShloMosaic.Lib.Pipeline.Value
import Idealize.ShloMosaic.Lib.Pipeline.FrameBody
import Idealize.ShloMosaic.Lib.ValueIdx

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
open Idealize.ShloMosaic.Pipeline (Dat Cfg Window)
open Idealize.ShloMosaic.ValueIdx

variable {F : FTy → Type} [FloatOps F]

local notation "𝕄" => MT nD τ sig Unit (Elt F) ℕ (UR sig nD τ) ℕ

/-! ## Pipeline 0 -/

/-- A point of the grid is one of sixteen. -/
theorem lt16_0 (t : Fin cfg0.N) : t.val < 16 := lt_of_lt_of_eq t.isLt N_0

/-- The block indices at point `t`, decided once over the grid: windows 0, 2 and 4 sit at block `t` along the first axis,
    windows 1 and 3 at block 0. -/
theorem idx0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0) :=
  (by decide +kernel : ∀ t : Fin grid0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0))

/-- Window 0's block at point `t` is rows 512·t … 512·t + 511 of its array. -/
theorem blk0_0 (A : S8192x512.Idx → Elt F .bf16) (t : Fin cfg0.N) (r d : Fin 512) :
    ((cfg0.win 0).blk t).view.read (Elt F) A (ix2 r d)
      = A (ix2 ⟨512 * t.val + r.val, by have := lt16_0 t; omega⟩ d) := by
  obtain ⟨⟨e0, e1⟩, -⟩ := idx0 t
  rw [View.read_apply]
  show A _ = A _
  refine congrArg A (funext fun a => Fin.ext ?_)
  match a with
  | ⟨0, _⟩ => show win0_0.index t (0 : Fin 2) * 512 + 1 * r.val = 512 * t.val + r.val; rw [e0]; omega
  | ⟨1, _⟩ => show win0_0.index t (1 : Fin 2) * 512 + 1 * d.val = d.val; rw [e1]; omega

/-- Window 1's block at every point is its whole array. -/
theorem blk0_1 (A : S8192x512.Idx → Elt F .bf16) (t : Fin cfg0.N) (R : Fin 8192) (d : Fin 512) :
    ((cfg0.win 1).blk t).view.read (Elt F) A (ix2 R d) = A (ix2 R d) := by
  obtain ⟨-, ⟨e0, e1⟩, -⟩ := idx0 t
  rw [View.read_apply]
  show A _ = A _
  refine congrArg A (funext fun a => Fin.ext ?_)
  match a with
  | ⟨0, _⟩ => show win0_1.index t (0 : Fin 2) * 8192 + 1 * R.val = R.val; rw [e0]; omega
  | ⟨1, _⟩ => show win0_1.index t (1 : Fin 2) * 512 + 1 * d.val = d.val; rw [e1]; omega

/-- Window 2's block at point `t` is entries 512·t … 512·t + 511 of its column. -/
theorem blk0_2 (A : S8192x1.Idx → Elt F .f32) (t : Fin cfg0.N) (r : Fin 512) :
    ((cfg0.win 2).blk t).view.read (Elt F) A (ix2 r 0)
      = A (ix2 ⟨512 * t.val + r.val, by have := lt16_0 t; omega⟩ 0) := by
  obtain ⟨-, -, ⟨e0, e1⟩, -⟩ := idx0 t
  rw [View.read_apply]
  show A _ = A _
  refine congrArg A (funext fun a => Fin.ext ?_)
  match a with
  | ⟨0, _⟩ => show win0_2.index t (0 : Fin 2) * 512 + 1 * r.val = 512 * t.val + r.val; rw [e0]; omega
  | ⟨1, _⟩ => show win0_2.index t (1 : Fin 2) * 1 + 1 * 0 = 0; rw [e1]

/-- Window 3's block at every point is its whole row. -/
theorem blk0_3 (A : S1x8192.Idx → Elt F .f32) (t : Fin cfg0.N) (C : Fin 8192) :
    ((cfg0.win 3).blk t).view.read (Elt F) A (ix2 0 C) = A (ix2 0 C) := by
  obtain ⟨-, -, -, ⟨e0, e1⟩, -⟩ := idx0 t
  rw [View.read_apply]
  show A _ = A _
  refine congrArg A (funext fun a => Fin.ext ?_)
  match a with
  | ⟨0, _⟩ => show win0_3.index t (0 : Fin 2) * 1 + 1 * 0 = 0; rw [e0]
  | ⟨1, _⟩ => show win0_3.index t (1 : Fin 2) * 8192 + 1 * C.val = C.val; rw [e1]; omega

/-- Two different points' output blocks share no element: they sit at different places along the first axis. -/
theorem disj0_4 (t t' : Fin cfg0.N) (hne : t ≠ t') :
    Disjoint ((cfg0.win 4).blk t).view.set ((cfg0.win 4).blk t').view.set := by
  show Disjoint ((View.whole main_v10).slice (win0_4.rect t)).set ((View.whole main_v10).slice (win0_4.rect t')).set
  rw [View.set_slice_whole, View.set_slice_whole]
  refine Rect.unit_disjoint (0 : Fin 3) ?_
  show win0_4.index t (0 : Fin 3) * 1 + 1 ≤ win0_4.index t' (0 : Fin 3) * 1
    ∨ win0_4.index t' (0 : Fin 3) * 1 + 1 ≤ win0_4.index t (0 : Fin 3) * 1
  have h := (idx0 t).2.2.2.2.1
  have h' := (idx0 t').2.2.2.2.1
  have hv : t.val ≠ t'.val := fun e => hne (Fin.ext e)
  omega

/-- After the run, block `t` of the output array holds what point `t` wrote back, whatever the pipeline's proof data. -/
theorem arrAt0_4 {c : Dev nD} (dat : Dat τ (Elt F) Unit ℕ (UR sig nD τ) ℕ cfg0 c) (t : Fin cfg0.N) (l : Fin 128) :
    dat.arrAt 4 cfg0.N (ix3 ⟨t.val, lt16_0 t⟩ 0 l) = dat.after 4 t (ix3 0 0 l) := by
  obtain ⟨-, -, -, -, e0, e1, e2⟩ := idx0 t
  have h := dat.arrAt_emb_eq_flushed 4 (fun u u' _ _ hne => disj0_4 u u' hne) t (flush0_4 t) (ix3 0 0 l)
  have e : ((cfg0.win 4).blk t).view.emb (ix3 (0 : Fin 1) (0 : Fin 1) l) = ix3 ⟨t.val, lt16_0 t⟩ (0 : Fin 1) l := by
    funext a
    apply Fin.ext
    match a with
    | ⟨0, _⟩ => show win0_4.index t (0 : Fin 3) * 1 + 1 * 0 = t.val; rw [e0]; omega
    | ⟨1, _⟩ => show win0_4.index t (1 : Fin 3) * 1 + 1 * 0 = 0; rw [e1]
    | ⟨2, _⟩ => show win0_4.index t (2 : Fin 3) * 128 + 1 * l.val = l.val; rw [e2]; omega
  rw [e] at h
  exact h

/-- The four input arrays are not written: after the run each holds what it held when the region was entered. -/
theorem arrAt0_0 {c : Dev nD} (dat : Dat τ (Elt F) Unit ℕ (UR sig nD τ) ℕ cfg0 c) : dat.arrAt 0 cfg0.N = dat.A 0 :=
  dat.arrAt_in 0 rfl _
theorem arrAt0_1 {c : Dev nD} (dat : Dat τ (Elt F) Unit ℕ (UR sig nD τ) ℕ cfg0 c) : dat.arrAt 1 cfg0.N = dat.A 1 :=
  dat.arrAt_in 1 rfl _
theorem arrAt0_2 {c : Dev nD} (dat : Dat τ (Elt F) Unit ℕ (UR sig nD τ) ℕ cfg0 c) : dat.arrAt 2 cfg0.N = dat.A 2 :=
  dat.arrAt_in 2 rfl _
theorem arrAt0_3 {c : Dev nD} (dat : Dat τ (Elt F) Unit ℕ (UR sig nD τ) ℕ cfg0 c) : dat.arrAt 3 cfg0.N = dat.A 3 :=
  dat.arrAt_in 3 rfl _

/-! ## Pipeline 1 -/

/-- A point of the grid is one of sixteen. -/
theorem lt16_1 (t : Fin cfg1.N) : t.val < 16 := lt_of_lt_of_eq t.isLt N_1

/-- The block indices at point `t`, decided once over the grid: windows 0, 2 and 4 sit at block `t` along the first axis,
    windows 1 and 3 at block 0. -/
theorem idx1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 3) = t.val ∧ win1_4.index t (1 : Fin 3) = 0 ∧ win1_4.index t (2 : Fin 3) = 0) :=
  (by decide +kernel : ∀ t : Fin grid1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 3) = t.val ∧ win1_4.index t (1 : Fin 3) = 0 ∧ win1_4.index t (2 : Fin 3) = 0))

/-- Window 0's block at point `t` is rows 512·t … 512·t + 511 of its array. -/
theorem blk1_0 (A : S8192x512.Idx → Elt F .bf16) (t : Fin cfg1.N) (r d : Fin 512) :
    ((cfg1.win 0).blk t).view.read (Elt F) A (ix2 r d)
      = A (ix2 ⟨512 * t.val + r.val, by have := lt16_1 t; omega⟩ d) := by
  obtain ⟨⟨e0, e1⟩, -⟩ := idx1 t
  rw [View.read_apply]
  show A _ = A _
  refine congrArg A (funext fun a => Fin.ext ?_)
  match a with
  | ⟨0, _⟩ => show win1_0.index t (0 : Fin 2) * 512 + 1 * r.val = 512 * t.val + r.val; rw [e0]; omega
  | ⟨1, _⟩ => show win1_0.index t (1 : Fin 2) * 512 + 1 * d.val = d.val; rw [e1]; omega

/-- Window 1's block at every point is its whole array. -/
theorem blk1_1 (A : S8192x512.Idx → Elt F .bf16) (t : Fin cfg1.N) (R : Fin 8192) (d : Fin 512) :
    ((cfg1.win 1).blk t).view.read (Elt F) A (ix2 R d) = A (ix2 R d) := by
  obtain ⟨-, ⟨e0, e1⟩, -⟩ := idx1 t
  rw [View.read_apply]
  show A _ = A _
  refine congrArg A (funext fun a => Fin.ext ?_)
  match a with
  | ⟨0, _⟩ => show win1_1.index t (0 : Fin 2) * 8192 + 1 * R.val = R.val; rw [e0]; omega
  | ⟨1, _⟩ => show win1_1.index t (1 : Fin 2) * 512 + 1 * d.val = d.val; rw [e1]; omega

/-- Window 2's block at point `t` is entries 512·t … 512·t + 511 of its column. -/
theorem blk1_2 (A : S8192x1.Idx → Elt F .f32) (t : Fin cfg1.N) (r : Fin 512) :
    ((cfg1.win 2).blk t).view.read (Elt F) A (ix2 r 0)
      = A (ix2 ⟨512 * t.val + r.val, by have := lt16_1 t; omega⟩ 0) := by
  obtain ⟨-, -, ⟨e0, e1⟩, -⟩ := idx1 t
  rw [View.read_apply]
  show A _ = A _
  refine congrArg A (funext fun a => Fin.ext ?_)
  match a with
  | ⟨0, _⟩ => show win1_2.index t (0 : Fin 2) * 512 + 1 * r.val = 512 * t.val + r.val; rw [e0]; omega
  | ⟨1, _⟩ => show win1_2.index t (1 : Fin 2) * 1 + 1 * 0 = 0; rw [e1]

/-- Window 3's block at every point is its whole row. -/
theorem blk1_3 (A : S1x8192.Idx → Elt F .f32) (t : Fin cfg1.N) (C : Fin 8192) :
    ((cfg1.win 3).blk t).view.read (Elt F) A (ix2 0 C) = A (ix2 0 C) := by
  obtain ⟨-, -, -, ⟨e0, e1⟩, -⟩ := idx1 t
  rw [View.read_apply]
  show A _ = A _
  refine congrArg A (funext fun a => Fin.ext ?_)
  match a with
  | ⟨0, _⟩ => show win1_3.index t (0 : Fin 2) * 1 + 1 * 0 = 0; rw [e0]
  | ⟨1, _⟩ => show win1_3.index t (1 : Fin 2) * 8192 + 1 * C.val = C.val; rw [e1]; omega

/-- Two different points' output blocks share no element: they sit at different places along the first axis. -/
theorem disj1_4 (t t' : Fin cfg1.N) (hne : t ≠ t') :
    Disjoint ((cfg1.win 4).blk t).view.set ((cfg1.win 4).blk t').view.set := by
  show Disjoint ((View.whole main_v14).slice (win1_4.rect t)).set ((View.whole main_v14).slice (win1_4.rect t')).set
  rw [View.set_slice_whole, View.set_slice_whole]
  refine Rect.unit_disjoint (0 : Fin 3) ?_
  show win1_4.index t (0 : Fin 3) * 1 + 1 ≤ win1_4.index t' (0 : Fin 3) * 1
    ∨ win1_4.index t' (0 : Fin 3) * 1 + 1 ≤ win1_4.index t (0 : Fin 3) * 1
  have h := (idx1 t).2.2.2.2.1
  have h' := (idx1 t').2.2.2.2.1
  have hv : t.val ≠ t'.val := fun e => hne (Fin.ext e)
  omega

/-- After the run, block `t` of the output array holds what point `t` wrote back, whatever the pipeline's proof data. -/
theorem arrAt1_4 {c : Dev nD} (dat : Dat τ (Elt F) Unit ℕ (UR sig nD τ) ℕ cfg1 c) (t : Fin cfg1.N) (l : Fin 128) :
    dat.arrAt 4 cfg1.N (ix3 ⟨t.val, lt16_1 t⟩ 0 l) = dat.after 4 t (ix3 0 0 l) := by
  obtain ⟨-, -, -, -, e0, e1, e2⟩ := idx1 t
  have h := dat.arrAt_emb_eq_flushed 4 (fun u u' _ _ hne => disj1_4 u u' hne) t (flush1_4 t) (ix3 0 0 l)
  have e : ((cfg1.win 4).blk t).view.emb (ix3 (0 : Fin 1) (0 : Fin 1) l) = ix3 ⟨t.val, lt16_1 t⟩ (0 : Fin 1) l := by
    funext a
    apply Fin.ext
    match a with
    | ⟨0, _⟩ => show win1_4.index t (0 : Fin 3) * 1 + 1 * 0 = t.val; rw [e0]; omega
    | ⟨1, _⟩ => show win1_4.index t (1 : Fin 3) * 1 + 1 * 0 = 0; rw [e1]
    | ⟨2, _⟩ => show win1_4.index t (2 : Fin 3) * 128 + 1 * l.val = l.val; rw [e2]; omega
  rw [e] at h
  exact h

/-- The four input arrays are not written: after the run each holds what it held when the region was entered. -/
theorem arrAt1_0 {c : Dev nD} (dat : Dat τ (Elt F) Unit ℕ (UR sig nD τ) ℕ cfg1 c) : dat.arrAt 0 cfg1.N = dat.A 0 :=
  dat.arrAt_in 0 rfl _
theorem arrAt1_1 {c : Dev nD} (dat : Dat τ (Elt F) Unit ℕ (UR sig nD τ) ℕ cfg1 c) : dat.arrAt 1 cfg1.N = dat.A 1 :=
  dat.arrAt_in 1 rfl _
theorem arrAt1_2 {c : Dev nD} (dat : Dat τ (Elt F) Unit ℕ (UR sig nD τ) ℕ cfg1 c) : dat.arrAt 2 cfg1.N = dat.A 2 :=
  dat.arrAt_in 2 rfl _
theorem arrAt1_3 {c : Dev nD} (dat : Dat τ (Elt F) Unit ℕ (UR sig nD τ) ℕ cfg1 c) : dat.arrAt 3 cfg1.N = dat.A 3 :=
  dat.arrAt_in 3 rfl _

/-! ## Pipeline 2 -/

/-- A point of the grid is one of sixteen. -/
theorem lt16_2 (t : Fin cfg2.N) : t.val < 16 := lt_of_lt_of_eq t.isLt N_2

/-- The block indices at point `t`, decided once over the grid: windows 0, 2 and 4 sit at block `t` along the first axis,
    windows 1 and 3 at block 0. -/
theorem idx2 : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 3) = t.val ∧ win2_4.index t (1 : Fin 3) = 0 ∧ win2_4.index t (2 : Fin 3) = 0) :=
  (by decide +kernel : ∀ t : Fin grid2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 3) = t.val ∧ win2_4.index t (1 : Fin 3) = 0 ∧ win2_4.index t (2 : Fin 3) = 0))

/-- Window 0's block at point `t` is rows 512·t … 512·t + 511 of its array. -/
theorem blk2_0 (A : S8192x512.Idx → Elt F .bf16) (t : Fin cfg2.N) (r d : Fin 512) :
    ((cfg2.win 0).blk t).view.read (Elt F) A (ix2 r d)
      = A (ix2 ⟨512 * t.val + r.val, by have := lt16_2 t; omega⟩ d) := by
  obtain ⟨⟨e0, e1⟩, -⟩ := idx2 t
  rw [View.read_apply]
  show A _ = A _
  refine congrArg A (funext fun a => Fin.ext ?_)
  match a with
  | ⟨0, _⟩ => show win2_0.index t (0 : Fin 2) * 512 + 1 * r.val = 512 * t.val + r.val; rw [e0]; omega
  | ⟨1, _⟩ => show win2_0.index t (1 : Fin 2) * 512 + 1 * d.val = d.val; rw [e1]; omega

/-- Window 1's block at every point is its whole array. -/
theorem blk2_1 (A : S8192x512.Idx → Elt F .bf16) (t : Fin cfg2.N) (R : Fin 8192) (d : Fin 512) :
    ((cfg2.win 1).blk t).view.read (Elt F) A (ix2 R d) = A (ix2 R d) := by
  obtain ⟨-, ⟨e0, e1⟩, -⟩ := idx2 t
  rw [View.read_apply]
  show A _ = A _
  refine congrArg A (funext fun a => Fin.ext ?_)
  match a with
  | ⟨0, _⟩ => show win2_1.index t (0 : Fin 2) * 8192 + 1 * R.val = R.val; rw [e0]; omega
  | ⟨1, _⟩ => show win2_1.index t (1 : Fin 2) * 512 + 1 * d.val = d.val; rw [e1]; omega

/-- Window 2's block at point `t` is entries 512·t … 512·t + 511 of its column. -/
theorem blk2_2 (A : S8192x1.Idx → Elt F .f32) (t : Fin cfg2.N) (r : Fin 512) :
    ((cfg2.win 2).blk t).view.read (Elt F) A (ix2 r 0)
      = A (ix2 ⟨512 * t.val + r.val, by have := lt16_2 t; omega⟩ 0) := by
  obtain ⟨-, -, ⟨e0, e1⟩, -⟩ := idx2 t
  rw [View.read_apply]
  show A _ = A _
  refine congrArg A (funext fun a => Fin.ext ?_)
  match a with
  | ⟨0, _⟩ => show win2_2.index t (0 : Fin 2) * 512 + 1 * r.val = 512 * t.val + r.val; rw [e0]; omega
  | ⟨1, _⟩ => show win2_2.index t (1 : Fin 2) * 1 + 1 * 0 = 0; rw [e1]

/-- Window 3's block at every point is its whole row. -/
theorem blk2_3 (A : S1x8192.Idx → Elt F .f32) (t : Fin cfg2.N) (C : Fin 8192) :
    ((cfg2.win 3).blk t).view.read (Elt F) A (ix2 0 C) = A (ix2 0 C) := by
  obtain ⟨-, -, -, ⟨e0, e1⟩, -⟩ := idx2 t
  rw [View.read_apply]
  show A _ = A _
  refine congrArg A (funext fun a => Fin.ext ?_)
  match a with
  | ⟨0, _⟩ => show win2_3.index t (0 : Fin 2) * 1 + 1 * 0 = 0; rw [e0]
  | ⟨1, _⟩ => show win2_3.index t (1 : Fin 2) * 8192 + 1 * C.val = C.val; rw [e1]; omega

/-- Two different points' output blocks share no element: they sit at different places along the first axis. -/
theorem disj2_4 (t t' : Fin cfg2.N) (hne : t ≠ t') :
    Disjoint ((cfg2.win 4).blk t).view.set ((cfg2.win 4).blk t').view.set := by
  show Disjoint ((View.whole main_v18).slice (win2_4.rect t)).set ((View.whole main_v18).slice (win2_4.rect t')).set
  rw [View.set_slice_whole, View.set_slice_whole]
  refine Rect.unit_disjoint (0 : Fin 3) ?_
  show win2_4.index t (0 : Fin 3) * 1 + 1 ≤ win2_4.index t' (0 : Fin 3) * 1
    ∨ win2_4.index t' (0 : Fin 3) * 1 + 1 ≤ win2_4.index t (0 : Fin 3) * 1
  have h := (idx2 t).2.2.2.2.1
  have h' := (idx2 t').2.2.2.2.1
  have hv : t.val ≠ t'.val := fun e => hne (Fin.ext e)
  omega

/-- After the run, block `t` of the output array holds what point `t` wrote back, whatever the pipeline's proof data. -/
theorem arrAt2_4 {c : Dev nD} (dat : Dat τ (Elt F) Unit ℕ (UR sig nD τ) ℕ cfg2 c) (t : Fin cfg2.N) (l : Fin 128) :
    dat.arrAt 4 cfg2.N (ix3 ⟨t.val, lt16_2 t⟩ 0 l) = dat.after 4 t (ix3 0 0 l) := by
  obtain ⟨-, -, -, -, e0, e1, e2⟩ := idx2 t
  have h := dat.arrAt_emb_eq_flushed 4 (fun u u' _ _ hne => disj2_4 u u' hne) t (flush2_4 t) (ix3 0 0 l)
  have e : ((cfg2.win 4).blk t).view.emb (ix3 (0 : Fin 1) (0 : Fin 1) l) = ix3 ⟨t.val, lt16_2 t⟩ (0 : Fin 1) l := by
    funext a
    apply Fin.ext
    match a with
    | ⟨0, _⟩ => show win2_4.index t (0 : Fin 3) * 1 + 1 * 0 = t.val; rw [e0]; omega
    | ⟨1, _⟩ => show win2_4.index t (1 : Fin 3) * 1 + 1 * 0 = 0; rw [e1]
    | ⟨2, _⟩ => show win2_4.index t (2 : Fin 3) * 128 + 1 * l.val = l.val; rw [e2]; omega
  rw [e] at h
  exact h

/-- The four input arrays are not written: after the run each holds what it held when the region was entered. -/
theorem arrAt2_0 {c : Dev nD} (dat : Dat τ (Elt F) Unit ℕ (UR sig nD τ) ℕ cfg2 c) : dat.arrAt 0 cfg2.N = dat.A 0 :=
  dat.arrAt_in 0 rfl _
theorem arrAt2_1 {c : Dev nD} (dat : Dat τ (Elt F) Unit ℕ (UR sig nD τ) ℕ cfg2 c) : dat.arrAt 1 cfg2.N = dat.A 1 :=
  dat.arrAt_in 1 rfl _
theorem arrAt2_2 {c : Dev nD} (dat : Dat τ (Elt F) Unit ℕ (UR sig nD τ) ℕ cfg2 c) : dat.arrAt 2 cfg2.N = dat.A 2 :=
  dat.arrAt_in 2 rfl _
theorem arrAt2_3 {c : Dev nD} (dat : Dat τ (Elt F) Unit ℕ (UR sig nD τ) ℕ cfg2 c) : dat.arrAt 3 cfg2.N = dat.A 3 :=
  dat.arrAt_in 3 rfl _

end Cert.KernelIdeal.Hand

end
-- ==== Proof.HostValue.lean ====
/-
  The host side of the kernel's program, read at the ideal values.

  Before the first region the host squares the two argument arrays entry by entry, sums each row (from the
  zero word), repeats the 8192 row sums as a column [8192, 1] and, transposed, as a row [1, 8192], and
  converts the arguments to bf16 (the identity on extended reals). So the regions find the arguments
  themselves and the squared lengths of their rows, at every later stretch too: no later item writes those
  buffers. After each region the host takes lane 0 of the region's sixteen partial sums, flattens and sums
  them; last it divides the three sums by 2²⁶, the cross sum doubled first, and combines them.
-/
import proofs.«124713_j8907762171929_2_alg».proof.Proof.Gen.KernelIdeal.Regions
import proofs.«124713_j8907762171929_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Hand

open Idealize.ShloMosaic Idealize.ShloMosaic.TcCoe Idealize.ShloMosaic.StableHlo
open Cert.MMD Cert.KernelIdeal Idealize.ShloMosaic.ValueIdx

/-! ## The host's operations at an index -/

/-- Inserting the column coordinate into a row index of an 8192 × 512 array. -/
theorem lift_row (hR : S8192x512.Reduces [1] S8192) (R : Fin 8192) (k : Fin 512) : hR.lift (ix1 R) k = ix2 R k :=
  funext fun a => match a with
    | ⟨0, _⟩ => Fin.ext rfl
    | ⟨1, _⟩ => Fin.ext rfl

/-- The host's row sums of the squared entries, read at a row: the squared length of the row. -/
theorem rowSum_sq (a : Arr) (hT : S8192x512.ReducesTo [1] S8192) (h0 : 0 < S_.numel) (R : Fin 8192) :
    Host.reduceAdd (F := Ideal) (mulf (a : FVec Ideal S8192x512 .f32) a) (constant (F := Ideal) S_ .f32 0x00000000#32) hT h0 (ix1 R)
      = rowSq a R := by
  have hR : S8192x512.Reduces [1] S8192 := by decide
  rw [hostReduceAdd_apply]
  refine (Ideal.hostReduceAdd_single hT hR _ _ (ix1 R)).trans ?_
  rw [show (constant (F := Ideal) S_ .f32 0x00000000#32 (Shape.Idx.first h0)) = Ideal.ofBits .f32 0x00000000#32 from rfl,
    Ideal.ofBits_zero_f32, zero_add]
  unfold rowSq
  show (∑ k : Fin 512, (a (hR.lift (ix1 R) k) * a (hR.lift (ix1 R) k) : EReal)) = ∑ d : Fin 512, a (ix2 R d) * a (ix2 R d)
  refine Finset.sum_congr rfl fun k _ => ?_
  rw [lift_row hR R k]

/-- A vector of 8192 entries repeated as a column [8192, 1], read at a row. -/
theorem column_apply {α : Type} (x : S8192.Idx → α)
    (h : S8192.BroadcastsInDim S8192x1 (![0] : Fin S8192.rank → Fin S8192x1.rank)) (R : Fin 8192) (z : Fin 1) :
    broadcastInDim S8192x1 ![0] h x (ix2 R z) = x (ix1 R) :=
  broadcastInDim_apply _ h x (ix2 R z) (ix1 R) fun a => match a with
    | ⟨0, _⟩ => rfl

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A region's sixteen partial sums — lane 0 of each of the sixteen [1, 128] rows — sliced out, flattened and
    summed by the host from the zero word. -/
theorem partials_sum (X : S16x1x128.Idx → EReal) (hs : S16x1x128.Slices ![0, 0, 0] S16x1x1) (hc : S16x1x1.ShapeCasts S16)
    (hT : S16.ReducesTo [0] S_) (h0 : 0 < S_.numel) (j : S_.Idx) :
    Host.reduceAdd (F := Ideal) (shapeCast S16 (extractStridedSlice S16x1x1 ![0, 0, 0] X hs) hc : FVec Ideal S16 .f32)
        (constant (F := Ideal) S_ .f32 0x00000000#32) hT h0 j
      = ∑ t : Fin 16, X (ix3 t (0 : Fin 1) (0 : Fin 128)) := by
  rw [hostReduceAdd_apply]
  refine (Ideal.hostReduceAdd_total hT (fun b => b.elim0) _ _ j).trans ?_
  rw [show (constant (F := Ideal) S_ .f32 0x00000000#32 (Shape.Idx.first h0)) = Ideal.ofBits .f32 0x00000000#32 from rfl,
    Ideal.ofBits_zero_f32, zero_add]
  refine (sum_idx1 _).trans ?_
  refine Finset.sum_congr rfl fun t _ => ?_
  refine (shapeCast_apply _ hc (ix1 t) (ix3 t (0 : Fin 1) (0 : Fin 1)) ?_).trans ?_
  · rw [Shape.rowMajor_val_three, Shape.rowMajor_val_one]
    show (t.val * 1 + 0) * 1 + 0 = t.val
    omega
  · exact extractStridedSlice_apply _ X hs _ (ix3 t (0 : Fin 1) (0 : Fin 128)) fun a => match a with
      | ⟨0, _⟩ => (Nat.zero_add _).symm
      | ⟨1, _⟩ => (Nat.zero_add _).symm
      | ⟨2, _⟩ => (Nat.zero_add _).symm

variable (m : (ℓ : Loc nD τ sig) → Buf (Elt Ideal) ℓ) (outs : Gen.Outs (F := Ideal)) (c : Dev nD)

/-! ## What region 0 finds -/

/-- The first argument converted to bf16 is the argument. -/
theorem V1_v8 : (Gen.V1 m c main_v8 : S8192x512.Idx → EReal) = (m ((c : Thread nD τ).loc main_arg0) : S8192x512.Idx → EReal) := by
  show StableHlo.after Gen.hostOps0 _ (Proc.devRef .tc main_v8) = _
  after_results
  rfl

/-- The second argument converted to bf16 is the argument. -/
theorem V1_v9 : (Gen.V1 m c main_v9 : S8192x512.Idx → EReal) = (m ((c : Thread nD τ).loc main_arg1) : S8192x512.Idx → EReal) := by
  show StableHlo.after Gen.hostOps0 _ (Proc.devRef .tc main_v9) = _
  after_results
  rfl

/-- The column of the first argument's squared row lengths. -/
theorem V1_v2 (R : Fin 8192) :
    (Gen.V1 m c main_v2 : S8192x1.Idx → EReal) (ix2 R (0 : Fin 1)) = rowSq (m ((c : Thread nD τ).loc main_arg0)) R := by
  show StableHlo.after Gen.hostOps0 _ (Proc.devRef .tc main_v2) (ix2 R (0 : Fin 1)) = _
  after_results
  refine (column_apply _ _ R 0).trans ?_
  exact rowSum_sq _ _ _ R

/-- The column of the second argument's squared row lengths. -/
theorem V1_v5 (R : Fin 8192) :
    (Gen.V1 m c main_v5 : S8192x1.Idx → EReal) (ix2 R (0 : Fin 1)) = rowSq (m ((c : Thread nD τ).loc main_arg1)) R := by
  show StableHlo.after Gen.hostOps0 _ (Proc.devRef .tc main_v5) (ix2 R (0 : Fin 1)) = _
  after_results
  refine (column_apply _ _ R 0).trans ?_
  exact rowSum_sq _ _ _ R

/-- The row of the first argument's squared row lengths: the column transposed. -/
theorem V1_v6 (C : Fin 8192) :
    (Gen.V1 m c main_v6 : S1x8192.Idx → EReal) (ix2 (0 : Fin 1) C) = rowSq (m ((c : Thread nD τ).loc main_arg0)) C := by
  show StableHlo.after Gen.hostOps0 _ (Proc.devRef .tc main_v6) (ix2 (0 : Fin 1) C) = _
  after_results
  refine (transpose_ix2_apply _ _ (0 : Fin 1) C).trans ?_
  refine (column_apply _ _ C 0).trans ?_
  exact rowSum_sq _ _ _ C

/-- The row of the second argument's squared row lengths: the column transposed. -/
theorem V1_v7 (C : Fin 8192) :
    (Gen.V1 m c main_v7 : S1x8192.Idx → EReal) (ix2 (0 : Fin 1) C) = rowSq (m ((c : Thread nD τ).loc main_arg1)) C := by
  show StableHlo.after Gen.hostOps0 _ (Proc.devRef .tc main_v7) (ix2 (0 : Fin 1) C) = _
  after_results
  refine (transpose_ix2_apply _ _ (0 : Fin 1) C).trans ?_
  refine (column_apply _ _ C 0).trans ?_
  exact rowSum_sq _ _ _ C

/-! ## What regions 1 and 2 find

Region 0 may change only its output array and the stretch after it writes only its own results, so the second
region finds the same six buffers; likewise the third. -/

theorem V3_v8 : (Gen.V3 m outs c main_v8 : S8192x512.Idx → EReal) = ((m ((c : Thread nD τ).loc main_arg0)) : S8192x512.Idx → EReal) :=
  ((Gen.V3_of m outs c main_v8 (by decide)).trans ((Gen.V2_of m outs c main_v8 (by decide)).trans (V1_v8 m c)))

theorem V3_v9 : (Gen.V3 m outs c main_v9 : S8192x512.Idx → EReal) = ((m ((c : Thread nD τ).loc main_arg1)) : S8192x512.Idx → EReal) :=
  ((Gen.V3_of m outs c main_v9 (by decide)).trans ((Gen.V2_of m outs c main_v9 (by decide)).trans (V1_v9 m c)))

theorem V3_v2 (R : Fin 8192) :
    (Gen.V3 m outs c main_v2 : S8192x1.Idx → EReal) (ix2 R (0 : Fin 1)) = rowSq (m ((c : Thread nD τ).loc main_arg0)) R := by
  rw [Gen.V3_of m outs c main_v2 (by decide), Gen.V2_of m outs c main_v2 (by decide)]
  exact V1_v2 m c R

theorem V3_v6 (C : Fin 8192) :
    (Gen.V3 m outs c main_v6 : S1x8192.Idx → EReal) (ix2 (0 : Fin 1) C) = rowSq (m ((c : Thread nD τ).loc main_arg0)) C := by
  rw [Gen.V3_of m outs c main_v6 (by decide), Gen.V2_of m outs c main_v6 (by decide)]
  exact V1_v6 m c C

theorem V3_v5 (R : Fin 8192) :
    (Gen.V3 m outs c main_v5 : S8192x1.Idx → EReal) (ix2 R (0 : Fin 1)) = rowSq (m ((c : Thread nD τ).loc main_arg1)) R := by
  rw [Gen.V3_of m outs c main_v5 (by decide), Gen.V2_of m outs c main_v5 (by decide)]
  exact V1_v5 m c R

theorem V3_v7 (C : Fin 8192) :
    (Gen.V3 m outs c main_v7 : S1x8192.Idx → EReal) (ix2 (0 : Fin 1) C) = rowSq (m ((c : Thread nD τ).loc main_arg1)) C := by
  rw [Gen.V3_of m outs c main_v7 (by decide), Gen.V2_of m outs c main_v7 (by decide)]
  exact V1_v7 m c C

theorem V5_v8 : (Gen.V5 m outs c main_v8 : S8192x512.Idx → EReal) = ((m ((c : Thread nD τ).loc main_arg0)) : S8192x512.Idx → EReal) :=
  ((Gen.V5_of m outs c main_v8 (by decide)).trans ((Gen.V4_of m outs c main_v8 (by decide)).trans (V3_v8 m outs c)))

theorem V5_v9 : (Gen.V5 m outs c main_v9 : S8192x512.Idx → EReal) = ((m ((c : Thread nD τ).loc main_arg1)) : S8192x512.Idx → EReal) :=
  ((Gen.V5_of m outs c main_v9 (by decide)).trans ((Gen.V4_of m outs c main_v9 (by decide)).trans (V3_v9 m outs c)))

theorem V5_v2 (R : Fin 8192) :
    (Gen.V5 m outs c main_v2 : S8192x1.Idx → EReal) (ix2 R (0 : Fin 1)) = rowSq (m ((c : Thread nD τ).loc main_arg0)) R := by
  rw [Gen.V5_of m outs c main_v2 (by decide), Gen.V4_of m outs c main_v2 (by decide)]
  exact V3_v2 m outs c R

theorem V5_v6 (C : Fin 8192) :
    (Gen.V5 m outs c main_v6 : S1x8192.Idx → EReal) (ix2 (0 : Fin 1) C) = rowSq (m ((c : Thread nD τ).loc main_arg0)) C := by
  rw [Gen.V5_of m outs c main_v6 (by decide), Gen.V4_of m outs c main_v6 (by decide)]
  exact V3_v6 m outs c C

theorem V5_v5 (R : Fin 8192) :
    (Gen.V5 m outs c main_v5 : S8192x1.Idx → EReal) (ix2 R (0 : Fin 1)) = rowSq (m ((c : Thread nD τ).loc main_arg1)) R := by
  rw [Gen.V5_of m outs c main_v5 (by decide), Gen.V4_of m outs c main_v5 (by decide)]
  exact V3_v5 m outs c R

theorem V5_v7 (C : Fin 8192) :
    (Gen.V5 m outs c main_v7 : S1x8192.Idx → EReal) (ix2 (0 : Fin 1) C) = rowSq (m ((c : Thread nD τ).loc main_arg1)) C := by
  rw [Gen.V5_of m outs c main_v7 (by decide), Gen.V4_of m outs c main_v7 (by decide)]
  exact V3_v7 m outs c C

/-! ## The result -/

/-- What region 0 leaves in its output array is what the next stretch reads there. -/
theorem V2_v10 : Gen.V2 m outs c main_v10 = outs 2 main_v10 c := Function.update_self _ _ _
/-- Region 1's output array likewise. -/
theorem V4_v14 : Gen.V4 m outs c main_v14 = outs 4 main_v14 c := Function.update_self _ _ _
/-- Region 2's output array likewise. -/
theorem V6_v18 : Gen.V6 m outs c main_v18 = outs 6 main_v18 c := Function.update_self _ _ _

/-- The first sum: region 0's sixteen partial sums added up. -/
theorem V3_v13 (j : S_.Idx) :
    (Gen.V3 m outs c main_v13 : S_.Idx → EReal) j
      = (∑ t : Fin 16, (outs 2 main_v10 c) (ix3 t (0 : Fin 1) (0 : Fin 128)) : EReal) := by
  show StableHlo.after Gen.hostOps1 _ (Proc.devRef .tc main_v13) j = _
  after_results
  rw [V2_v10]
  exact partials_sum _ _ _ _ _ j

/-- The second sum: region 1's sixteen partial sums added up. -/
theorem V5_v17 (j : S_.Idx) :
    (Gen.V5 m outs c main_v17 : S_.Idx → EReal) j
      = (∑ t : Fin 16, (outs 4 main_v14 c) (ix3 t (0 : Fin 1) (0 : Fin 128)) : EReal) := by
  show StableHlo.after Gen.hostOps2 _ (Proc.devRef .tc main_v17) j = _
  after_results
  rw [V4_v14]
  exact partials_sum _ _ _ _ _ j

/-- The first sum reaches the last stretch: no item in between writes it. -/
theorem V6_v13 (j : S_.Idx) :
    (Gen.V6 m outs c main_v13 : S_.Idx → EReal) j
      = (∑ t : Fin 16, (outs 2 main_v10 c) (ix3 t (0 : Fin 1) (0 : Fin 128)) : EReal) := by
  rw [Gen.V6_of m outs c main_v13 (by decide), Gen.V5_of m outs c main_v13 (by decide), Gen.V4_of m outs c main_v13 (by decide)]
  exact V3_v13 m outs c j

/-- The second sum reaches the last stretch. -/
theorem V6_v17 (j : S_.Idx) :
    (Gen.V6 m outs c main_v17 : S_.Idx → EReal) j
      = (∑ t : Fin 16, (outs 4 main_v14 c) (ix3 t (0 : Fin 1) (0 : Fin 128)) : EReal) := by
  rw [Gen.V6_of m outs c main_v17 (by decide)]
  exact V5_v17 m outs c j

/-- The program's result: the three sums, each divided by 2²⁶ — the cross sum doubled first —, the first two
    added and the third subtracted. -/
theorem V7_result :
    (Gen.V7 m outs c main_v27 : S_.Idx → EReal) = fun _ =>
      (Ideal.div (∑ t : Fin 16, (outs 2 main_v10 c) (ix3 t (0 : Fin 1) (0 : Fin 128))) wCount
          + Ideal.div (∑ t : Fin 16, (outs 4 main_v14 c) (ix3 t (0 : Fin 1) (0 : Fin 128))) wCount)
        - Ideal.div (wTwo * (∑ t : Fin 16, (outs 6 main_v18 c) (ix3 t (0 : Fin 1) (0 : Fin 128)) : EReal)) wCount := by
  funext j
  show StableHlo.after Gen.hostOps3 _ (Proc.devRef .tc main_v27) j = _
  after_results
  rw [V6_v18]
  have e1 := V6_v13 m outs c j
  have e2 := V6_v17 m outs c j
  have e3 := partials_sum (outs 6 main_v18 c) Gen.slices_S16x1x128_S16x1x1_0_0_0 Gen.shapeCasts_S16x1x1_S16
    Gen.reducesTo_S16_S_d0 Gen.h_S_ j
  exact congrArg₂ (· - ·)
    (congrArg₂ (· + ·) (congrArg (Ideal.div · wCount) e1) (congrArg (Ideal.div · wCount) e2))
    (congrArg (fun x => Ideal.div (wTwo * x) wCount) e3)

end Cert.KernelIdeal.Hand

end
-- ==== Proof.KIValue.lean ====
/-
  The value each grid point stores, as the specification's band.

  A grid point's body stores, on every lane of its [1, 1, 128] block, the running sum its sixteen-trip loop carries
  out: the sum over the sixteen tiles, the 512 rows of the point's band and the 512 columns of a tile, of 1 where
  the global row and column numbers agree (in the two self-similarity sums) and the Gaussian of the squared
  distance elsewhere, read off the four blocks the point finds.  Those blocks are the band's 512 rows of the first
  array, the whole second array, and the squared lengths of the band's rows and of all the second array's rows.
  Term by term this is the specification's band: its sixteen tiles, each row summed first.
-/
import proofs.«124713_j8907762171929_2_alg».proof.Proof.KIOut
import proofs.«124713_j8907762171929_2_alg».proof.Proof.KIVals
import proofs.«124713_j8907762171929_2_alg».proof.Proof.KILoopValue
import proofs.«124713_j8907762171929_2_alg».proof.Proof.KILoopValue1
import proofs.«124713_j8907762171929_2_alg».proof.Proof.KILoopValue2
import proofs.«124713_j8907762171929_2_alg».proof.Proof.TileValue
import proofs.«124713_j8907762171929_2_alg».proof.Proof.KIBlocks
import proofs.«124713_j8907762171929_2_alg».proof.Proof.HostValue
import proofs.«124713_j8907762171929_2_alg».proof.Proof.Spec

noncomputable section

namespace Cert.KernelIdeal.Hand

open Idealize.ShloMosaic Idealize.ShloMosaic.ValueIdx Idealize.ShloMosaic.TcCoe
open Idealize.SL Idealize.SL.Sem
open Cert.MMD Cert.KernelIdeal Cert.KernelIdeal.Gen

/-! ## The loop's total against the specification's band -/

/-- The total of a self-similarity loop, over blocks that read the band's rows of `x`, all of `y` and their squared
    row lengths, is the specification's masked band: the diagonal test on the global row and column numbers is the
    test that the two rows of the whole array are the same row. -/
theorem band_masked (x y : Arr) (T : Fin 16) (i0 : ℕ) (hi : i0 = T.val)
    (X0 : Vec Ideal S512x512 .bf16) (Y : Vec Ideal S8192x512 .bf16) (Xn : Vec Ideal S512x1 .f32) (Yn : Vec Ideal S1x8192 .f32)
    (h0 : ∀ (r d : Fin 512), X0 (ix2 r d) = x (ix2 (bandRow T r) d))
    (h1 : ∀ (R : Fin 8192) (d : Fin 512), Y (ix2 R d) = y (ix2 R d))
    (h2 : ∀ r : Fin 512, Xn (ix2 r 0) = rowSq x (bandRow T r))
    (h3 : ∀ C : Fin 8192, Yn (ix2 0 C) = rowSq y C) :
    (∑ k : Fin 16, ∑ r : Fin 512, ∑ c' : Fin 512,
        (if 512 * i0 + r.val = 512 * k.val + c'.val then wOne
         else Ideal.exp (((Xn (ix2 r 0) + Yn (ix2 0 ⟨512 * k.val + c'.val, by omega⟩))
            - wTwo * ∑ d : Fin 512, X0 (ix2 r d) * Y (ix2 ⟨512 * k.val + c'.val, by omega⟩ d)) * wNegHalf)))
      = kBand true x y T := by
  subst hi
  unfold kBand kTile kEntry Cert.MMD.dist gram
  refine Finset.sum_congr rfl fun k _ => Finset.sum_congr rfl fun r _ => Finset.sum_congr rfl fun c' _ => ?_
  refine if_congr ⟨fun h => ⟨rfl, Fin.ext h⟩, fun h => congrArg Fin.val h.2⟩ rfl ?_
  exact congrArg (fun t => Ideal.exp (t * wNegHalf))
    (congrArg₂ (fun u s => u - wTwo * s) (congrArg₂ (· + ·) (h2 r) (h3 (bandRow k c')))
      (Finset.sum_congr rfl fun d _ => congrArg₂ (· * ·) (h0 r d) (h1 (bandRow k c') d)))

/-- The total of the cross loop likewise is the specification's unmasked band. -/
theorem band_plain (x y : Arr) (T : Fin 16)
    (X0 : Vec Ideal S512x512 .bf16) (Y : Vec Ideal S8192x512 .bf16) (Xn : Vec Ideal S512x1 .f32) (Yn : Vec Ideal S1x8192 .f32)
    (h0 : ∀ (r d : Fin 512), X0 (ix2 r d) = x (ix2 (bandRow T r) d))
    (h1 : ∀ (R : Fin 8192) (d : Fin 512), Y (ix2 R d) = y (ix2 R d))
    (h2 : ∀ r : Fin 512, Xn (ix2 r 0) = rowSq x (bandRow T r))
    (h3 : ∀ C : Fin 8192, Yn (ix2 0 C) = rowSq y C) :
    (∑ k : Fin 16, ∑ r : Fin 512, ∑ c' : Fin 512,
        (Ideal.exp (((Xn (ix2 r 0) + Yn (ix2 0 ⟨512 * k.val + c'.val, by omega⟩))
            - wTwo * ∑ d : Fin 512, X0 (ix2 r d) * Y (ix2 ⟨512 * k.val + c'.val, by omega⟩ d)) * wNegHalf)))
      = kBand false x y T := by
  unfold kBand kTile kEntry Cert.MMD.dist gram
  refine Finset.sum_congr rfl fun k _ => Finset.sum_congr rfl fun r _ => Finset.sum_congr rfl fun c' _ => ?_
  rw [if_neg (fun h => Bool.noConfusion h.1)]
  exact congrArg (fun t => Ideal.exp (t * wNegHalf))
    (congrArg₂ (fun u s => u - wTwo * s) (congrArg₂ (· + ·) (h2 r) (h3 (bandRow k c')))
      (Finset.sum_congr rfl fun d _ => congrArg₂ (· * ·) (h0 r d) (h1 (bandRow k c') d)))

variable (m : (ℓ : Loc nD τ sig) → Buf (Elt Ideal) ℓ) (outs : Gen.Outs (F := Ideal)) (c : Dev nD)

/-! ## Pipeline 0 -/

/-- The grid point's one coordinate is its number. -/
theorem coord0 : ∀ t : Fin cfg0.N, ((grid0.coords t) 0).val = t.val :=
  (by decide +kernel : ∀ t : Fin grid0.N, ((grid0.coords t) 0).val = t.val)

/-- What grid point `t` of pipeline 0 stores, on every lane: the specification's band `t` of the array's
    self-similarity sum. -/
theorem out0_value (t : Fin cfg0.N) (l : Fin 128) :
    out0 (F := Ideal) (VV1 m) c t (ix3 0 0 l)
      = kBand true (m ((c : Thread nD τ).loc main_arg0)) (m ((c : Thread nD τ).loc main_arg0)) ⟨t.val, lt16_0 t⟩ := by
  have hz : (![0, 0, 0] : Fin 3 → ℕ) = fun _ => 0 := funext fun a => match a with
    | ⟨0, _⟩ => rfl
    | ⟨1, _⟩ => rfl
    | ⟨2, _⟩ => rfl
  unfold out0 outv0
  refine (congrFun (View.canon_unit_zero hz _ _) (ix3 0 0 l)).trans ?_
  refine (pay3_0 _ (ix3 0 0 l)).trans ?_
  unfold tot0
  refine (st0_total Variants.none c none (grid0.coords t) (ms0_0 t) (hs0_0 t) (ms0_1 t) (hs0_1 t) (ms0_2 t) (hs0_2 t)
    (ms0_3 t) (hs0_3 t) (ms0_4 t) (hs0_4 t) (iblk0 (VV1 m) c 0 t) (iblk0 (VV1 m) c 1 t) (iblk0 (VV1 m) c 2 t)
    (iblk0 (VV1 m) c 3 t) (ix2 0 0)).trans ?_
  refine band_masked (m ((c : Thread nD τ).loc main_arg0)) (m ((c : Thread nD τ).loc main_arg0)) ⟨t.val, lt16_0 t⟩ _ (coord0 t) _ _ _ _ ?_ ?_ ?_ ?_
  · intro r d
    exact (blk0_0 (F := Ideal) (Gen.V1 m c main_v8) t r d).trans (congrFun (V1_v8 m c) _)
  · intro R d
    exact (blk0_1 (F := Ideal) (Gen.V1 m c main_v8) t R d).trans (congrFun (V1_v8 m c) _)
  · intro r
    exact (blk0_2 (F := Ideal) (Gen.V1 m c main_v2) t r).trans (V1_v2 m c _)
  · intro C
    exact (blk0_3 (F := Ideal) (Gen.V1 m c main_v6) t C).trans (V1_v6 m c C)

/-! ## Pipeline 1 -/

/-- The grid point's one coordinate is its number. -/
theorem coord1 : ∀ t : Fin cfg1.N, ((grid1.coords t) 0).val = t.val :=
  (by decide +kernel : ∀ t : Fin grid1.N, ((grid1.coords t) 0).val = t.val)

/-- What grid point `t` of pipeline 1 stores, on every lane: the specification's band `t` of the array's
    self-similarity sum. -/
theorem out1_value (t : Fin cfg1.N) (l : Fin 128) :
    out1 (F := Ideal) (VV3 m outs) c t (ix3 0 0 l)
      = kBand true (m ((c : Thread nD τ).loc main_arg1)) (m ((c : Thread nD τ).loc main_arg1)) ⟨t.val, lt16_1 t⟩ := by
  have hz : (![0, 0, 0] : Fin 3 → ℕ) = fun _ => 0 := funext fun a => match a with
    | ⟨0, _⟩ => rfl
    | ⟨1, _⟩ => rfl
    | ⟨2, _⟩ => rfl
  unfold out1 outv1
  refine (congrFun (View.canon_unit_zero hz _ _) (ix3 0 0 l)).trans ?_
  refine (pay3_1 _ (ix3 0 0 l)).trans ?_
  unfold tot1
  refine (st1_total Variants.none c none (grid1.coords t) (ms1_0 t) (hs1_0 t) (ms1_1 t) (hs1_1 t) (ms1_2 t) (hs1_2 t)
    (ms1_3 t) (hs1_3 t) (ms1_4 t) (hs1_4 t) (iblk1 (VV3 m outs) c 0 t) (iblk1 (VV3 m outs) c 1 t) (iblk1 (VV3 m outs) c 2 t)
    (iblk1 (VV3 m outs) c 3 t) (ix2 0 0)).trans ?_
  refine band_masked (m ((c : Thread nD τ).loc main_arg1)) (m ((c : Thread nD τ).loc main_arg1)) ⟨t.val, lt16_1 t⟩ _ (coord1 t) _ _ _ _ ?_ ?_ ?_ ?_
  · intro r d
    exact (blk1_0 (F := Ideal) (Gen.V3 m outs c main_v9) t r d).trans (congrFun (V3_v9 m outs c) _)
  · intro R d
    exact (blk1_1 (F := Ideal) (Gen.V3 m outs c main_v9) t R d).trans (congrFun (V3_v9 m outs c) _)
  · intro r
    exact (blk1_2 (F := Ideal) (Gen.V3 m outs c main_v5) t r).trans (V3_v5 m outs c _)
  · intro C
    exact (blk1_3 (F := Ideal) (Gen.V3 m outs c main_v7) t C).trans (V3_v7 m outs c C)

/-! ## Pipeline 2 -/

/-- The grid point's one coordinate is its number. -/
theorem coord2 : ∀ t : Fin cfg2.N, ((grid2.coords t) 0).val = t.val :=
  (by decide +kernel : ∀ t : Fin grid2.N, ((grid2.coords t) 0).val = t.val)

/-- What grid point `t` of pipeline 2 stores, on every lane: the specification's band `t` of the cross sum. -/
theorem out2_value (t : Fin cfg2.N) (l : Fin 128) :
    out2 (F := Ideal) (VV5 m outs) c t (ix3 0 0 l)
      = kBand false (m ((c : Thread nD τ).loc main_arg0)) (m ((c : Thread nD τ).loc main_arg1)) ⟨t.val, lt16_2 t⟩ := by
  have hz : (![0, 0, 0] : Fin 3 → ℕ) = fun _ => 0 := funext fun a => match a with
    | ⟨0, _⟩ => rfl
    | ⟨1, _⟩ => rfl
    | ⟨2, _⟩ => rfl
  unfold out2 outv2
  refine (congrFun (View.canon_unit_zero hz _ _) (ix3 0 0 l)).trans ?_
  refine (pay3_2 _ (ix3 0 0 l)).trans ?_
  unfold tot2
  refine (st2_total Variants.none c none (grid2.coords t) (ms2_0 t) (hs2_0 t) (ms2_1 t) (hs2_1 t) (ms2_2 t) (hs2_2 t)
    (ms2_3 t) (hs2_3 t) (ms2_4 t) (hs2_4 t) (iblk2 (VV5 m outs) c 0 t) (iblk2 (VV5 m outs) c 1 t) (iblk2 (VV5 m outs) c 2 t)
    (iblk2 (VV5 m outs) c 3 t) (ix2 0 0)).trans ?_
  refine band_plain (m ((c : Thread nD τ).loc main_arg0)) (m ((c : Thread nD τ).loc main_arg1)) ⟨t.val, lt16_2 t⟩ _ _ _ _ ?_ ?_ ?_ ?_
  · intro r d
    exact (blk2_0 (F := Ideal) (Gen.V5 m outs c main_v8) t r d).trans (congrFun (V5_v8 m outs c) _)
  · intro R d
    exact (blk2_1 (F := Ideal) (Gen.V5 m outs c main_v9) t R d).trans (congrFun (V5_v9 m outs c) _)
  · intro r
    exact (blk2_2 (F := Ideal) (Gen.V5 m outs c main_v2) t r).trans (V5_v2 m outs c _)
  · intro C
    exact (blk2_3 (F := Ideal) (Gen.V5 m outs c main_v7) t C).trans (V5_v7 m outs c C)

end Cert.KernelIdeal.Hand

end
-- ==== Proof.KIFinal.lean ====
/-
  The kernel program's result is the specification.

  The program's last host stretch divides three sums by 2²⁶ — the cross sum doubled first — and combines them.
  Each sum adds up lane 0 of the sixteen [1, 128] blocks one region left in its output array; block t of that array
  is what grid point t wrote back, and what point t wrote is, on every lane, the total of band t of the region's
  Gaussian-kernel matrix: its sixteen 512×512 tiles.  So the three sums are the three matrices summed band by band,
  and the result is the specification's value at the two argument arrays.
-/
import proofs.«124713_j8907762171929_2_alg».proof.Proof.KIMain
import proofs.«124713_j8907762171929_2_alg».proof.Proof.KIBody
import proofs.«124713_j8907762171929_2_alg».proof.Proof.KIValue
import proofs.«124713_j8907762171929_2_alg».proof.Proof.KIBlocks
import proofs.«124713_j8907762171929_2_alg».proof.Proof.HostValue
import proofs.«124713_j8907762171929_2_alg».proof.Proof.Spec

noncomputable section

namespace Cert.KernelIdeal.Hand

open Idealize.ShloMosaic Idealize.ShloMosaic.TcCoe
open Idealize.ShloMosaic.Pipeline (Dat)
open Cert.MMD Cert.KernelIdeal Cert.KernelIdeal.Gen Idealize.ShloMosaic.ValueIdx

variable (m : (ℓ : Loc nD τ sig) → Buf (Elt Ideal) ℓ) (c : Dev nD)

/-- Lane 0 of block `t` of what region 0 leaves: band `t` of the first array's self-similarity sum. -/
theorem partial0 (t : Fin 16) :
    (outsC m 2 main_v10 c) (ix3 t (0 : Fin 1) (0 : Fin 128))
      = kBand true (m ((c : Thread nD τ).loc main_arg0)) (m ((c : Thread nD τ).loc main_arg0)) t := by
  have h := arrAt0_4 (dat0 (VV1 m) c) (Fin.cast N_0.symm t) (0 : Fin 128)
  rw [after0_4, out0_value] at h
  exact (congrFun (outsC_2 m c) _).trans h

/-- Lane 0 of block `t` of what region 1 leaves: band `t` of the second array's self-similarity sum. -/
theorem partial1 (t : Fin 16) :
    (outsC m 4 main_v14 c) (ix3 t (0 : Fin 1) (0 : Fin 128))
      = kBand true (m ((c : Thread nD τ).loc main_arg1)) (m ((c : Thread nD τ).loc main_arg1)) t := by
  have h := arrAt1_4 (dat1 (VV3 m (outsC m)) c) (Fin.cast N_1.symm t) (0 : Fin 128)
  rw [after1_4, out1_value] at h
  have R := outsC_4 m c
  rw [VV3_AC] at R
  exact (congrFun R _).trans h

/-- Lane 0 of block `t` of what region 2 leaves: band `t` of the cross sum. -/
theorem partial2 (t : Fin 16) :
    (outsC m 6 main_v18 c) (ix3 t (0 : Fin 1) (0 : Fin 128))
      = kBand false (m ((c : Thread nD τ).loc main_arg0)) (m ((c : Thread nD τ).loc main_arg1)) t := by
  have h := arrAt2_4 (dat2 (VV5 m (outsC m)) c) (Fin.cast N_2.symm t) (0 : Fin 128)
  rw [after2_4, out2_value] at h
  have R := outsC_6 m c
  rw [VV5_BC] at R
  exact (congrFun R _).trans h

/-- The result buffer's last contents: the specification at the two argument arrays. -/
theorem result_value :
    (Gen.V7 m (outsC m) c main_v27 : S_.Idx → EReal)
      = fun _ => kernelSpec (m ((c : Thread nD τ).loc main_arg0)) (m ((c : Thread nD τ).loc main_arg1)) := by
  rw [V7_result m (outsC m) c]
  funext _
  unfold kernelSpec kSum
  exact congrArg₂ (· - ·)
    (congrArg₂ (· + ·) (congrArg (Ideal.div · wCount) (Finset.sum_congr rfl fun t _ => partial0 m c t))
      (congrArg (Ideal.div · wCount) (Finset.sum_congr rfl fun t _ => partial1 m c t)))
    (congrArg (fun x => Ideal.div (wTwo * x) wCount) (Finset.sum_congr rfl fun t _ => partial2 m c t))

end Cert.KernelIdeal.Hand

end
-- ==== Proof.RefValue.lean ====
/-
  The reference's run, read as the specification.

  The reference computes three Gaussian-kernel matrices by the same nineteen operations — of the first array with
  itself, of the second with itself, and of the first with the second: the row sums of squares |x_R|² (a sum over the
  512 columns starting from the zero word), broadcast along columns and, transposed, along rows, and added; the product
  of one array with the other's transpose, entry (R, C) the inner product ⟨x_R, y_C⟩; twice that subtracted; the
  difference negated, divided by the word 2.0, and exponentiated.  So entry (R, C) is exp((−dist x y R C)/2), and the
  first two matrices are the third at a repeated argument.  Each matrix is summed over both axes from the zero word —
  a sum over all index pairs, regrouped as a sum over rows of sums over columns —, divided by the word 2²⁶; the first
  two quotients are added and twice the third subtracted.  No float word other than zero is evaluated.
-/
import proofs.«124713_j8907762171929_2_alg».proof.Proof.Gen.ReferenceIdeal.Read
import proofs.«124713_j8907762171929_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Idealize.ShloMosaic.TcCoe Idealize.SL.Sem Cert.MMD

/-- The three Gaussian-kernel matrices are one function of a pair of arrays: the first two are the third at a
    repeated argument. -/
theorem v18_eq (x : Arr) : val_main_v18 (F := Ideal) x = val_main_v56 (F := Ideal) x x := rfl
theorem v37_eq (x : Arr) : val_main_v37 (F := Ideal) x = val_main_v56 (F := Ideal) x x := rfl

/-- The row sums of squares: with the zero word as initial value, the sum over the row of the squares. -/
theorem v39_at (x : Arr) (R : Fin 8192) : val_main_v39 (F := Ideal) x (ix1 R) = rowSq x R := by
  rw [val_main_v39_apply]
  show Ideal.ofBits .f32 0x00000000#32 + _ = _
  rw [Ideal.ofBits_zero_f32, zero_add]
  unfold rowSq
  refine Finset.sum_congr rfl fun k _ => ?_
  show x (idx_main_v39 (ix1 R) k) * x (idx_main_v39 (ix1 R) k) = _
  have e : idx_main_v39 (ix1 R) k = ix2 R k := funext fun a => Fin.ext (by match a with | ⟨0, _⟩ => rfl | ⟨1, _⟩ => rfl)
  rw [e]

theorem v42_at (y : Arr) (C : Fin 8192) : val_main_v42 (F := Ideal) y (ix1 C) = rowSq y C := by
  rw [val_main_v42_apply]
  show Ideal.ofBits .f32 0x00000000#32 + _ = _
  rw [Ideal.ofBits_zero_f32, zero_add]
  unfold rowSq
  refine Finset.sum_congr rfl fun k _ => ?_
  show y (idx_main_v42 (ix1 C) k) * y (idx_main_v42 (ix1 C) k) = _
  have e : idx_main_v42 (ix1 C) k = ix2 C k := funext fun a => Fin.ext (by match a with | ⟨0, _⟩ => rfl | ⟨1, _⟩ => rfl)
  rw [e]

/-- The row norms broadcast along the columns: entry (R, C) reads row R's. -/
theorem v45_at (x : Arr) (R C : Fin 8192) : val_main_v45 (F := Ideal) x (ix2 R C) = rowSq x R := by
  rw [val_main_v45_apply, val_main_v40_apply]
  have e : idx_main_v40 (idx_main_v45 (ix2 R C)) = ix1 R := funext fun a => Fin.ext (by match a with | ⟨0, _⟩ => rfl)
  rw [e, v39_at]

/-- The transposed row norms broadcast along the rows: entry (R, C) reads row C's. -/
theorem v46_at (y : Arr) (R C : Fin 8192) : val_main_v46 (F := Ideal) y (ix2 R C) = rowSq y C := by
  rw [val_main_v46_apply, val_main_v44_apply, val_main_v43_apply]
  have e : idx_main_v43 (idx_main_v44 (idx_main_v46 (ix2 R C))) = ix1 C := funext fun a => Fin.ext (by match a with | ⟨0, _⟩ => rfl)
  rw [e, v42_at]

/-- The product with the transposed array: entry (R, C) is the inner product of row R and row C. -/
theorem v49_at (x y : Arr) (R C : Fin 8192) : val_main_v49 (F := Ideal) x y (ix2 R C) = gram x y R C := by
  rw [val_main_v49_apply]
  unfold gram
  refine Finset.sum_congr rfl fun k _ => ?_
  rw [val_main_v48_apply]
  have el : lidx_main_v49 (ix2 R C) k = ix2 R k := funext fun a => Fin.ext (by match a with | ⟨0, _⟩ => rfl | ⟨1, _⟩ => rfl)
  have er : idx_main_v48 (ridx_main_v49 (ix2 R C) k) = ix2 C k := funext fun a => Fin.ext (by match a with | ⟨0, _⟩ => rfl | ⟨1, _⟩ => rfl)
  rw [el, er]

/-- Entry (R, C) of the Gaussian-kernel matrix of a pair of arrays. -/
theorem v56_at (x y : Arr) (R C : Fin 8192) : val_main_v56 (F := Ideal) x y (ix2 R C) = rEntry x y R C := by
  rw [val_main_v56_apply, val_main_v55_apply, val_main_v53_apply, val_main_v52_apply, val_main_v47_apply, val_main_v51_apply,
    val_main_v54_apply, val_main_v50_apply, v45_at, v46_at, v49_at]
  rfl

/-- The sum of a Gaussian-kernel matrix over both axes, with the zero word as initial value: the sum over all pairs,
    regrouped by rows then columns. -/
theorem v62_at (x y : Arr) (i : S_.Idx) : val_main_v62 (F := Ideal) x y i = rSum x y := by
  rw [val_main_v62_apply]
  show Ideal.ofBits .f32 0x00000000#32 + _ = _
  rw [Ideal.ofBits_zero_f32, zero_add, sum_idx2]
  unfold rSum
  exact Finset.sum_congr rfl fun R _ => Finset.sum_congr rfl fun C _ => v56_at x y R C

theorem v57_at (x : Arr) (i : S_.Idx) : val_main_v57 (F := Ideal) x i = rSum x x := by
  rw [val_main_v57_apply, v18_eq]
  show Ideal.ofBits .f32 0x00000000#32 + _ = _
  rw [Ideal.ofBits_zero_f32, zero_add, sum_idx2]
  unfold rSum
  exact Finset.sum_congr rfl fun R _ => Finset.sum_congr rfl fun C _ => v56_at x x R C

theorem v59_at (x : Arr) (i : S_.Idx) : val_main_v59 (F := Ideal) x i = rSum x x := by
  rw [val_main_v59_apply, v37_eq]
  show Ideal.ofBits .f32 0x00000000#32 + _ = _
  rw [Ideal.ofBits_zero_f32, zero_add, sum_idx2]
  unfold rSum
  exact Finset.sum_congr rfl fun R _ => Finset.sum_congr rfl fun C _ => v56_at x x R C

/-- The reference's result stage is the constant function at the reference's specification: the three sums, each
    divided by the number of pairs, the first two added and twice the third subtracted. -/
theorem result_eq (a0 a1 : Arr) : val_main_v65 (F := Ideal) a0 a1 = fun _ => refSpec a0 a1 := by
  funext i
  rw [val_main_v65_apply, val_main_v61_apply, val_main_v64_apply, val_main_v58_apply, val_main_v60_apply, val_main_v63_apply,
    v57_at, v59_at, v62_at]
  rfl

/-- Every weakly fair execution of the reference terminates with its result at the specification of the arguments'
    launch contents and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v65)
          = (fun _ => refSpec (m' ((c.tc : Thread nD τ).loc main_arg0)) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun _ h c => ⟨(h c).1.trans ((val_main_v65_eq _ _).trans (result_eq _ _)), (h c).2⟩)
    (Cert.ReferenceIdeal.Value.run (F := Ideal) m' ρ')

end Cert.ReferenceIdeal.RefValue

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.LibLossLaws.lean ====
/-
  The laws on the extended reals that join a numerically stable loss to its textbook form.

  Every float of an idealized program is an extended real, and the usual algebra (cancelling, regrouping a sum of
  products, log (a · b) = log a + log b) holds for real numbers and can fail at an infinity. The programs compared here
  work on finite inputs, so every entry they meet is a real number; this file has the laws that are then needed:

    * the stable softplus: max (x, 0) + log1p (exp (0 − |x|)) = log1p (exp x) for a real x, where |x| is spelled
      max (x, −x); and its value, the real number log (1 + exp x);
    * the square root of a nonnegative real number is the real square root; of max (a, ε) with ε ≥ 0 in particular;
    * the maximum of two real numbers, inside the extended reals, is the real maximum;
    * each float literal of the two programs denotes a real number, the small ones nonnegative, and 2.0 and 2^26 exactly;
    * real numbers are closed under −, max, negation, the square root of a nonnegative one and the softplus terms (sums,
      products and finite sums are in the imported library), and a regrouping of a sum of products of real numbers is
      proved by moving the coercions outward and appealing to the ring laws of the real numbers.

  Nothing here depends on a particular program.
-/
import Idealize.ShloMosaic.PureOps.Ideal
import Idealize.ShloMosaic.PureOps.Ideal.Laws
import Mathlib.Analysis.SpecialFunctions.Log.Basic
import Mathlib.Tactic
import proofs.«124713_j8907762171929_2_alg».proof.Proof.LibRealValued

noncomputable section

namespace Cert.LossLaws

open Idealize.ShloMosaic
open Cert.RealValued (IsReal isReal_zero isReal_sum ieee_isReal)

/-! ### Maximum, softplus and square root of real numbers -/

/-- The coercion of the real numbers into the extended reals is monotone, so it commutes with the maximum. -/
theorem max_real (a b : ℝ) : max (a : EReal) (b : EReal) = ((max a b : ℝ) : EReal) :=
  (EReal.coe_strictMono.monotone.map_max).symm

/-- log1p (exp x) of a real x is the real number log (1 + exp x): 1 + exp x is positive, so the logarithm is at no
    corner. -/
theorem log1p_exp_real (x : ℝ) :
    Ideal.log1p (Ideal.exp (x : EReal)) = ((Real.log (1 + Real.exp x) : ℝ) : EReal) := by
  have hpos : ¬ (1 + Real.exp x ≤ 0) := not_le.mpr (by positivity)
  rw [Ideal.log1p, Ideal.exp_coe, ← EReal.coe_one, ← EReal.coe_add, Ideal.log_coe, if_neg hpos]

/-- The stable softplus over the real numbers. For x ≥ 0: x + log (1 + exp (−x)) = log (exp x · (1 + exp (−x)))
    = log (exp x + 1). For x ≤ 0: |x| = −x and the left side is 0 + log (1 + exp x). -/
theorem softplus_real (x : ℝ) :
    max x 0 + Real.log (1 + Real.exp (0 - max x (-x))) = Real.log (1 + Real.exp x) := by
  rcases le_total 0 x with h | h
  · have h1 : max x 0 = x := max_eq_left h
    have h2 : max x (-x) = x := max_eq_left (by linarith)
    have hpos : (0 : ℝ) < 1 + Real.exp (-x) := by positivity
    rw [h1, h2, zero_sub]
    calc x + Real.log (1 + Real.exp (-x))
        = Real.log (Real.exp x) + Real.log (1 + Real.exp (-x)) := by rw [Real.log_exp]
      _ = Real.log (Real.exp x * (1 + Real.exp (-x))) :=
          (Real.log_mul (Real.exp_pos x).ne' hpos.ne').symm
      _ = Real.log (1 + Real.exp x) := by
          congr 1
          rw [mul_add, mul_one, ← Real.exp_add, add_neg_cancel, Real.exp_zero, add_comm]
  · have h1 : max x 0 = 0 := max_eq_right h
    have h2 : max x (-x) = -x := max_eq_right (by linarith)
    rw [h1, h2, zero_add, zero_sub, neg_neg]

/-- The stable form's inner argument 0 − |x| of a real x is the real number 0 − max (x, −x). -/
theorem neg_abs_real (x : ℝ) :
    (0 : EReal) - max (x : EReal) (-(x : EReal)) = ((0 - max x (-x) : ℝ) : EReal) := by
  rw [← EReal.coe_neg, max_real, ← EReal.coe_zero, ← EReal.coe_sub]

/-- max (x, 0) of a real x is the real maximum. -/
theorem max_zero_real (x : ℝ) : max (x : EReal) 0 = ((max x 0 : ℝ) : EReal) := by
  rw [← EReal.coe_zero, max_real]

/-- The stable softplus on the extended reals, at a real x: both sides are real numbers and the real law applies. -/
theorem softplus_stable (x : ℝ) :
    max (x : EReal) 0 + Ideal.log1p (Ideal.exp (0 - max (x : EReal) (-(x : EReal))))
      = Ideal.log1p (Ideal.exp (x : EReal)) := by
  rw [max_zero_real, neg_abs_real, log1p_exp_real, log1p_exp_real, ← EReal.coe_add, softplus_real]

/-- The stable softplus of a real x is the real number log (1 + exp x). -/
theorem softplus_stable_value (x : ℝ) :
    max (x : EReal) 0 + Ideal.log1p (Ideal.exp (0 - max (x : EReal) (-(x : EReal))))
      = ((Real.log (1 + Real.exp x) : ℝ) : EReal) := by
  rw [softplus_stable, log1p_exp_real]

/-- The square root of a nonnegative real number is the real square root. -/
theorem sqrt_real {r : ℝ} (h : 0 ≤ r) : Ideal.sqrt (r : EReal) = ((Real.sqrt r : ℝ) : EReal) := by
  rw [Ideal.sqrt_coe, if_neg (not_lt.mpr h)]

/-- The square root of max (a, ε), for real a and a real ε ≥ 0, is the real square root of the real maximum. -/
theorem sqrt_max_real (a : ℝ) {e : ℝ} (he : 0 ≤ e) :
    Ideal.sqrt (max (a : EReal) (e : EReal)) = ((Real.sqrt (max a e) : ℝ) : EReal) := by
  rw [max_real, sqrt_real (le_trans he (le_max_right a e))]

/-! ### Real numbers inside the extended reals: closure -/

/-- A coerced real number is a real number. -/
theorem isReal_coe (r : ℝ) : IsReal (r : EReal) := ⟨r, rfl⟩

/-- One is a real number. -/
theorem isReal_one : IsReal 1 := ⟨1, EReal.coe_one.symm⟩

/-- The negation of a real number is a real number. -/
theorem _root_.Cert.RealValued.IsReal.neg {a : EReal} (ha : IsReal a) : IsReal (-a) := by
  obtain ⟨r, rfl⟩ := ha
  exact ⟨-r, (EReal.coe_neg r).symm⟩

/-- The difference of two real numbers is a real number. -/
theorem _root_.Cert.RealValued.IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two real numbers is a real number. -/
theorem _root_.Cert.RealValued.IsReal.max {a b : EReal} (ha : IsReal a) (hb : IsReal b) : IsReal (Max.max a b) := by
  obtain ⟨r, rfl⟩ := ha
  obtain ⟨s, rfl⟩ := hb
  exact ⟨Max.max r s, max_real r s⟩

/-- A sum of real numbers over a whole finite index type is a real number. -/
theorem _root_.Cert.RealValued.IsReal.sum {ι : Type} [Fintype ι] {f : ι → EReal} (h : ∀ i, IsReal (f i)) : IsReal (∑ i, f i) :=
  isReal_sum Finset.univ f fun i _ => h i

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The square root of a nonnegative real number is a real number. -/
theorem _root_.Cert.RealValued.IsReal.sqrt {a : EReal} (ha : IsReal a) (h0 : 0 ≤ a) : IsReal (Ideal.sqrt a) := by
  obtain ⟨r, rfl⟩ := ha
  have hr : 0 ≤ r := by rwa [← EReal.coe_zero, EReal.coe_le_coe_iff] at h0
  exact ⟨Real.sqrt r, sqrt_real hr⟩

/-- The square root of max (a, ε), for real a and a real ε ≥ 0, is a real number. -/
theorem _root_.Cert.RealValued.IsReal.sqrt_max {a e : EReal} (ha : IsReal a) (he : IsReal e) (h0 : 0 ≤ e) :
    IsReal (Ideal.sqrt (Max.max a e)) :=
  (ha.max he).sqrt (le_trans h0 (le_max_right a e))

/-- log1p (exp a) of a real number a is a real number. -/
theorem _root_.Cert.RealValued.IsReal.log1p_exp {a : EReal} (ha : IsReal a) : IsReal (Ideal.log1p (Ideal.exp a)) := by
  obtain ⟨r, rfl⟩ := ha
  exact ⟨_, log1p_exp_real r⟩

/-- The stable softplus at a real number, stated on an extended real known to be one. -/
theorem softplus_stable_of_isReal {a : EReal} (ha : IsReal a) :
    max a 0 + Ideal.log1p (Ideal.exp (0 - max a (-a))) = Ideal.log1p (Ideal.exp a) := by
  obtain ⟨r, rfl⟩ := ha
  exact softplus_stable r

/-- The stable softplus term of a real number is a real number. -/
theorem _root_.Cert.RealValued.IsReal.softplus {a : EReal} (ha : IsReal a) :
    IsReal (Max.max a 0 + Ideal.log1p (Ideal.exp (0 - Max.max a (-a)))) := by
  rw [softplus_stable_of_isReal ha]
  exact ha.log1p_exp

/-! ### The same laws in the operations of an idealized program

An idealized program spells these terms in the float operations at the extended reals — sum, difference, maximum,
absolute value max (a, −a), exp, log1p, sqrt — and its zero as the all-zero f32 word. Each operation is by definition
the extended-real one, so the laws above apply as they stand. -/

/-- The stable softplus in a program's operations, its zero the all-zero f32 word. -/
theorem softplus_stable_ops (a : Ideal .f32) (ha : IsReal a) :
    FloatOps.addf (FloatOps.maximumf a (Ideal.ofBits .f32 0x00000000#32))
        (FloatOps.log1p (FloatOps.exp (FloatOps.subf (Ideal.ofBits .f32 0x00000000#32) (FloatOps.absf a))))
      = FloatOps.log1p (FloatOps.exp a) := by
  show max a (Ideal.ofBits .f32 0x00000000#32)
      + Ideal.log1p (Ideal.exp (Ideal.ofBits .f32 0x00000000#32 - max a (-a))) = Ideal.log1p (Ideal.exp a)
  rw [Ideal.ofBits_zero_f32]
  exact softplus_stable_of_isReal ha

/-- A program's square root of a maximum with a nonnegative real ε, at a real number: a real number. -/
theorem isReal_sqrt_max_ops {a e : Ideal .f32} (ha : IsReal a) (he : IsReal e) (h0 : (0 : EReal) ≤ e) :
    IsReal (FloatOps.sqrt (FloatOps.maximumf a e) : Ideal .f32) :=
  IsReal.sqrt_max ha he h0

/-! ### The float literals of the two programs -/

/-- An f32 word whose exponent field is not all ones denotes a real number. -/
theorem f32_isReal (w : BitVec 32) (h : (w.extractLsb' 23 8).toNat ≠ 2 ^ 8 - 1) :
    IsReal (Ideal.ofBits .f32 w) :=
  ieee_isReal 8 23 w h

/-- A float word with a clear sign bit and an exponent field that is not all ones denotes a nonnegative real number:
    its value is a natural number times a power of two. -/
theorem ieee_nonneg (e m : Nat) {w : Nat} (b : BitVec w) (h : (b.extractLsb' m e).toNat ≠ 2 ^ e - 1)
    (hs : (b.extractLsb' (e + m) 1 == 1#1) = false) : ∃ r : ℝ, 0 ≤ r ∧ Ideal.ieee e m b = (r : EReal) := by
  unfold Ideal.ieee
  dsimp only
  rw [if_neg h, hs]
  simp only [Bool.false_eq_true, if_false]
  split
  · exact ⟨_, by positivity, rfl⟩
  · exact ⟨_, by positivity, rfl⟩

/-- The same for an f32 word. -/
theorem f32_nonneg (w : BitVec 32) (h : (w.extractLsb' 23 8).toNat ≠ 2 ^ 8 - 1)
    (hs : (w.extractLsb' 31 1 == 1#1) = false) : ∃ r : ℝ, 0 ≤ r ∧ Ideal.ofBits .f32 w = (r : EReal) :=
  ieee_nonneg 8 23 w h hs

/-- 0.0 -/
theorem lit_zero : Ideal.ofBits .f32 0x00000000#32 = ((0 : ℝ) : EReal) := by
  rw [Ideal.ofBits_zero_f32, EReal.coe_zero]

/-- 1e-12 as an f32: a nonnegative real number. -/
theorem lit_eps12 : ∃ r : ℝ, 0 ≤ r ∧ Ideal.ofBits .f32 0x2B8CBCCC#32 = (r : EReal) :=
  f32_nonneg _ (by decide) (by decide)

/-- 1e-6 as an f32: a nonnegative real number. -/
theorem lit_eps6 : ∃ r : ℝ, 0 ≤ r ∧ Ideal.ofBits .f32 0x358637BD#32 = (r : EReal) :=
  f32_nonneg _ (by decide) (by decide)

/-- 2e-6 as an f32: a nonnegative real number. -/
theorem lit_2eps6 : ∃ r : ℝ, 0 ≤ r ∧ Ideal.ofBits .f32 0x360637BD#32 = (r : EReal) :=
  f32_nonneg _ (by decide) (by decide)

/-- 5.12e-10 as an f32: a nonnegative real number. -/
theorem lit_512eps12 : ∃ r : ℝ, 0 ≤ r ∧ Ideal.ofBits .f32 0x300CBCCC#32 = (r : EReal) :=
  f32_nonneg _ (by decide) (by decide)

/-- 2.0: sign 0, exponent field 128, fraction 0, that is 2^23 · 2^(128 − 127 − 23) = 2. -/
theorem lit_two : Ideal.ofBits .f32 0x40000000#32 = ((2 : ℝ) : EReal) := by
  simp [Ideal.ofBits, Ideal.ieee, -EReal.coe_mul]; norm_num

/-- 2^26: sign 0, exponent field 153, fraction 0, that is 2^23 · 2^(153 − 127 − 23) = 2^26 = 67108864. -/
theorem lit_two_pow_26 : Ideal.ofBits .f32 0x4C800000#32 = ((67108864 : ℝ) : EReal) := by
  simp [Ideal.ofBits, Ideal.ieee, -EReal.coe_mul]; norm_num

/-- Every float literal of the two programs is a real number. -/
theorem lit_isReal :
    IsReal (Ideal.ofBits .f32 0x00000000#32) ∧ IsReal (Ideal.ofBits .f32 0x2B8CBCCC#32)
      ∧ IsReal (Ideal.ofBits .f32 0x358637BD#32) ∧ IsReal (Ideal.ofBits .f32 0x360637BD#32)
      ∧ IsReal (Ideal.ofBits .f32 0x300CBCCC#32) ∧ IsReal (Ideal.ofBits .f32 0x40000000#32)
      ∧ IsReal (Ideal.ofBits .f32 0x4C800000#32) :=
  ⟨f32_isReal _ (by decide), f32_isReal _ (by decide), f32_isReal _ (by decide), f32_isReal _ (by decide),
    f32_isReal _ (by decide), f32_isReal _ (by decide), f32_isReal _ (by decide)⟩

/-- The ε under the square root is nonnegative as an extended real. -/
theorem lit_eps12_nonneg : (0 : EReal) ≤ Ideal.ofBits .f32 0x2B8CBCCC#32 := by
  obtain ⟨r, hr, e⟩ := lit_eps12
  rw [e, ← EReal.coe_zero, EReal.coe_le_coe_iff]
  exact hr

/-! ### Regrouping a sum of products of real numbers

The extended reals are not a ring: a product does not distribute over a sum, and a − a is not 0, when an infinity is
present. For real numbers move every coercion outward — each of +, −, · of coerced real numbers is the coerced
real operation — until both sides are one coerced real expression, and the ring laws of the real numbers finish. -/

/-- The squared distance regrouped: the row term a2 + c·sa + e, the column term p2 − c·sp, minus k times the product,
    against a2 + p2 − k·d plus the correction c·(sa − sp) + e. -/
theorem real_ring_example (a2 sa p2 sp d c e k : ℝ) :
    (((a2 : EReal) + (c : EReal) * (sa : EReal) + (e : EReal)) + ((p2 : EReal) - (c : EReal) * (sp : EReal)))
        - (k : EReal) * (d : EReal)
      = ((((a2 : EReal) + (p2 : EReal)) - (k : EReal) * (d : EReal)) + (c : EReal) * ((sa : EReal) - (sp : EReal)))
        + (e : EReal) := by
  simp only [← EReal.coe_add, ← EReal.coe_mul, ← EReal.coe_sub]
  congr 1
  ring

/-- The same law on extended reals known to be real numbers: name the real numbers, then proceed as above. -/
theorem real_ring_example_isReal {a2 sa p2 sp d c e k : EReal} (h1 : IsReal a2) (h2 : IsReal sa) (h3 : IsReal p2)
    (h4 : IsReal sp) (h5 : IsReal d) (h6 : IsReal c) (h7 : IsReal e) (h8 : IsReal k) :
    ((a2 + c * sa + e) + (p2 - c * sp)) - k * d = (((a2 + p2) - k * d) + c * (sa - sp)) + e := by
  obtain ⟨a2, rfl⟩ := h1
  obtain ⟨sa, rfl⟩ := h2
  obtain ⟨p2, rfl⟩ := h3
  obtain ⟨sp, rfl⟩ := h4
  obtain ⟨d, rfl⟩ := h5
  obtain ⟨c, rfl⟩ := h6
  obtain ⟨e, rfl⟩ := h7
  obtain ⟨k, rfl⟩ := h8
  exact real_ring_example a2 sa p2 sp d c e k

end Cert.LossLaws

end
-- ==== Proof.SpecLawEntry.lean ====
/-
  The two sides agree entry by entry on arrays of real numbers.

  With real entries the squared length of a row, the inner product of two rows and the squared distance are real
  numbers. The float words are 2, -1/2, 1 and 2^26. For a real d, exp (d · (-1/2)) = exp ((-d) / 2): both are the
  real exponential at the same real number. On the diagonal of a self-similarity sum the squared distance of a row
  to itself is (s + s) - 2 · s = 0 for the real squared length s, and exp (-0 / 2) = exp 0 = 1, the value the kernel
  puts there. So the kernel's entry equals the reference's entry everywhere.
-/
import proofs.«124713_j8907762171929_2_alg».proof.Proof.Spec
import proofs.«124713_j8907762171929_2_alg».proof.Proof.LibRealValued
import proofs.«124713_j8907762171929_2_alg».proof.Proof.LibLossLaws

noncomputable section

namespace Cert.MMD

open Idealize.ShloMosaic Idealize.ShloMosaic.ValueIdx
open Cert.RealValued (IsReal isReal_sum sub_self_of_isReal)

/-! ### The float words -/

/-- 2.0 -/
theorem wTwo_eq : wTwo = ((2 : ℝ) : EReal) := Cert.LossLaws.lit_two

/-- 2^26 -/
theorem wCount_eq : wCount = ((67108864 : ℝ) : EReal) := Cert.LossLaws.lit_two_pow_26

/-- -0.5: sign 1, exponent field 126, fraction 0, that is -(2^23 · 2^(126 - 127 - 23)) = -1/2. -/
theorem wNegHalf_eq : wNegHalf = ((-(1 / 2) : ℝ) : EReal) := by
  simp [Ideal.ofBits, Ideal.ieee, -EReal.coe_mul]; norm_num

/-- 1.0: sign 0, exponent field 127, fraction 0, that is 2^23 · 2^(127 - 127 - 23) = 1. -/
theorem wOne_eq : wOne = 1 := by
  simp [Ideal.ofBits, Ideal.ieee, -EReal.coe_mul]; norm_num

/-! ### Real numbers -/

/-- The squared length of a row of real numbers is a real number. -/
theorem isReal_rowSq (a : Arr) (h : AllReal a) (R : Fin 8192) : IsReal (rowSq a R) :=
  isReal_sum _ _ fun d _ => IsReal.mul (h (ix2 R d)) (h (ix2 R d))

/-- The inner product of two rows of real numbers is a real number. -/
theorem isReal_gram (x y : Arr) (hx : AllReal x) (hy : AllReal y) (R C : Fin 8192) : IsReal (gram x y R C) :=
  isReal_sum _ _ fun d _ => IsReal.mul (hx (ix2 R d)) (hy (ix2 C d))

/-- The squared distance between two rows of real numbers is a real number. -/
theorem isReal_dist (x y : Arr) (hx : AllReal x) (hy : AllReal y) (R C : Fin 8192) : IsReal (dist x y R C) :=
  ((isReal_rowSq x hx R).add (isReal_rowSq y hy C)).sub (IsReal.mul ⟨2, wTwo_eq⟩ (isReal_gram x y hx hy R C))

/-- The squared distance of a row of real numbers to itself is 0: (s + s) - 2 · s for the real squared length s. -/
theorem dist_self (x : Arr) (hx : AllReal x) (R : Fin 8192) : dist x x R R = 0 := by
  obtain ⟨s, hs⟩ := isReal_rowSq x hx R
  have hg : gram x x R R = rowSq x R := rfl
  have e : s + s - 2 * s = 0 := by ring
  unfold dist
  rw [hg, hs, wTwo_eq, ← EReal.coe_add, ← EReal.coe_mul, ← EReal.coe_sub, e, EReal.coe_zero]

/-! ### The entries -/

/-- For a real d, exp (d · (-1/2)) = exp ((-d) / 2). -/
theorem exp_negHalf (d : EReal) (hd : IsReal d) : Ideal.exp (d * wNegHalf) = Ideal.exp (Ideal.div (-d) wTwo) := by
  obtain ⟨r, rfl⟩ := hd
  have e : r * (-(1 / 2)) = -r * (1 / 2 : ℝ) := by ring
  rw [wNegHalf_eq, wTwo_eq, Ideal.div_coe two_ne_zero, ← EReal.coe_neg, ← EReal.coe_mul, ← EReal.coe_mul, e]

/-- The reference's entry on arrays of real numbers is a real number. -/
theorem isReal_rEntry (x y : Arr) (hx : AllReal x) (hy : AllReal y) (R C : Fin 8192) : IsReal (rEntry x y R C) := by
  obtain ⟨r, hr⟩ := isReal_dist x y hx hy R C
  unfold rEntry
  rw [hr, wTwo_eq, Ideal.div_coe two_ne_zero, ← EReal.coe_neg, ← EReal.coe_mul, Ideal.exp_coe]
  exact ⟨_, rfl⟩

/-- Off the masked diagonal the kernel's entry is the reference's. -/
theorem kEntry_false (x y : Arr) (hx : AllReal x) (hy : AllReal y) (R C : Fin 8192) :
    kEntry false x y R C = rEntry x y R C := by
  unfold kEntry rEntry
  rw [if_neg (fun h => Bool.noConfusion h.1)]
  exact exp_negHalf _ (isReal_dist x y hx hy R C)

/-- In a self-similarity sum the kernel's entry is the reference's, on the diagonal too. -/
theorem kEntry_true_self (x : Arr) (hx : AllReal x) (R C : Fin 8192) :
    kEntry true x x R C = rEntry x x R C := by
  unfold kEntry rEntry
  by_cases h : R = C
  · subst h
    rw [if_pos ⟨rfl, rfl⟩, dist_self x hx R, neg_zero, wTwo_eq, Ideal.div_coe two_ne_zero, zero_mul,
      Cert.RealValued.exp_zero, wOne_eq]
  · rw [if_neg (fun h' => h h'.2)]
    exact exp_negHalf _ (isReal_dist x x hx hx R C)

end Cert.MMD

end
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.SpecLaw.lean ====
/-
  The algebraic law between the two sides: on arrays of real numbers the kernel's value is the reference's.

  The kernel sums each Gaussian-kernel matrix tile by tile: sixteen bands of sixteen tiles of 512 × 512 entries. Row
  512 · t + r is row r of band t, so the sum over the bands and the rows of a band is the sum over all 8192 rows, and
  likewise for the columns; exchanging the sum over a band's tiles with the sum over its rows, the tiled sum is the
  sum over all pairs. This regrouping holds in any commutative monoid: nothing has to be finite. Entry by entry the
  two sides agree on arrays of real numbers. Last, the kernel doubles the cross sum before dividing by 2^26 and
  the reference after: division by the nonzero real 2^26 is multiplication by its reciprocal, and multiplication of
  extended reals is associative.
-/
import proofs.«124713_j8907762171929_2_alg».proof.Proof.Spec
import proofs.«124713_j8907762171929_2_alg».proof.Proof.SpecLawEntry
import proofs.«124713_j8907762171929_2_alg».proof.Proof.LibChunkSum

noncomputable section

namespace Cert.MMD

open Idealize.ShloMosaic Idealize.ShloMosaic.ValueIdx

/-- Row r of band t is entry r of chunk t when the 8192 rows are cut into sixteen chunks of 512. -/
theorem bandRow_eq (t : Fin 16) (r : Fin 512) :
    bandRow t r = ChunkSum.at_ (n := 16) (m := 512) (N := 8192) (by norm_num) t r :=
  Fin.ext (by simp only [bandRow, ChunkSum.at_val]; omega)

/-- A sum over bands, tiles, rows of a band and columns of a tile is the sum over all pairs of a row and a column. -/
theorem sum_tiles {M : Type*} [AddCommMonoid M] (f : Fin 8192 → Fin 8192 → M) :
    ∑ t : Fin 16, ∑ k : Fin 16, ∑ r : Fin 512, ∑ c : Fin 512, f (bandRow t r) (bandRow k c)
      = ∑ R : Fin 8192, ∑ C : Fin 8192, f R C := by
  have h : (16 : ℕ) * 512 = 8192 := by norm_num
  simp only [bandRow_eq]
  rw [← ChunkSum.sum_chunks h (fun R => ∑ C : Fin 8192, f R C)]
  refine Finset.sum_congr rfl fun t _ => ?_
  rw [Finset.sum_comm]
  refine Finset.sum_congr rfl fun r _ => ?_
  exact ChunkSum.sum_chunks h (fun C => f (ChunkSum.at_ h t r) C)

/-- The kernel's tiled sum is the sum of its entries over all pairs. -/
theorem kSum_eq (mask : Bool) (x y : Arr) :
    kSum mask x y = ∑ R : Fin 8192, ∑ C : Fin 8192, kEntry mask x y R C := by
  unfold kSum kBand kTile
  exact sum_tiles (kEntry mask x y)

/-- A self-similarity sum of an array of real numbers: the kernel's is the reference's. -/
theorem kSum_true_self (x : Arr) (hx : AllReal x) : kSum true x x = rSum x x := by
  rw [kSum_eq]
  exact Finset.sum_congr rfl fun R _ => Finset.sum_congr rfl fun C _ => kEntry_true_self x hx R C

/-- The cross sum of two arrays of real numbers: the kernel's is the reference's. -/
theorem kSum_false (x y : Arr) (hx : AllReal x) (hy : AllReal y) : kSum false x y = rSum x y := by
  rw [kSum_eq]
  exact Finset.sum_congr rfl fun R _ => Finset.sum_congr rfl fun C _ => kEntry_false x y hx hy R C

/-- On arrays of real numbers the kernel's value is the reference's. -/
theorem kernelSpec_eq_refSpec (a0 a1 : Arr) (h0 : AllReal a0) (h1 : AllReal a1) :
    kernelSpec a0 a1 = refSpec a0 a1 := by
  have hc : (67108864 : ℝ) ≠ 0 := by norm_num
  unfold kernelSpec refSpec
  rw [kSum_true_self a0 h0, kSum_true_self a1 h1, kSum_false a0 a1 h0 h1, wCount_eq]
  simp only [Ideal.div_coe hc, mul_assoc]

end Cert.MMD

end
-- ==== Proof.Finite.lean ====
/-
  The precondition read back.

  The generated precondition says, of each of the two argument arrays, that every entry a has |a| < +inf, the two
  statements joined by "and"; on the extended reals |a| = max (a, -a) is +inf at either infinity, so each statement
  says that every entry of its array is a real number.
-/
import proofs.«124713_j8907762171929_2_alg».proof.Proof.Spec
import proofs.«124713_j8907762171929_2_alg».proof.Proof.LibRealValued
import proofs.«124713_j8907762171929_2_alg».proof.Defs

noncomputable section

namespace Cert.MMD

open Idealize.ShloMosaic Idealize.ShloMosaic.ValueIdx Idealize.SL.Sem

/-- If the precondition holds of two arrays, every entry of either is a real number. -/
theorem allReal_of_pre [Cert.Pre_finite_inputs.Facts]
    (a0 a1 : FVec Ideal Cert.Pre_finite_inputs.S8192x512 .f32)
    (h : Cert.Pre_finite_inputs.fn (F := Ideal) a0 a1 = fun _ => 1#1) : AllReal a0 ∧ AllReal a1 := by
  have h' := congrFun h ix0
  dsimp only [Cert.Pre_finite_inputs.fn, andi] at h'
  obtain ⟨e0, e1⟩ := IntOp.andi_eq_one.1 h'
  exact ⟨fun i => Cert.RealValued.all_isReal a0 _ _ _ _ e0 i, fun i => Cert.RealValued.all_isReal a1 _ _ _ _ e1 i⟩

/-- The same of the two argument buffers of a memory of which the claim's precondition holds, at any device. -/
example [Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    AllReal (m ((c.tc : Thread Cert.KernelIdeal.nD Cert.KernelIdeal.τ).loc Cert.KernelIdeal.main_arg0))
      ∧ AllReal (m ((c.tc : Thread Cert.KernelIdeal.nD Cert.KernelIdeal.τ).loc Cert.KernelIdeal.main_arg1)) :=
  allReal_of_pre _ _ (hm c)

end Cert.MMD

end
-- ==== Proof.lean ====
/-
  The certificate of an MMD loss kernel against its jnp reference, over the extended reals.

  Both programs compute, for two arrays x, y of 8192 rows of 512 numbers, mean(K_xx) + mean(K_yy) − 2·mean(K_xy), where
  K_ab is the 8192×8192 Gaussian matrix exp(−d²/2) of the squared distances d² = |a_R|² + |b_C|² − 2⟨a_R, b_C⟩.  The
  kernel's program computes the row norms on the host, then runs one pipelined kernel per matrix: sixteen grid points, each
  a band of 512 rows, each summing sixteen 512×512 tiles in a loop (the tile's entries from one matrix product of the row
  tile with a 512-row chunk of the other array), the band's total written to the point's block of a [16,1,128] array; the
  host adds the sixteen totals and combines the three sums.  In the two self-similarity matrices the kernel puts 1 on the
  diagonal instead of computing it; with finite inputs the diagonal's distance is (s + s) − 2·s = 0 and exp 0 = 1, so that
  is the reference's entry.  Elsewhere exp(d·(−1/2)) = exp((−d)/2) for a real d; the tile-by-tile sum is a regrouping of
  the sum over all pairs; and 2·(S/2²⁶) = (2·S)/2²⁶.

  The three frames: each program runs to its end, faults nowhere, and leaves its arguments unchanged — the kernel's program
  (at either instance) by its run through the three regions, the reference by its run.  No ideal-pass rewrite was applied,
  so the idealization statement is empty.  The value claim: the kernel program's result is `kernelSpec` of the arguments
  (the run, the band totals, the host sums), the reference's is `refSpec`, and the two agree on real arrays.
-/
import proofs.«124713_j8907762171929_2_alg».proof.Defs
import proofs.«124713_j8907762171929_2_alg».proof.Proof.Gen.Kernel
import proofs.«124713_j8907762171929_2_alg».proof.Proof.Gen.KernelIdeal
import proofs.«124713_j8907762171929_2_alg».proof.Proof.Gen.ReferenceIdeal
import proofs.«124713_j8907762171929_2_alg».proof.Proof.Gen.Pre_finite_inputs
import proofs.«124713_j8907762171929_2_alg».proof.Proof.KMain
import proofs.«124713_j8907762171929_2_alg».proof.Proof.KIMain
import proofs.«124713_j8907762171929_2_alg».proof.Proof.KIFinal
import proofs.«124713_j8907762171929_2_alg».proof.Proof.RefValue
import proofs.«124713_j8907762171929_2_alg».proof.Proof.SpecLaw
import proofs.«124713_j8907762171929_2_alg».proof.Proof.Finite
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ =>
  (θ_run Cert.Kernel.defs _ _).mono (fun _ h c => (h c).2) (Cert.Kernel.Hand.main_run (F := Bits) m ρ)

/-- So does the idealized program. -/
theorem frame_ki : Cert.frame_KernelIdeal := fun m ρ _ =>
  (θ_run Cert.KernelIdeal.defs _ _).mono (fun _ h c => (h c).2) (Cert.KernelIdeal.Hand.main_run (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the two finite arrays, both idealized programs end at the same extended real: the kernel
    program's result is `kernelSpec`, the reference's `refSpec`, and the two agree on arrays of real numbers. -/
theorem algebraic : Cert.algebraic_KernelIdeal_ReferenceIdeal := by
  intro m ρ m' ρ' hpre hagree
  refine ⟨fun c => (fun _ => Cert.MMD.kernelSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.Hand.result_value m c), (h c).2⟩)
      (Cert.KernelIdeal.Hand.main_run (F := Ideal) m ρ)
  · refine (θ_run Cert.ReferenceIdeal.defs _ _).mono (fun _ h c => ⟨(h c).1.trans ?_, (h c).2⟩)
      (Cert.ReferenceIdeal.RefValue.ref_run m' ρ')
    rw [(hagree c).1, (hagree c).2]
    funext _
    exact (Cert.MMD.kernelSpec_eq_refSpec _ _ (Cert.MMD.allReal_of_pre _ _ (hpre c)).1 (Cert.MMD.allReal_of_pre _ _ (hpre c)).2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
